-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S1856x4096 : Shape := ⟨2, ![1856, 4096]⟩
abbrev S512x384 : Shape := ⟨2, ![512, 384]⟩
abbrev S512x320 : Shape := ⟨2, ![512, 320]⟩
abbrev S512x256 : Shape := ⟨2, ![512, 256]⟩
abbrev S512x192 : Shape := ⟨2, ![512, 192]⟩
abbrev S512x128 : Shape := ⟨2, ![512, 128]⟩
abbrev S512 : Shape := ⟨1, ![512]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S1856x4096 : S_.BroadcastsInDim S1856x4096 (![] : Fin 0 → Fin S1856x4096.rank)
  reducesTo_S1856x4096_S_d0_1 : S1856x4096.ReducesTo [0, 1] S_
  bcast_S_S512x384 : S_.BroadcastsInDim S512x384 (![] : Fin 0 → Fin S512x384.rank)
  reducesTo_S512x384_S_d0_1 : S512x384.ReducesTo [0, 1] S_
  bcast_S_S512x320 : S_.BroadcastsInDim S512x320 (![] : Fin 0 → Fin S512x320.rank)
  reducesTo_S512x320_S_d0_1 : S512x320.ReducesTo [0, 1] S_
  bcast_S_S512x256 : S_.BroadcastsInDim S512x256 (![] : Fin 0 → Fin S512x256.rank)
  reducesTo_S512x256_S_d0_1 : S512x256.ReducesTo [0, 1] S_
  bcast_S_S512x192 : S_.BroadcastsInDim S512x192 (![] : Fin 0 → Fin S512x192.rank)
  reducesTo_S512x192_S_d0_1 : S512x192.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  main_v88

def fn_part4 {F : FTy → Type} [FloatOps F] (main_arg14 : FVec F S512 .f32) (main_arg15 : FVec F S512 .f32) (main_arg16 : FVec F S512 .f32) (main_arg17 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_v83 main_v84 main_cst_32

def fn_part3 {F : FTy → Type} [FloatOps F] (main_arg11 : FVec F S512 .f32) (main_arg12 : FVec F S512 .f32) (main_arg13 : FVec F S512 .f32) (main_arg14 : FVec F S512 .f32) (main_arg15 : FVec F S512 .f32) (main_arg16 : FVec F S512 .f32) (main_arg17 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_v63 main_v67

def fn_part2 {F : FTy → Type} [FloatOps F] (main_arg7 : FVec F S512x192 .f32) (main_arg8 : FVec F S512x128 .f32) (main_arg9 : FVec F S512x128 .f32) (main_arg10 : FVec F S512 .f32) (main_arg11 : FVec F S512 .f32) (main_arg12 : FVec F S512 .f32) (main_arg13 : FVec F S512 .f32) (main_arg14 : FVec F S512 .f32) (main_arg15 : FVec F S512 .f32) (main_arg16 : FVec F S512 .f32) (main_arg17 : FVec F S512 .f32) (main_v33 : IVec S_ 1) : IVec S_ 1 :=
  let main_v34 : FVec F S512x192 .f32 := Host.absf main_arg7
  let main_cst_12 : FVec F S_ .f32 := constant S_ .f32 0x7F800000#32
  let main_v35 : FVec F S512x192 .f32 := broadcastInDim S512x192 ![] bcast_S_S512x192 main_cst_12
  let main_v36 : IVec S512x192 1 := cmpf .olt main_v34 main_v35
  let main_c_13 : IVec S_ 1 := constantI S_ 1 1#1
  let main_v37 : IVec S_ 1 := (fun x v => Host.reduce IntOp.andi x v reducesTo_S512x192_S_d0_1 h_S_) main_v36 main_c_13
  let main_v38 : IVec S_ 1 := andi main_v33 main_v37
  let main_v39 : FVec F S512x128 .f32 := Host.absf main_arg8
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S512x128 .f32 := Host.absf main_arg9
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_v48 main_v49 main_v50

def fn_part1 {F : FTy → Type} [FloatOps F] (main_arg4 : FVec F S512x256 .f32) (main_arg5 : FVec F S512x256 .f32) (main_arg6 : FVec F S512x192 .f32) (main_arg7 : FVec F S512x192 .f32) (main_arg8 : FVec F S512x128 .f32) (main_arg9 : FVec F S512x128 .f32) (main_arg10 : FVec F S512 .f32) (main_arg11 : FVec F S512 .f32) (main_arg12 : FVec F S512 .f32) (main_arg13 : FVec F S512 .f32) (main_arg14 : FVec F S512 .f32) (main_arg15 : FVec F S512 .f32) (main_arg16 : FVec F S512 .f32) (main_arg17 : FVec F S512 .f32) (main_v13 : IVec S_ 1) (main_v16 : IVec S512x320 1) : IVec S_ 1 :=
  let main_c_5 : IVec S_ 1 := constantI S_ 1 1#1
  let main_v17 : IVec S_ 1 := (fun x v => Host.reduce IntOp.andi x v reducesTo_S512x320_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S512x192 .f32 := Host.absf main_arg6
  let main_cst_10 : FVec F S_ .f32 := constant S_ .f32 0x7F800000#32
  let main_v30 : FVec F S512x192 .f32 := broadcastInDim S512x192 ![] bcast_S_S512x192 main_cst_10
  let main_v31 : IVec S512x192 1 := cmpf .olt main_v29 main_v30
  let main_c_11 : IVec S_ 1 := constantI S_ 1 1#1
  let main_v32 : IVec S_ 1 := (fun x v => Host.reduce IntOp.andi x v reducesTo_S512x192_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S4x4096x4096 .f32) (main_arg1 : FVec F S1856x4096 .f32) (main_arg2 : FVec F S512x384 .f32) (main_arg3 : FVec F S512x320 .f32) (main_arg4 : FVec F S512x256 .f32) (main_arg5 : FVec F S512x256 .f32) (main_arg6 : FVec F S512x192 .f32) (main_arg7 : FVec F S512x192 .f32) (main_arg8 : FVec F S512x128 .f32) (main_arg9 : FVec F S512x128 .f32) (main_arg10 : FVec F S512 .f32) (main_arg11 : FVec F S512 .f32) (main_arg12 : FVec F S512 .f32) (main_arg13 : FVec F S512 .f32) (main_arg14 : FVec F S512 .f32) (main_arg15 : FVec F S512 .f32) (main_arg16 : FVec F S512 .f32) (main_arg17 : FVec F S512 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S1856x4096 .f32 := Host.absf main_arg1
  let main_cst_0 : FVec F S_ .f32 := constant S_ .f32 0x7F800000#32
  let main_v5 : FVec F S1856x4096 .f32 := broadcastInDim S1856x4096 ![] bcast_S_S1856x4096 main_cst_0
  let main_v6 : IVec S1856x4096 1 := cmpf .olt main_v4 main_v5
  let main_c_1 : IVec S_ 1 := constantI S_ 1 1#1
  let main_v7 : IVec S_ 1 := (fun x v => Host.reduce IntOp.andi x v reducesTo_S1856x4096_S_d0_1 h_S_) main_v6 main_c_1
  let main_v8 : IVec S_ 1 := andi main_v3 main_v7
  let main_v9 : FVec F S512x384 .f32 := Host.absf main_arg2
  let main_cst_2 : FVec F S_ .f32 := constant S_ .f32 0x7F800000#32
  let main_v10 : FVec F S512x384 .f32 := broadcastInDim S512x384 ![] bcast_S_S512x384 main_cst_2
  let main_v11 : IVec S512x384 1 := cmpf .olt main_v9 main_v10
  let main_c_3 : IVec S_ 1 := constantI S_ 1 1#1
  let main_v12 : IVec S_ 1 := (fun x v => Host.reduce IntOp.andi x v reducesTo_S512x384_S_d0_1 h_S_) main_v11 main_c_3
  let main_v13 : IVec S_ 1 := andi main_v8 main_v12
  let main_v14 : FVec F S512x320 .f32 := Host.absf main_arg3
  let main_cst_4 : FVec F S_ .f32 := constant S_ .f32 0x7F800000#32
  let main_v15 : FVec F S512x320 .f32 := broadcastInDim S512x320 ![] bcast_S_S512x320 main_cst_4
  let main_v16 : IVec S512x320 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S4x4096x4096 : Shape := ⟨3, ![4, 4096, 4096]⟩
abbrev S1856x4096 : Shape := ⟨2, ![1856, 4096]⟩
abbrev S512x384 : Shape := ⟨2, ![512, 384]⟩
abbrev S512x320 : Shape := ⟨2, ![512, 320]⟩
abbrev S512x256 : Shape := ⟨2, ![512, 256]⟩
abbrev S512x192 : Shape := ⟨2, ![512, 192]⟩
abbrev S512x128 : Shape := ⟨2, ![512, 128]⟩
abbrev S512 : Shape := ⟨1, ![512]⟩
abbrev S16384x4096 : Shape := ⟨2, ![16384, 4096]⟩
abbrev S384x4096 : Shape := ⟨2, ![384, 4096]⟩
abbrev S320x4096 : Shape := ⟨2, ![320, 4096]⟩
abbrev S256x4096 : Shape := ⟨2, ![256, 4096]⟩
abbrev S192x4096 : Shape := ⟨2, ![192, 4096]⟩
abbrev S128x4096 : Shape := ⟨2, ![128, 4096]⟩
abbrev S1x512 : Shape := ⟨2, ![1, 512]⟩
abbrev S128x384 : Shape := ⟨2, ![128, 384]⟩
abbrev S128x512 : Shape := ⟨2, ![128, 512]⟩
abbrev S128x320 : Shape := ⟨2, ![128, 320]⟩
abbrev S128x256 : Shape := ⟨2, ![128, 256]⟩
abbrev S128x192 : Shape := ⟨2, ![128, 192]⟩
abbrev S128x128 : Shape := ⟨2, ![128, 128]⟩

abbrev nBuf : Space → Nat
  | .hbm => 53
  | .vmem => 28
  | .smem => 0
  | _ => 0

abbrev bufTy : (tb : Table) → Fin (tcTables nBuf tb) → BufTy
  | .hbm, ⟨0, _⟩ => ⟨S4x4096x4096, .f32⟩
  | .hbm, ⟨1, _⟩ => ⟨S1856x4096, .f32⟩
  | .hbm, ⟨2, _⟩ => ⟨S512x384, .f32⟩
  | .hbm, ⟨3, _⟩ => ⟨S512x320, .f32⟩
  | .hbm, ⟨4, _⟩ => ⟨S512x256, .f32⟩
  | .hbm, ⟨5, _⟩ => ⟨S512x256, .f32⟩
  | .hbm, ⟨6, _⟩ => ⟨S512x192, .f32⟩
  | .hbm, ⟨7, _⟩ => ⟨S512x192, .f32⟩
  | .hbm, ⟨8, _⟩ => ⟨S512x128, .f32⟩
  | .hbm, ⟨9, _⟩ => ⟨S512x128, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S16384x4096, .f32⟩
  | .hbm, ⟨19, _⟩ => ⟨S384x4096, .f32⟩
  | .hbm, ⟨20, _⟩ => ⟨S384x4096, .bf16⟩
  | .hbm, ⟨21, _⟩ => ⟨S320x4096, .f32⟩
  | .hbm, ⟨22, _⟩ => ⟨S320x4096, .bf16⟩
  | .hbm, ⟨23, _⟩ => ⟨S256x4096, .f32⟩
  | .hbm, ⟨24, _⟩ => ⟨S256x4096, .bf16⟩
  | .hbm, ⟨25, _⟩ => ⟨S256x4096, .f32⟩
  | .hbm, ⟨26, _⟩ => ⟨S256x4096, .bf16⟩
  | .hbm, ⟨27, _⟩ => ⟨S192x4096, .f32⟩
  | .hbm, ⟨28, _⟩ => ⟨S192x4096, .bf16⟩
  | .hbm, ⟨29, _⟩ => ⟨S192x4096, .f32⟩
  | .hbm, ⟨30, _⟩ => ⟨S192x4096, .bf16⟩
  | .hbm, ⟨31, _⟩ => ⟨S128x4096, .f32⟩
  | .hbm, ⟨32, _⟩ => ⟨S128x4096, .bf16⟩
  | .hbm, ⟨33, _⟩ => ⟨S128x4096, .f32⟩
  | .hbm, ⟨34, _⟩ => ⟨S128x4096, .bf16⟩
  | .hbm, ⟨35, _⟩ => ⟨S512x384, .bf16⟩
  | .hbm, ⟨36, _⟩ => ⟨S512x320, .bf16⟩
  | .hbm, ⟨37, _⟩ => ⟨S512x256, .bf16⟩
  | .hbm, ⟨38, _⟩ => ⟨S512x256, .bf16⟩
  | .hbm, ⟨39, _⟩ => ⟨S512x192, .bf16⟩
  | .hbm, ⟨40, _⟩ => ⟨S512x192, .bf16⟩
  | .hbm, ⟨41, _⟩ => ⟨S512x128, .bf16⟩
  | .hbm, ⟨42, _⟩ => ⟨S512x128, .bf16⟩
  | .hbm, ⟨43, _⟩ => ⟨S1x512, .f32⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S1x512, .f32⟩
  | .hbm, ⟨50, _⟩ => ⟨S1x512, .f32⟩
  | .hbm, ⟨51, _⟩ => ⟨S16384x4096, .f32⟩
  | .hbm, ⟨52, _⟩ => ⟨S4x4096x4096, .f32⟩
  | .local _ .vmem, ⟨0, _⟩ => ⟨S128x4096, .f32⟩
  | .local _ .vmem, ⟨1, _⟩ => ⟨S128x4096, .f32⟩
  | .local _ .vmem, ⟨2, _⟩ => ⟨S384x4096, .bf16⟩
  | .local _ .vmem, ⟨3, _⟩ => ⟨S320x4096, .bf16⟩
  | .local _ .vmem, ⟨4, _⟩ => ⟨S256x4096, .bf16⟩
  | .local _ .vmem, ⟨5, _⟩ => ⟨S256x4096, .bf16⟩
  | .local _ .vmem, ⟨6, _⟩ => ⟨S192x4096, .bf16⟩
  | .local _ .vmem, ⟨7, _⟩ => ⟨S192x4096, .bf16⟩
  | .local _ .vmem, ⟨8, _⟩ => ⟨S128x4096, .bf16⟩
  | .local _ .vmem, ⟨9, _⟩ => ⟨S128x4096, .bf16⟩
  | .local _ .vmem, ⟨10, _⟩ => ⟨S512x384, .bf16⟩
  | .local _ .vmem, ⟨11, _⟩ => ⟨S512x320, .bf16⟩
  | .local _ .vmem, ⟨12, _⟩ => ⟨S512x256, .bf16⟩
  | .local _ .vmem, ⟨13, _⟩ => ⟨S512x256, .bf16⟩
  | .local _ .vmem, ⟨14, _⟩ => ⟨S512x192, .bf16⟩
  | .local _ .vmem, ⟨15, _⟩ => ⟨S512x192, .bf16⟩
  | .local _ .vmem, ⟨16, _⟩ => ⟨S512x128, .bf16⟩
  | .local _ .vmem, ⟨17, _⟩ => ⟨S512x128, .bf16⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S128x4096, .f32⟩
  | .local _ .vmem, ⟨27, _⟩ => ⟨S128x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg25_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem25_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S320x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S192x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x320 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x192 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x192 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S128x4096 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

class Facts₀ : Prop where
  shapeCasts_S4x4096x4096_S16384x4096 : S4x4096x4096.ShapeCasts S16384x4096
  slices_S1856x4096_S384x4096_0_0 : S1856x4096.Slices ![0, 0] S384x4096
  bitsLt_bf16_f32 : FTy.bits .bf16 < FTy.bits .f32
  slices_S1856x4096_S320x4096_384_0 : S1856x4096.Slices ![384, 0] S320x4096
  slices_S1856x4096_S256x4096_704_0 : S1856x4096.Slices ![704, 0] S256x4096
  slices_S1856x4096_S256x4096_960_0 : S1856x4096.Slices ![960, 0] S256x4096
  slices_S1856x4096_S192x4096_1216_0 : S1856x4096.Slices ![1216, 0] S192x4096
  slices_S1856x4096_S192x4096_1408_0 : S1856x4096.Slices ![1408, 0] S192x4096
  slices_S1856x4096_S128x4096_1600_0 : S1856x4096.Slices ![1600, 0] S128x4096
  slices_S1856x4096_S128x4096_1728_0 : S1856x4096.Slices ![1728, 0] S128x4096
  shapeCasts_S512_S1x512 : S512.ShapeCasts S1x512
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S384x4096_S384x4096_0_0 : ∀ a, (![0, 0] : Fin 2 → Nat) a + S384x4096.size a ≤ S384x4096.size a
  h_S384x4096 : 0 < S384x4096.numel
  shapeCasts_S384x4096_S384x4096 : S384x4096.ShapeCasts S384x4096
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S320x4096_S320x4096_0_0 : ∀ a, (![0, 0] : Fin 2 → Nat) a + S320x4096.size a ≤ S320x4096.size a
  h_S320x4096 : 0 < S320x4096.numel
  shapeCasts_S320x4096_S320x4096 : S320x4096.ShapeCasts S320x4096
  inb_S512x320_S512x320_0_0 : ∀ a, (![0, 0] : Fin 2 → Nat) a + S512x320.size a ≤ S512x320.size a
  h_S512x320 : 0 < S512x320.numel
  shapeCasts_S512x320_S512x320 : S512x320.ShapeCasts S512x320
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S192x4096_S192x4096_0_0 : ∀ a, (![0, 0] : Fin 2 → Nat) a + S192x4096.size a ≤ S192x4096.size a
  h_S192x4096 : 0 < S192x4096.numel
  shapeCasts_S192x4096_S192x4096 : S192x4096.ShapeCasts S192x4096
  inb_S512x192_S512x192_0_0 : ∀ a, (![0, 0] : Fin 2 → Nat) a + S512x192.size a ≤ S512x192.size a
  h_S512x192 : 0 < S512x192.numel
  shapeCasts_S512x192_S512x192 : S512x192.ShapeCasts S512x192
  inb_S512x128_S512x128_0_0 : ∀ a, (![0, 0] : Fin 2 → Nat) a + S512x128.size a ≤ S512x128.size a
  h_S512x128 : 0 < S512x128.numel
  shapeCasts_S512x128_S512x128 : S512x128.ShapeCasts S512x128
  concatenates_S128x512_S128x512_S128x512_S128x512_S128x512_S128x512_S128x512_S128x512_S128x4096_d1 : Shape.Concatenates [S128x512, S128x512, S128x512, S128x512, S128x512, S128x512, S128x512, S128x512] S128x4096 1
  slices_S128x4096_o0_3328_S128x128 : S128x4096.Slices ![0, 3328] S128x128
  slices_S128x4096_o0_128_S128x128 : S128x4096.Slices ![0, 128] S128x128
  slices_S128x4096_o0_2432_S128x128 : S128x4096.Slices ![0, 2432] S128x128
  slices_S128x4096_o0_0_S128x128 : S128x4096.Slices ![0, 0] S128x128
  slices_S128x4096_o0_1408_S128x128 : S128x4096.Slices ![0, 1408] S128x128
  slices_S128x4096_o0_3200_S128x128 : S128x4096.Slices ![0, 3200] S128x128
  slices_S128x4096_o0_2304_S128x128 : S128x4096.Slices ![0, 2304] S128x128
  slices_S128x4096_o0_256_S128x128 : S128x4096.Slices ![0, 256] S128x128
  slices_S128x4096_o0_1664_S128x128 : S128x4096.Slices ![0, 1664] S128x128
  slices_S128x4096_o0_384_S128x128 : S128x4096.Slices ![0, 384] S128x128
  slices_S128x4096_o0_3840_S128x128 : S128x4096.Slices ![0, 3840] S128x128
  slices_S128x4096_o0_512_S128x128 : S128x4096.Slices ![0, 512] S128x128
  slices_S128x4096_o0_640_S128x128 : S128x4096.Slices ![0, 640] S128x128
  slices_S128x4096_o0_3712_S128x128 : S128x4096.Slices ![0, 3712] S128x128
  slices_S128x4096_o0_1536_S128x128 : S128x4096.Slices ![0, 1536] S128x128
  slices_S128x4096_o0_768_S128x128 : S128x4096.Slices ![0, 768] S128x128
  slices_S128x4096_o0_2048_S128x128 : S128x4096.Slices ![0, 2048] S128x128
  slices_S128x4096_o0_896_S128x128 : S128x4096.Slices ![0, 896] S128x128
  slices_S128x4096_o0_2560_S128x128 : S128x4096.Slices ![0, 2560] S128x128
  slices_S128x4096_o0_1024_S128x128 : S128x4096.Slices ![0, 1024] S128x128
  slices_S128x4096_o0_3456_S128x128 : S128x4096.Slices ![0, 3456] S128x128
  slices_S128x4096_o0_1152_S128x128 : S128x4096.Slices ![0, 1152] S128x128
  slices_S128x4096_o0_1280_S128x128 : S128x4096.Slices ![0, 1280] S128x128
  slices_S128x4096_o0_1792_S128x128 : S128x4096.Slices ![0, 1792] S128x128
  slices_S128x4096_o0_3968_S128x128 : S128x4096.Slices ![0, 3968] S128x128
  slices_S128x4096_o0_1920_S128x128 : S128x4096.Slices ![0, 1920] S128x128
  slices_S128x4096_o0_2944_S128x128 : S128x4096.Slices ![0, 2944] S128x128
  slices_S128x4096_o0_2176_S128x128 : S128x4096.Slices ![0, 2176] S128x128
  slices_S128x4096_o0_2688_S128x128 : S128x4096.Slices ![0, 2688] S128x128
  slices_S128x4096_o0_2816_S128x128 : S128x4096.Slices ![0, 2816] S128x128
  slices_S128x4096_o0_3072_S128x128 : S128x4096.Slices ![0, 3072] S128x128
  slices_S128x4096_o0_3584_S128x128 : S128x4096.Slices ![0, 3584] S128x128
  concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x4096_d1 : Shape.Concatenates [S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128] S128x4096 1
  shapeCasts_S16384x4096_S4x4096x4096 : S16384x4096.ShapeCasts S4x4096x4096
  dot_S128x4096_S384x4096_S128x384_1_1_0_0_n_n_wf : DotDims.WF S128x4096 S384x4096 S128x384 [1] [1] [0] [0] [] []
  dot_S128x384_S512x384_S128x512_1_1_0_0_n_n_wf : DotDims.WF S128x384 S512x384 S128x512 [1] [1] [0] [0] [] []
  dot_S128x4096_S320x4096_S128x320_1_1_0_0_n_n_wf : DotDims.WF S128x4096 S320x4096 S128x320 [1] [1] [0] [0] [] []
  dot_S128x320_S512x320_S128x512_1_1_0_0_n_n_wf : DotDims.WF S128x320 S512x320 S128x512 [1] [1] [0] [0] [] []
  dot_S128x4096_S256x4096_S128x256_1_1_0_0_n_n_wf : DotDims.WF S128x4096 S256x4096 S128x256 [1] [1] [0] [0] [] []
  dot_S128x256_S512x256_S128x512_1_1_0_0_n_n_wf : DotDims.WF S128x256 S512x256 S128x512 [1] [1] [0] [0] [] []
  dot_S128x4096_S192x4096_S128x192_1_1_0_0_n_n_wf : DotDims.WF S128x4096 S192x4096 S128x192 [1] [1] [0] [0] [] []
  dot_S128x192_S512x192_S128x512_1_1_0_0_n_n_wf : DotDims.WF S128x192 S512x192 S128x512 [1] [1] [0] [0] [] []
  dot_S128x4096_S128x4096_S128x128_1_1_0_0_n_n_wf : DotDims.WF S128x4096 S128x4096 S128x128 [1] [1] [0] [0] [] []
  dot_S128x128_S512x128_S128x512_1_1_0_0_n_n_wf : DotDims.WF S128x128 S512x128 S128x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S16384x4096.size a
  hwx0_0 : ∀ i : grid0.Coords, EltTy.bits .f32 = 32 ∨ (Rect.block (s := S16384x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x4096.size a ≤ S384x4096.size a
  hwx0_1 : ∀ i : grid0.Coords, EltTy.bits .bf16 = 32 ∨ (Rect.block (s := S384x4096) S384x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S320x4096.size a ≤ S320x4096.size a
  hwx0_2 : ∀ i : grid0.Coords, EltTy.bits .bf16 = 32 ∨ (Rect.block (s := S320x4096) S320x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S256x4096.size a
  hwx0_3 : ∀ i : grid0.Coords, EltTy.bits .bf16 = 32 ∨ (Rect.block (s := S256x4096) S256x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S256x4096.size a
  hwx0_4 : ∀ i : grid0.Coords, EltTy.bits .bf16 = 32 ∨ (Rect.block (s := S256x4096) S256x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192x4096.size a ≤ S192x4096.size a
  hwx0_5 : ∀ i : grid0.Coords, EltTy.bits .bf16 = 32 ∨ (Rect.block (s := S192x4096) S192x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S192x4096.size a ≤ S192x4096.size a
  hwx0_6 : ∀ i : grid0.Coords, EltTy.bits .bf16 = 32 ∨ (Rect.block (s := S192x4096) S192x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x4096.size a ≤ S128x4096.size a
  hwx0_7 : ∀ i : grid0.Coords, EltTy.bits .bf16 = 32 ∨ (Rect.block (s := S128x4096) S128x4096.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x4096.size a ≤ S128x4096.size a
  hwx0_8 : ∀ i : grid0.Coords, EltTy.bits .bf16 = 32 ∨ (Rect.block (s := S128x4096) S128x4096.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x384.size a ≤ S512x384.size a
  hwx0_9 : ∀ i : grid0.Coords, EltTy.bits .bf16 = 32 ∨ (Rect.block (s := S512x384) S512x384.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x320.size a ≤ S512x320.size a
  hwx0_10 : ∀ i : grid0.Coords, EltTy.bits .bf16 = 32 ∨ (Rect.block (s := S512x320) S512x320.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S512x256.size a
  hwx0_11 : ∀ i : grid0.Coords, EltTy.bits .bf16 = 32 ∨ (Rect.block (s := S512x256) S512x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S512x256.size a
  hwx0_12 : ∀ i : grid0.Coords, EltTy.bits .bf16 = 32 ∨ (Rect.block (s := S512x256) S512x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x192.size a ≤ S512x192.size a
  hwx0_13 : ∀ i : grid0.Coords, EltTy.bits .bf16 = 32 ∨ (Rect.block (s := S512x192) S512x192.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x192.size a ≤ S512x192.size a
  hwx0_14 : ∀ i : grid0.Coords, EltTy.bits .bf16 = 32 ∨ (Rect.block (s := S512x192) S512x192.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512x128.size a ≤ S512x128.size a
  hwx0_15 : ∀ i : grid0.Coords, EltTy.bits .bf16 = 32 ∨ (Rect.block (s := S512x128) S512x128.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x128.size a ≤ S512x128.size a
  hwx0_16 : ∀ i : grid0.Coords, EltTy.bits .bf16 = 32 ∨ (Rect.block (s := S512x128) S512x128.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x512.size a ≤ S1x512.size a
  hwx0_17 : ∀ i : grid0.Coords, EltTy.bits .f32 = 32 ∨ (Rect.block (s := S1x512) S1x512.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x512.size a ≤ S1x512.size a
  hwx0_18 : ∀ i : grid0.Coords, EltTy.bits .f32 = 32 ∨ (Rect.block (s := S1x512) S1x512.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x512.size a ≤ S1x512.size a
  hwx0_19 : ∀ i : grid0.Coords, EltTy.bits .f32 = 32 ∨ (Rect.block (s := S1x512) S1x512.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x512.size a ≤ S1x512.size a
  hwx0_20 : ∀ i : grid0.Coords, EltTy.bits .f32 = 32 ∨ (Rect.block (s := S1x512) S1x512.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x512.size a ≤ S1x512.size a
  hwx0_21 : ∀ i : grid0.Coords, EltTy.bits .f32 = 32 ∨ (Rect.block (s := S1x512) S1x512.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x512.size a ≤ S1x512.size a
  hwx0_22 : ∀ i : grid0.Coords, EltTy.bits .f32 = 32 ∨ (Rect.block (s := S1x512) S1x512.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x512.size a ≤ S1x512.size a
  hwx0_23 : ∀ i : grid0.Coords, EltTy.bits .f32 = 32 ∨ (Rect.block (s := S1x512) S1x512.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x512.size a ≤ S1x512.size a
  hwx0_24 : ∀ i : grid0.Coords, EltTy.bits .f32 = 32 ∨ (Rect.block (s := S1x512) S1x512.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S128x4096.size a ≤ S16384x4096.size a
  hwx0_25 : ∀ i : grid0.Coords, EltTy.bits .f32 = 32 ∨ (Rect.block (s := S16384x4096) S128x4096.size (cc0_transform_25 i) (hinb0_25 i)).WholeWords (EltTy.packing .f32)

variable [Facts₀]

def dot_S128x4096_S384x4096_S128x384_1_1_0_0_n_n : DotDims S128x4096 S384x4096 S128x384 where
  lhsContracting := [1]
  rhsContracting := [1]
  lhsNonContracting := [0]
  rhsNonContracting := [0]
  lhsBatch := []
  rhsBatch := []
  wf := dot_S128x4096_S384x4096_S128x384_1_1_0_0_n_n_wf
def dot_S128x384_S512x384_S128x512_1_1_0_0_n_n : DotDims S128x384 S512x384 S128x512 where
  lhsContracting := [1]
  rhsContracting := [1]
  lhsNonContracting := [0]
  rhsNonContracting := [0]
  lhsBatch := []
  rhsBatch := []
  wf := dot_S128x384_S512x384_S128x512_1_1_0_0_n_n_wf
def dot_S128x4096_S320x4096_S128x320_1_1_0_0_n_n : DotDims S128x4096 S320x4096 S128x320 where
  lhsContracting := [1]
  rhsContracting := [1]
  lhsNonContracting := [0]
  rhsNonContracting := [0]
  lhsBatch := []
  rhsBatch := []
  wf := dot_S128x4096_S320x4096_S128x320_1_1_0_0_n_n_wf
def dot_S128x320_S512x320_S128x512_1_1_0_0_n_n : DotDims S128x320 S512x320 S128x512 where
  lhsContracting := [1]
  rhsContracting := [1]
  lhsNonContracting := [0]
  rhsNonContracting := [0]
  lhsBatch := []
  rhsBatch := []
  wf := dot_S128x320_S512x320_S128x512_1_1_0_0_n_n_wf
def dot_S128x4096_S256x4096_S128x256_1_1_0_0_n_n : DotDims S128x4096 S256x4096 S128x256 where
  lhsContracting := [1]
  rhsContracting := [1]
  lhsNonContracting := [0]
  rhsNonContracting := [0]
  lhsBatch := []
  rhsBatch := []
  wf := dot_S128x4096_S256x4096_S128x256_1_1_0_0_n_n_wf
def dot_S128x256_S512x256_S128x512_1_1_0_0_n_n : DotDims S128x256 S512x256 S128x512 where
  lhsContracting := [1]
  rhsContracting := [1]
  lhsNonContracting := [0]
  rhsNonContracting := [0]
  lhsBatch := []
  rhsBatch := []
  wf := dot_S128x256_S512x256_S128x512_1_1_0_0_n_n_wf
def dot_S128x4096_S192x4096_S128x192_1_1_0_0_n_n : DotDims S128x4096 S192x4096 S128x192 where
  lhsContracting := [1]
  rhsContracting := [1]
  lhsNonContracting := [0]
  rhsNonContracting := [0]
  lhsBatch := []
  rhsBatch := []
  wf := dot_S128x4096_S192x4096_S128x192_1_1_0_0_n_n_wf
def dot_S128x192_S512x192_S128x512_1_1_0_0_n_n : DotDims S128x192 S512x192 S128x512 where
  lhsContracting := [1]
  rhsContracting := [1]
  lhsNonContracting := [0]
  rhsNonContracting := [0]
  lhsBatch := []
  rhsBatch := []
  wf := dot_S128x192_S512x192_S128x512_1_1_0_0_n_n_wf
def dot_S128x4096_S128x4096_S128x128_1_1_0_0_n_n : DotDims S128x4096 S128x4096 S128x128 where
  lhsContracting := [1]
  rhsContracting := [1]
  lhsNonContracting := [0]
  rhsNonContracting := [0]
  lhsBatch := []
  rhsBatch := []
  wf := dot_S128x4096_S128x4096_S128x128_1_1_0_0_n_n_wf
def dot_S128x128_S512x128_S128x512_1_1_0_0_n_n : DotDims S128x128 S512x128 S128x512 where
  lhsContracting := [1]
  rhsContracting := [1]
  lhsNonContracting := [0]
  rhsNonContracting := [0]
  lhsBatch := []
  rhsBatch := []
  wf := dot_S128x128_S512x128_S128x512_1_1_0_0_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S384x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S320x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S192x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S192x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S128x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S128x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S512x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S512x320.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S512x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v20) S512x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v21) S512x192.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v22) S512x192.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v23) S512x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v24) S512x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v25) S1x512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v26) S1x512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v27) S1x512.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v28) S1x512.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v29) S1x512.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v30) S1x512.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v31) S1x512.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v32) S1x512.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v33) S128x4096.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S1856x4096 : Shape := ⟨2, ![1856, 4096]⟩
abbrev S512x384 : Shape := ⟨2, ![512, 384]⟩
abbrev S512x320 : Shape := ⟨2, ![512, 320]⟩
abbrev S512x256 : Shape := ⟨2, ![512, 256]⟩
abbrev S512x192 : Shape := ⟨2, ![512, 192]⟩
abbrev S512x128 : Shape := ⟨2, ![512, 128]⟩
abbrev S512 : Shape := ⟨1, ![512]⟩
abbrev S32 : Shape := ⟨1, ![32]⟩
abbrev S4x4096x1856 : Shape := ⟨3, ![4, 4096, 1856]⟩
abbrev S4x4096x384 : Shape := ⟨3, ![4, 4096, 384]⟩
abbrev S4x4096x512 : Shape := ⟨3, ![4, 4096, 512]⟩
abbrev S1x1x512 : Shape := ⟨3, ![1, 1, 512]⟩
abbrev S4x4096x320 : Shape := ⟨3, ![4, 4096, 320]⟩
abbrev S4x4096x256 : Shape := ⟨3, ![4, 4096, 256]⟩
abbrev S4x4096x192 : Shape := ⟨3, ![4, 4096, 192]⟩
abbrev S4x4096x128 : Shape := ⟨3, ![4, 4096, 128]⟩
abbrev S4x4096x32x128 : Shape := ⟨4, ![4, 4096, 32, 128]⟩
abbrev S_ : Shape := ⟨0, ![]⟩
abbrev S32x1 : Shape := ⟨2, ![32, 1]⟩

abbrev nBuf : Space → Nat
  | .hbm => 72
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1856x4096, .f32⟩
  | .hbm, ⟨2, _⟩ => ⟨S512x384, .f32⟩
  | .hbm, ⟨3, _⟩ => ⟨S512x320, .f32⟩
  | .hbm, ⟨4, _⟩ => ⟨S512x256, .f32⟩
  | .hbm, ⟨5, _⟩ => ⟨S512x256, .f32⟩
  | .hbm, ⟨6, _⟩ => ⟨S512x192, .f32⟩
  | .hbm, ⟨7, _⟩ => ⟨S512x192, .f32⟩
  | .hbm, ⟨8, _⟩ => ⟨S512x128, .f32⟩
  | .hbm, ⟨9, _⟩ => ⟨S512x128, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S32, .i32⟩
  | .hbm, ⟨19, _⟩ => ⟨S4x4096x1856, .f32⟩
  | .hbm, ⟨20, _⟩ => ⟨S4x4096x384, .f32⟩
  | .hbm, ⟨21, _⟩ => ⟨S4x4096x512, .f32⟩
  | .hbm, ⟨22, _⟩ => ⟨S1x1x512, .f32⟩
  | .hbm, ⟨23, _⟩ => ⟨S4x4096x512, .f32⟩
  | .hbm, ⟨24, _⟩ => ⟨S4x4096x512, .f32⟩
  | .hbm, ⟨25, _⟩ => ⟨S4x4096x320, .f32⟩
  | .hbm, ⟨26, _⟩ => ⟨S4x4096x512, .f32⟩
  | .hbm, ⟨27, _⟩ => ⟨S1x1x512, .f32⟩
  | .hbm, ⟨28, _⟩ => ⟨S4x4096x512, .f32⟩
  | .hbm, ⟨29, _⟩ => ⟨S4x4096x512, .f32⟩
  | .hbm, ⟨30, _⟩ => ⟨S4x4096x256, .f32⟩
  | .hbm, ⟨31, _⟩ => ⟨S4x4096x512, .f32⟩
  | .hbm, ⟨32, _⟩ => ⟨S1x1x512, .f32⟩
  | .hbm, ⟨33, _⟩ => ⟨S4x4096x512, .f32⟩
  | .hbm, ⟨34, _⟩ => ⟨S4x4096x512, .f32⟩
  | .hbm, ⟨35, _⟩ => ⟨S4x4096x256, .f32⟩
  | .hbm, ⟨36, _⟩ => ⟨S4x4096x512, .f32⟩
  | .hbm, ⟨37, _⟩ => ⟨S1x1x512, .f32⟩
  | .hbm, ⟨38, _⟩ => ⟨S4x4096x512, .f32⟩
  | .hbm, ⟨39, _⟩ => ⟨S4x4096x512, .f32⟩
  | .hbm, ⟨40, _⟩ => ⟨S4x4096x192, .f32⟩
  | .hbm, ⟨41, _⟩ => ⟨S4x4096x512, .f32⟩
  | .hbm, ⟨42, _⟩ => ⟨S1x1x512, .f32⟩
  | .hbm, ⟨43, _⟩ => ⟨S4x4096x512, .f32⟩
  | .hbm, ⟨44, _⟩ => ⟨S4x4096x512, .f32⟩
  | .hbm, ⟨45, _⟩ => ⟨S4x4096x192, .f32⟩
  | .hbm, ⟨46, _⟩ => ⟨S4x4096x512, .f32⟩
  | .hbm, ⟨47, _⟩ => ⟨S1x1x512, .f32⟩
  | .hbm, ⟨48, _⟩ => ⟨S4x4096x512, .f32⟩
  | .hbm, ⟨49, _⟩ => ⟨S4x4096x512, .f32⟩
  | .hbm, ⟨50, _⟩ => ⟨S4x4096x128, .f32⟩
  | .hbm, ⟨51, _⟩ => ⟨S4x4096x512, .f32⟩
  | .hbm, ⟨52, _⟩ => ⟨S1x1x512, .f32⟩
  | .hbm, ⟨53, _⟩ => ⟨S4x4096x512, .f32⟩
  | .hbm, ⟨54, _⟩ => ⟨S4x4096x512, .f32⟩
  | .hbm, ⟨55, _⟩ => ⟨S4x4096x128, .f32⟩
  | .hbm, ⟨56, _⟩ => ⟨S4x4096x512, .f32⟩
  | .hbm, ⟨57, _⟩ => ⟨S1x1x512, .f32⟩
  | .hbm, ⟨58, _⟩ => ⟨S4x4096x512, .f32⟩
  | .hbm, ⟨59, _⟩ => ⟨S4x4096x512, .f32⟩
  | .hbm, ⟨60, _⟩ => ⟨S4x4096x4096, .f32⟩
  | .hbm, ⟨61, _⟩ => ⟨S4x4096x32x128, .f32⟩
  | .hbm, ⟨62, _⟩ => ⟨S_, .i32⟩
  | .hbm, ⟨63, _⟩ => ⟨S32, .i32⟩
  | .hbm, ⟨64, _⟩ => ⟨S32, .i1⟩
  | .hbm, ⟨65, _⟩ => ⟨S_, .i32⟩
  | .hbm, ⟨66, _⟩ => ⟨S32, .i32⟩
  | .hbm, ⟨67, _⟩ => ⟨S32, .i32⟩
  | .hbm, ⟨68, _⟩ => ⟨S32, .i32⟩
  | .hbm, ⟨69, _⟩ => ⟨S32x1, .i32⟩
  | .hbm, ⟨70, _⟩ => ⟨S4x4096x32x128, .f32⟩
  | .hbm, ⟨71, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_0 : Ref sig .tc := ⟨.hbm, 62, rfl⟩
abbrev main_v43 : Ref sig .tc := ⟨.hbm, 63, rfl⟩
abbrev main_v44 : Ref sig .tc := ⟨.hbm, 64, rfl⟩
abbrev main_c_1 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]

class Facts₀ : Prop where
  slices_S4x4096x1856_S4x4096x384_0_0_0 : S4x4096x1856.Slices ![0, 0, 0] S4x4096x384
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  slices_S4x4096x1856_S4x4096x320_0_0_384 : S4x4096x1856.Slices ![0, 0, 384] S4x4096x320
  slices_S4x4096x1856_S4x4096x256_0_0_704 : S4x4096x1856.Slices ![0, 0, 704] S4x4096x256
  slices_S4x4096x1856_S4x4096x256_0_0_960 : S4x4096x1856.Slices ![0, 0, 960] S4x4096x256
  slices_S4x4096x1856_S4x4096x192_0_0_1216 : S4x4096x1856.Slices ![0, 0, 1216] S4x4096x192
  slices_S4x4096x1856_S4x4096x192_0_0_1408 : S4x4096x1856.Slices ![0, 0, 1408] S4x4096x192
  slices_S4x4096x1856_S4x4096x128_0_0_1600 : S4x4096x1856.Slices ![0, 0, 1600] S4x4096x128
  slices_S4x4096x1856_S4x4096x128_0_0_1728 : S4x4096x1856.Slices ![0, 0, 1728] S4x4096x128
  concatenates_S4x4096x512_S4x4096x512_S4x4096x512_S4x4096x512_S4x4096x512_S4x4096x512_S4x4096x512_S4x4096x512_S4x4096x4096_d2 : Shape.Concatenates [S4x4096x512, S4x4096x512, S4x4096x512, S4x4096x512, S4x4096x512, S4x4096x512, S4x4096x512, S4x4096x512] S4x4096x4096 2
  shapeCasts_S4x4096x4096_S4x4096x32x128 : S4x4096x4096.ShapeCasts S4x4096x32x128
  bcast_S_S32 : S_.BroadcastsInDim S32 (![] : Fin 0 → Fin S32.rank)
  bcast_S32_S32x1_0 : S32.BroadcastsInDim S32x1 (![0] : Fin 1 → Fin S32x1.rank)
  shapeCasts_S4x4096x32x128_S4x4096x4096 : S4x4096x32x128.ShapeCasts S4x4096x4096
  dot_S4x4096x4096_S1856x4096_S4x4096x1856_2_1_01_0_n_n_wf : DotDims.WF S4x4096x4096 S1856x4096 S4x4096x1856 [2] [1] [0, 1] [0] [] []
  dot_S4x4096x384_S512x384_S4x4096x512_2_1_01_0_n_n_wf : DotDims.WF S4x4096x384 S512x384 S4x4096x512 [2] [1] [0, 1] [0] [] []
  dot_S4x4096x320_S512x320_S4x4096x512_2_1_01_0_n_n_wf : DotDims.WF S4x4096x320 S512x320 S4x4096x512 [2] [1] [0, 1] [0] [] []
  dot_S4x4096x256_S512x256_S4x4096x512_2_1_01_0_n_n_wf : DotDims.WF S4x4096x256 S512x256 S4x4096x512 [2] [1] [0, 1] [0] [] []
  dot_S4x4096x192_S512x192_S4x4096x512_2_1_01_0_n_n_wf : DotDims.WF S4x4096x192 S512x192 S4x4096x512 [2] [1] [0, 1] [0] [] []
  dot_S4x4096x128_S512x128_S4x4096x512_2_1_01_0_n_n_wf : DotDims.WF S4x4096x128 S512x128 S4x4096x512 [2] [1] [0, 1] [0] [] []
  gather_S4x4096x32x128_S32x1_S4x4096x32x128_013_2_n_n_2_1_440961128_wf : GatherDims.WF S4x4096x32x128 S32x1 S4x4096x32x128 [0, 1, 3] [2] [] [2] [] 1 ![4, 4096, 1, 128]

variable [Facts₀]

def dot_S4x4096x4096_S1856x4096_S4x4096x1856_2_1_01_0_n_n : DotDims S4x4096x4096 S1856x4096 S4x4096x1856 where
  lhsContracting := [2]
  rhsContracting := [1]
  lhsNonContracting := [0, 1]
  rhsNonContracting := [0]
  lhsBatch := []
  rhsBatch := []
  wf := dot_S4x4096x4096_S1856x4096_S4x4096x1856_2_1_01_0_n_n_wf
def dot_S4x4096x384_S512x384_S4x4096x512_2_1_01_0_n_n : DotDims S4x4096x384 S512x384 S4x4096x512 where
  lhsContracting := [2]
  rhsContracting := [1]
  lhsNonContracting := [0, 1]
  rhsNonContracting := [0]
  lhsBatch := []
  rhsBatch := []
  wf := dot_S4x4096x384_S512x384_S4x4096x512_2_1_01_0_n_n_wf
def dot_S4x4096x320_S512x320_S4x4096x512_2_1_01_0_n_n : DotDims S4x4096x320 S512x320 S4x4096x512 where
  lhsContracting := [2]
  rhsContracting := [1]
  lhsNonContracting := [0, 1]
  rhsNonContracting := [0]
  lhsBatch := []
  rhsBatch := []
  wf := dot_S4x4096x320_S512x320_S4x4096x512_2_1_01_0_n_n_wf
def dot_S4x4096x256_S512x256_S4x4096x512_2_1_01_0_n_n : DotDims S4x4096x256 S512x256 S4x4096x512 where
  lhsContracting := [2]
  rhsContracting := [1]
  lhsNonContracting := [0, 1]
  rhsNonContracting := [0]
  lhsBatch := []
  rhsBatch := []
  wf := dot_S4x4096x256_S512x256_S4x4096x512_2_1_01_0_n_n_wf
def dot_S4x4096x192_S512x192_S4x4096x512_2_1_01_0_n_n : DotDims S4x4096x192 S512x192 S4x4096x512 where
  lhsContracting := [2]
  rhsContracting := [1]
  lhsNonContracting := [0, 1]
  rhsNonContracting := [0]
  lhsBatch := []
  rhsBatch := []
  wf := dot_S4x4096x192_S512x192_S4x4096x512_2_1_01_0_n_n_wf
def dot_S4x4096x128_S512x128_S4x4096x512_2_1_01_0_n_n : DotDims S4x4096x128 S512x128 S4x4096x512 where
  lhsContracting := [2]
  rhsContracting := [1]
  lhsNonContracting := [0, 1]
  rhsNonContracting := [0]
  lhsBatch := []
  rhsBatch := []
  wf := dot_S4x4096x128_S512x128_S4x4096x512_2_1_01_0_n_n_wf
def gather_S4x4096x32x128_S32x1_S4x4096x32x128_013_2_n_n_2_1_440961128 : GatherDims S4x4096x32x128 S32x1 S4x4096x32x128 where
  offsetDims := [0, 1, 3]
  collapsedSliceDims := [2]
  operandBatchingDims := []
  startIndicesBatchingDims := []
  startIndexMap := [2]
  indexVectorDim := 1
  sliceSizes := ![4, 4096, 1, 128]
  wf := gather_S4x4096x32x128_S32x1_S4x4096x32x128_013_2_n_n_2_1_440961128_wf

class Facts : Prop extends Facts₀ where

variable [Facts]
-- ==== Proof.LibTileDot.lean ====
/-
  A tile product into the zero accumulator, read at one output index, at the ideal values and whatever precision
  the operation names: with the contraction running over one axis of extent `K`, the entry is the sum over
  `k : Fin K` of the left operand times the right operand, each read at the index the dimension numbers assign to
  the output index and `k`. The caller names the two operand indices as functions of `k`.
-/
import Idealize.ShloMosaic.Lib.ValueIdx
import Idealize.ShloMosaic.PureOps.Ideal.Laws

noncomputable section

namespace Cert.LibTileDot

open Idealize.ShloMosaic Idealize.ShloMosaic.ValueIdx

/-- The matrix unit's product of two tiles into a zero accumulator, at output index `j`: the sum over the one
    contracted axis, each factor read where the dimension numbers send `j` and `k`. -/
theorem matmul_zero_at {sl sr so : Shape} {φ₁ φ₂ : FTy} (d : DotDims sl sr so) (prec : Option ContractPrecision) (K : ℕ)
    (hr : d.contr.rank = 1) (hs : d.contr.size ⟨0, by omega⟩ = K)
    (lhs : FVec Ideal sl φ₁) (rhs : FVec Ideal sr φ₂) (j : so.Idx)
    (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    FloatOps.matmul d prec lhs rhs (constant so .f32 0x00000000#32) j = ∑ k : Fin K, lhs (li k) * rhs (ri k) := by
  rw [Ideal.matmul_constant_zero_apply, ← Equiv.sum_comp (contrEquiv1 d K hr hs).symm]
  exact Finset.sum_congr rfl fun k _ => by rw [hl k, hri k]

end Cert.LibTileDot

end
-- ==== Proof.KDots.lean ====
/-
  The matrix unit's products of this kernel, read at one entry.

  Every product in the body contracts the LAST axis of both operands (a matrix against the rows of another,
  "A · Bᵀ"), into a zero accumulator. So the entry (r, c) of such a product is the sum over the contracted
  position k of the left operand's entry (r, k) times the right operand's entry (c, k). There are two products per
  group: the block of hidden rows against the group's rows of the projection (contracting the 4096 features),
  and the latent against the group's reconstruction matrix (contracting the group's rank). The five distinct ranks
  give ten dimension records; for each, the operand indices the record assigns to (r, c) and k are computed
  coordinate by coordinate.
-/
import proofs.«179934_j12378095747712_1_alg».proof.Proof.Gen.KernelIdeal
import proofs.«179934_j12378095747712_1_alg».proof.Proof.LibTileDot
import Idealize.ShloMosaic.Lib.ValueIdx
import Idealize.ShloMosaic.PureOps.Ideal.Laws

noncomputable section

namespace Cert.KernelIdeal.Products

open Idealize.ShloMosaic Idealize.ShloMosaic.ValueIdx Cert.KernelIdeal Cert.KernelIdeal.Gen

/-- Rank 384: the latent of row `r` at position `c` is the row against row `c` of the group's projection rows. -/
theorem latent_384 (lhs : FVec Ideal S128x4096 .bf16) (rhs : FVec Ideal S384x4096 .bf16) (r : Fin 128) (c : Fin 384) :
    matmul dot_S128x4096_S384x4096_S128x384_1_1_0_0_n_n none lhs rhs (constant S128x384 .f32 0x00000000#32) (ix2 r c)
      = ∑ k : Fin 4096, lhs (ix2 r k) * rhs (ix2 c k) := by
  refine Cert.LibTileDot.matmul_zero_at _ none 4096 rfl rfl lhs rhs (ix2 r c) (fun k => ix2 r k) (fun k => ix2 c k) ?_ ?_
  · intro k
    funext a
    refine Fin.ext ?_
    match a with
    | ⟨0, _⟩ => simp [DotDims.lhsIdx, dot_S128x4096_S384x4096_S128x384_1_1_0_0_n_n]; rfl
    | ⟨1, _⟩ => exact (DotDims.lhsIdx_val_of_single _ rfl _ _).trans (contrEquiv1_symm_val _ _ _ _ k)
  · intro k
    funext a
    refine Fin.ext ?_
    match a with
    | ⟨0, _⟩ => simp [DotDims.rhsIdx, dot_S128x4096_S384x4096_S128x384_1_1_0_0_n_n]; rfl
    | ⟨1, _⟩ => exact (DotDims.rhsIdx_val_of_single _ rfl _ _).trans (contrEquiv1_symm_val _ _ _ _ k)

/-- Rank 384: output `g` of row `r` is the row's latent against row `g` of the reconstruction matrix. -/
theorem recon_384 (lhs : FVec Ideal S128x384 .bf16) (rhs : FVec Ideal S512x384 .bf16) (r : Fin 128) (g : Fin 512) :
    matmul dot_S128x384_S512x384_S128x512_1_1_0_0_n_n none lhs rhs (constant S128x512 .f32 0x00000000#32) (ix2 r g)
      = ∑ k : Fin 384, lhs (ix2 r k) * rhs (ix2 g k) := by
  refine Cert.LibTileDot.matmul_zero_at _ none 384 rfl rfl lhs rhs (ix2 r g) (fun k => ix2 r k) (fun k => ix2 g k) ?_ ?_
  · intro k
    funext a
    refine Fin.ext ?_
    match a with
    | ⟨0, _⟩ => simp [DotDims.lhsIdx, dot_S128x384_S512x384_S128x512_1_1_0_0_n_n]; rfl
    | ⟨1, _⟩ => exact (DotDims.lhsIdx_val_of_single _ rfl _ _).trans (contrEquiv1_symm_val _ _ _ _ k)
  · intro k
    funext a
    refine Fin.ext ?_
    match a with
    | ⟨0, _⟩ => simp [DotDims.rhsIdx, dot_S128x384_S512x384_S128x512_1_1_0_0_n_n]; rfl
    | ⟨1, _⟩ => exact (DotDims.rhsIdx_val_of_single _ rfl _ _).trans (contrEquiv1_symm_val _ _ _ _ k)

/-- Rank 320: the latent of row `r` at position `c` is the row against row `c` of the group's projection rows. -/
theorem latent_320 (lhs : FVec Ideal S128x4096 .bf16) (rhs : FVec Ideal S320x4096 .bf16) (r : Fin 128) (c : Fin 320) :
    matmul dot_S128x4096_S320x4096_S128x320_1_1_0_0_n_n none lhs rhs (constant S128x320 .f32 0x00000000#32) (ix2 r c)
      = ∑ k : Fin 4096, lhs (ix2 r k) * rhs (ix2 c k) := by
  refine Cert.LibTileDot.matmul_zero_at _ none 4096 rfl rfl lhs rhs (ix2 r c) (fun k => ix2 r k) (fun k => ix2 c k) ?_ ?_
  · intro k
    funext a
    refine Fin.ext ?_
    match a with
    | ⟨0, _⟩ => simp [DotDims.lhsIdx, dot_S128x4096_S320x4096_S128x320_1_1_0_0_n_n]; rfl
    | ⟨1, _⟩ => exact (DotDims.lhsIdx_val_of_single _ rfl _ _).trans (contrEquiv1_symm_val _ _ _ _ k)
  · intro k
    funext a
    refine Fin.ext ?_
    match a with
    | ⟨0, _⟩ => simp [DotDims.rhsIdx, dot_S128x4096_S320x4096_S128x320_1_1_0_0_n_n]; rfl
    | ⟨1, _⟩ => exact (DotDims.rhsIdx_val_of_single _ rfl _ _).trans (contrEquiv1_symm_val _ _ _ _ k)

/-- Rank 320: output `g` of row `r` is the row's latent against row `g` of the reconstruction matrix. -/
theorem recon_320 (lhs : FVec Ideal S128x320 .bf16) (rhs : FVec Ideal S512x320 .bf16) (r : Fin 128) (g : Fin 512) :
    matmul dot_S128x320_S512x320_S128x512_1_1_0_0_n_n none lhs rhs (constant S128x512 .f32 0x00000000#32) (ix2 r g)
      = ∑ k : Fin 320, lhs (ix2 r k) * rhs (ix2 g k) := by
  refine Cert.LibTileDot.matmul_zero_at _ none 320 rfl rfl lhs rhs (ix2 r g) (fun k => ix2 r k) (fun k => ix2 g k) ?_ ?_
  · intro k
    funext a
    refine Fin.ext ?_
    match a with
    | ⟨0, _⟩ => simp [DotDims.lhsIdx, dot_S128x320_S512x320_S128x512_1_1_0_0_n_n]; rfl
    | ⟨1, _⟩ => exact (DotDims.lhsIdx_val_of_single _ rfl _ _).trans (contrEquiv1_symm_val _ _ _ _ k)
  · intro k
    funext a
    refine Fin.ext ?_
    match a with
    | ⟨0, _⟩ => simp [DotDims.rhsIdx, dot_S128x320_S512x320_S128x512_1_1_0_0_n_n]; rfl
    | ⟨1, _⟩ => exact (DotDims.rhsIdx_val_of_single _ rfl _ _).trans (contrEquiv1_symm_val _ _ _ _ k)

/-- Rank 256: the latent of row `r` at position `c` is the row against row `c` of the group's projection rows. -/
theorem latent_256 (lhs : FVec Ideal S128x4096 .bf16) (rhs : FVec Ideal S256x4096 .bf16) (r : Fin 128) (c : Fin 256) :
    matmul dot_S128x4096_S256x4096_S128x256_1_1_0_0_n_n none lhs rhs (constant S128x256 .f32 0x00000000#32) (ix2 r c)
      = ∑ k : Fin 4096, lhs (ix2 r k) * rhs (ix2 c k) := by
  refine Cert.LibTileDot.matmul_zero_at _ none 4096 rfl rfl lhs rhs (ix2 r c) (fun k => ix2 r k) (fun k => ix2 c k) ?_ ?_
  · intro k
    funext a
    refine Fin.ext ?_
    match a with
    | ⟨0, _⟩ => simp [DotDims.lhsIdx, dot_S128x4096_S256x4096_S128x256_1_1_0_0_n_n]; rfl
    | ⟨1, _⟩ => exact (DotDims.lhsIdx_val_of_single _ rfl _ _).trans (contrEquiv1_symm_val _ _ _ _ k)
  · intro k
    funext a
    refine Fin.ext ?_
    match a with
    | ⟨0, _⟩ => simp [DotDims.rhsIdx, dot_S128x4096_S256x4096_S128x256_1_1_0_0_n_n]; rfl
    | ⟨1, _⟩ => exact (DotDims.rhsIdx_val_of_single _ rfl _ _).trans (contrEquiv1_symm_val _ _ _ _ k)

/-- Rank 256: output `g` of row `r` is the row's latent against row `g` of the reconstruction matrix. -/
theorem recon_256 (lhs : FVec Ideal S128x256 .bf16) (rhs : FVec Ideal S512x256 .bf16) (r : Fin 128) (g : Fin 512) :
    matmul dot_S128x256_S512x256_S128x512_1_1_0_0_n_n none lhs rhs (constant S128x512 .f32 0x00000000#32) (ix2 r g)
      = ∑ k : Fin 256, lhs (ix2 r k) * rhs (ix2 g k) := by
  refine Cert.LibTileDot.matmul_zero_at _ none 256 rfl rfl lhs rhs (ix2 r g) (fun k => ix2 r k) (fun k => ix2 g k) ?_ ?_
  · intro k
    funext a
    refine Fin.ext ?_
    match a with
    | ⟨0, _⟩ => simp [DotDims.lhsIdx, dot_S128x256_S512x256_S128x512_1_1_0_0_n_n]; rfl
    | ⟨1, _⟩ => exact (DotDims.lhsIdx_val_of_single _ rfl _ _).trans (contrEquiv1_symm_val _ _ _ _ k)
  · intro k
    funext a
    refine Fin.ext ?_
    match a with
    | ⟨0, _⟩ => simp [DotDims.rhsIdx, dot_S128x256_S512x256_S128x512_1_1_0_0_n_n]; rfl
    | ⟨1, _⟩ => exact (DotDims.rhsIdx_val_of_single _ rfl _ _).trans (contrEquiv1_symm_val _ _ _ _ k)

/-- Rank 192: the latent of row `r` at position `c` is the row against row `c` of the group's projection rows. -/
theorem latent_192 (lhs : FVec Ideal S128x4096 .bf16) (rhs : FVec Ideal S192x4096 .bf16) (r : Fin 128) (c : Fin 192) :
    matmul dot_S128x4096_S192x4096_S128x192_1_1_0_0_n_n none lhs rhs (constant S128x192 .f32 0x00000000#32) (ix2 r c)
      = ∑ k : Fin 4096, lhs (ix2 r k) * rhs (ix2 c k) := by
  refine Cert.LibTileDot.matmul_zero_at _ none 4096 rfl rfl lhs rhs (ix2 r c) (fun k => ix2 r k) (fun k => ix2 c k) ?_ ?_
  · intro k
    funext a
    refine Fin.ext ?_
    match a with
    | ⟨0, _⟩ => simp [DotDims.lhsIdx, dot_S128x4096_S192x4096_S128x192_1_1_0_0_n_n]; rfl
    | ⟨1, _⟩ => exact (DotDims.lhsIdx_val_of_single _ rfl _ _).trans (contrEquiv1_symm_val _ _ _ _ k)
  · intro k
    funext a
    refine Fin.ext ?_
    match a with
    | ⟨0, _⟩ => simp [DotDims.rhsIdx, dot_S128x4096_S192x4096_S128x192_1_1_0_0_n_n]; rfl
    | ⟨1, _⟩ => exact (DotDims.rhsIdx_val_of_single _ rfl _ _).trans (contrEquiv1_symm_val _ _ _ _ k)

/-- Rank 192: output `g` of row `r` is the row's latent against row `g` of the reconstruction matrix. -/
theorem recon_192 (lhs : FVec Ideal S128x192 .bf16) (rhs : FVec Ideal S512x192 .bf16) (r : Fin 128) (g : Fin 512) :
    matmul dot_S128x192_S512x192_S128x512_1_1_0_0_n_n none lhs rhs (constant S128x512 .f32 0x00000000#32) (ix2 r g)
      = ∑ k : Fin 192, lhs (ix2 r k) * rhs (ix2 g k) := by
  refine Cert.LibTileDot.matmul_zero_at _ none 192 rfl rfl lhs rhs (ix2 r g) (fun k => ix2 r k) (fun k => ix2 g k) ?_ ?_
  · intro k
    funext a
    refine Fin.ext ?_
    match a with
    | ⟨0, _⟩ => simp [DotDims.lhsIdx, dot_S128x192_S512x192_S128x512_1_1_0_0_n_n]; rfl
    | ⟨1, _⟩ => exact (DotDims.lhsIdx_val_of_single _ rfl _ _).trans (contrEquiv1_symm_val _ _ _ _ k)
  · intro k
    funext a
    refine Fin.ext ?_
    match a with
    | ⟨0, _⟩ => simp [DotDims.rhsIdx, dot_S128x192_S512x192_S128x512_1_1_0_0_n_n]; rfl
    | ⟨1, _⟩ => exact (DotDims.rhsIdx_val_of_single _ rfl _ _).trans (contrEquiv1_symm_val _ _ _ _ k)

/-- Rank 128: the latent of row `r` at position `c` is the row against row `c` of the group's projection rows. -/
theorem latent_128 (lhs : FVec Ideal S128x4096 .bf16) (rhs : FVec Ideal S128x4096 .bf16) (r : Fin 128) (c : Fin 128) :
    matmul dot_S128x4096_S128x4096_S128x128_1_1_0_0_n_n none lhs rhs (constant S128x128 .f32 0x00000000#32) (ix2 r c)
      = ∑ k : Fin 4096, lhs (ix2 r k) * rhs (ix2 c k) := by
  refine Cert.LibTileDot.matmul_zero_at _ none 4096 rfl rfl lhs rhs (ix2 r c) (fun k => ix2 r k) (fun k => ix2 c k) ?_ ?_
  · intro k
    funext a
    refine Fin.ext ?_
    match a with
    | ⟨0, _⟩ => simp [DotDims.lhsIdx, dot_S128x4096_S128x4096_S128x128_1_1_0_0_n_n]; rfl
    | ⟨1, _⟩ => exact (DotDims.lhsIdx_val_of_single _ rfl _ _).trans (contrEquiv1_symm_val _ _ _ _ k)
  · intro k
    funext a
    refine Fin.ext ?_
    match a with
    | ⟨0, _⟩ => simp [DotDims.rhsIdx, dot_S128x4096_S128x4096_S128x128_1_1_0_0_n_n]; rfl
    | ⟨1, _⟩ => exact (DotDims.rhsIdx_val_of_single _ rfl _ _).trans (contrEquiv1_symm_val _ _ _ _ k)

/-- Rank 128: output `g` of row `r` is the row's latent against row `g` of the reconstruction matrix. -/
theorem recon_128 (lhs : FVec Ideal S128x128 .bf16) (rhs : FVec Ideal S512x128 .bf16) (r : Fin 128) (g : Fin 512) :
    matmul dot_S128x128_S512x128_S128x512_1_1_0_0_n_n none lhs rhs (constant S128x512 .f32 0x00000000#32) (ix2 r g)
      = ∑ k : Fin 128, lhs (ix2 r k) * rhs (ix2 g k) := by
  refine Cert.LibTileDot.matmul_zero_at _ none 128 rfl rfl lhs rhs (ix2 r g) (fun k => ix2 r k) (fun k => ix2 g k) ?_ ?_
  · intro k
    funext a
    refine Fin.ext ?_
    match a with
    | ⟨0, _⟩ => simp [DotDims.lhsIdx, dot_S128x128_S512x128_S128x512_1_1_0_0_n_n]; rfl
    | ⟨1, _⟩ => exact (DotDims.lhsIdx_val_of_single _ rfl _ _).trans (contrEquiv1_symm_val _ _ _ _ k)
  · intro k
    funext a
    refine Fin.ext ?_
    match a with
    | ⟨0, _⟩ => simp [DotDims.rhsIdx, dot_S128x128_S512x128_S128x512_1_1_0_0_n_n]; rfl
    | ⟨1, _⟩ => exact (DotDims.rhsIdx_val_of_single _ rfl _ _).trans (contrEquiv1_symm_val _ _ _ _ k)

end Cert.KernelIdeal.Products

end
-- ==== Proof.Spec.lean ====
/-
  The function of the argument arrays that both programs compute, stated row by row.

  A row `h` of the hidden states (4096 features) is taken through eight independent groups. Group `i` has a
  rank `K i`; its latent is the row against rows `off i … off i + K i` of the shared projection `vt`
  (1856 rows in all, the groups' blocks of rows one after the other), and its 512 outputs are that latent against
  the group's own reconstruction matrix plus the group's bias:
      group g = (∑ k, (∑ d, h d · v k d) · u g k) + b g.
  The eight groups' outputs side by side are the natural row of 4096 columns, 32 heads of 128 columns. The result
  row is the natural row with its heads reordered: output head `n` is natural head `srcHead n`, so output column
  `c` is natural column `srcHead (c / 128) · 128 + c % 128`, which lies in group `/ 512` at position `% 512`.
  Nothing here is arithmetic beyond the two nested sums: slicing the projection's rows before or after the
  contraction, and permuting heads before or after concatenating, only re-index them.
-/
import Idealize.ShloMosaic.Lib.ValueIdx
import Idealize.ShloMosaic.PureOps.Ideal

noncomputable section

namespace Cert.HeadRows

open Idealize.ShloMosaic Idealize.ShloMosaic.ValueIdx

/-- The natural head that output head `n` is a copy of. -/
def srcHead : Fin 32 → Fin 32 :=
  ![26, 1, 19, 0, 11, 25, 18, 2, 13, 3, 30, 4, 5, 29, 12, 6, 16, 7, 20, 8, 27, 9, 10, 14, 31, 15, 23, 17, 21, 22, 24, 28]

/-- The natural column that output column `c` is a copy of: the same position inside the head, the head renamed. -/
def srcCol (c : Fin 4096) : Fin 4096 :=
  ⟨(srcHead ⟨c.val / 128, by have := c.isLt; omega⟩).val * 128 + c.val % 128, by
    have := (srcHead ⟨c.val / 128, by have := c.isLt; omega⟩).isLt; omega⟩

/-- One group on one row: the latent `k ↦ ∑ d, h d · v k d` against the reconstruction matrix, plus the bias. -/
def group {K : ℕ} (h : Fin 4096 → EReal) (v : Fin K → Fin 4096 → EReal) (u : Fin 512 → Fin K → EReal)
    (b : Fin 512 → EReal) (g : Fin 512) : EReal :=
  (∑ k : Fin K, (∑ d : Fin 4096, h d * v k d) * u g k) + b g

/-- Eight blocks of 512 columns side by side, read at one of the 4096 columns. -/
def natural (f : Fin 8 → Fin 512 → EReal) (c : Fin 4096) : EReal :=
  f ⟨c.val / 512, by have := c.isLt; omega⟩ ⟨c.val % 512, Nat.mod_lt _ (by norm_num)⟩

/-- Rows `off … off + K` of the shared projection, as a `K`-row matrix. -/
def rows (off K : ℕ) (hle : off + K ≤ 1856) (vt : (⟨2, ![1856, 4096]⟩ : Shape).Idx → EReal) : Fin K → Fin 4096 → EReal :=
  fun k d => vt (ix2 ⟨off + k.val, by have := k.isLt; omega⟩ d)

/-- A stored matrix by coordinates. -/
def mat {N K : ℕ} (u : (⟨2, ![N, K]⟩ : Shape).Idx → EReal) : Fin N → Fin K → EReal := fun g k => u (ix2 g k)

/-- A stored vector by its coordinate. -/
def vec {N : ℕ} (b : (⟨1, ![N]⟩ : Shape).Idx → EReal) : Fin N → EReal := fun g => b (ix1 g)

/-- The eight groups' outputs on the row `h`: ranks 384, 320, 256, 256, 192, 192, 128, 128, the projection's rows
    taken in that order. -/
def groups (h : Fin 4096 → EReal) (vt : (⟨2, ![1856, 4096]⟩ : Shape).Idx → EReal)
    (u0 : (⟨2, ![512, 384]⟩ : Shape).Idx → EReal) (u1 : (⟨2, ![512, 320]⟩ : Shape).Idx → EReal)
    (u2 u3 : (⟨2, ![512, 256]⟩ : Shape).Idx → EReal) (u4 u5 : (⟨2, ![512, 192]⟩ : Shape).Idx → EReal)
    (u6 u7 : (⟨2, ![512, 128]⟩ : Shape).Idx → EReal)
    (b0 b1 b2 b3 b4 b5 b6 b7 : (⟨1, ![512]⟩ : Shape).Idx → EReal) : Fin 8 → Fin 512 → EReal :=
  ![group h (rows 0 384 (by norm_num) vt) (mat u0) (vec b0),
    group h (rows 384 320 (by norm_num) vt) (mat u1) (vec b1),
    group h (rows 704 256 (by norm_num) vt) (mat u2) (vec b2),
    group h (rows 960 256 (by norm_num) vt) (mat u3) (vec b3),
    group h (rows 1216 192 (by norm_num) vt) (mat u4) (vec b4),
    group h (rows 1408 192 (by norm_num) vt) (mat u5) (vec b5),
    group h (rows 1600 128 (by norm_num) vt) (mat u6) (vec b6),
    group h (rows 1728 128 (by norm_num) vt) (mat u7) (vec b7)]

/-- The result row of the hidden row `h`: the natural row read at the renamed column. -/
def rowOut (h : Fin 4096 → EReal) (vt : (⟨2, ![1856, 4096]⟩ : Shape).Idx → EReal)
    (u0 : (⟨2, ![512, 384]⟩ : Shape).Idx → EReal) (u1 : (⟨2, ![512, 320]⟩ : Shape).Idx → EReal)
    (u2 u3 : (⟨2, ![512, 256]⟩ : Shape).Idx → EReal) (u4 u5 : (⟨2, ![512, 192]⟩ : Shape).Idx → EReal)
    (u6 u7 : (⟨2, ![512, 128]⟩ : Shape).Idx → EReal)
    (b0 b1 b2 b3 b4 b5 b6 b7 : (⟨1, ![512]⟩ : Shape).Idx → EReal) (c : Fin 4096) : EReal :=
  natural (groups h vt u0 u1 u2 u3 u4 u5 u6 u7 b0 b1 b2 b3 b4 b5 b6 b7) (srcCol c)

/-- The whole result: entry `(b, l, c)` is the result row of hidden row `(b, l)` at column `c`. -/
def G (x : (⟨3, ![4, 4096, 4096]⟩ : Shape).Idx → EReal) (vt : (⟨2, ![1856, 4096]⟩ : Shape).Idx → EReal)
    (u0 : (⟨2, ![512, 384]⟩ : Shape).Idx → EReal) (u1 : (⟨2, ![512, 320]⟩ : Shape).Idx → EReal)
    (u2 u3 : (⟨2, ![512, 256]⟩ : Shape).Idx → EReal) (u4 u5 : (⟨2, ![512, 192]⟩ : Shape).Idx → EReal)
    (u6 u7 : (⟨2, ![512, 128]⟩ : Shape).Idx → EReal)
    (b0 b1 b2 b3 b4 b5 b6 b7 : (⟨1, ![512]⟩ : Shape).Idx → EReal) : (⟨3, ![4, 4096, 4096]⟩ : Shape).Idx → EReal :=
  fun j => rowOut (fun d => x (ix3 (j 0) (j 1) d)) vt u0 u1 u2 u3 u4 u5 u6 u7 b0 b1 b2 b3 b4 b5 b6 b7 (j 2)

/-- `G` at an index written by coordinates. -/
theorem G_apply (x : (⟨3, ![4, 4096, 4096]⟩ : Shape).Idx → EReal) (vt : (⟨2, ![1856, 4096]⟩ : Shape).Idx → EReal)
    (u0 : (⟨2, ![512, 384]⟩ : Shape).Idx → EReal) (u1 : (⟨2, ![512, 320]⟩ : Shape).Idx → EReal)
    (u2 u3 : (⟨2, ![512, 256]⟩ : Shape).Idx → EReal) (u4 u5 : (⟨2, ![512, 192]⟩ : Shape).Idx → EReal)
    (u6 u7 : (⟨2, ![512, 128]⟩ : Shape).Idx → EReal)
    (b0 b1 b2 b3 b4 b5 b6 b7 : (⟨1, ![512]⟩ : Shape).Idx → EReal) (b : Fin 4) (l : Fin 4096) (c : Fin 4096) :
    G x vt u0 u1 u2 u3 u4 u5 u6 u7 b0 b1 b2 b3 b4 b5 b6 b7 (ix3 b l c)
      = rowOut (fun d => x (ix3 b l d)) vt u0 u1 u2 u3 u4 u5 u6 u7 b0 b1 b2 b3 b4 b5 b6 b7 c := rfl

end Cert.HeadRows

end
-- ==== Proof.KGroups.lean ====
/-
  Each group's payload, read at one entry, is the group function of the specification.

  A group's payload is: the block of hidden rows (cast to the matrix unit's input format, which changes nothing
  at the ideal values) against the group's projection rows, the result cast again and taken against the
  group's reconstruction matrix, plus the bias row broadcast over the block's 128 rows. Entry (p, g) is therefore
      (∑ k, (∑ d, hidden (p, d) · proj (k, d)) · recon (g, k)) + bias (0, g),
  the group function on row p of the block. The casts and the whole-shape reshapes of the loaded blocks are
  identities. Groups 0 and 1 take the raw hidden block; groups 3, 4, 5 take the block already cast; group 2
  adds its bias in a second step; groups 6 and 7 are the same expression written inside the concatenating payload.
-/
import proofs.«179934_j12378095747712_1_alg».proof.Proof.Gen.KernelIdeal.Skeleton
import proofs.«179934_j12378095747712_1_alg».proof.Proof.KDots
import proofs.«179934_j12378095747712_1_alg».proof.Proof.Spec
import Idealize.ShloMosaic.Lib.ValueLayout
import Idealize.ShloMosaic.Lib.Pipeline.Value

noncomputable section

namespace Cert.KernelIdeal.Groups

open Idealize.ShloMosaic Idealize.ShloMosaic.ValueIdx Cert.KernelIdeal Cert.KernelIdeal.Gen Cert.HeadRows

/-- The hidden block cast for the matrix unit is the hidden block, entry by entry. -/
theorem pay2_apply (v0 : Vec Ideal S128x4096 .f32) (j : S128x4096.Idx) : k0_pay2 v0 j = v0 j := by
  unfold k0_pay2
  rw [shapeCast_self]
  rfl

/-- Group of rank 384 on the raw hidden block. -/
theorem pay3_apply (v0 : Vec Ideal S128x4096 .f32) (vt : Vec Ideal S384x4096 .bf16) (uw : Vec Ideal S512x384 .bf16)
    (ub : Vec Ideal S1x512 .f32) (p : Fin 128) (g : Fin 512) :
    k0_pay3 v0 vt uw ub (ix2 p g)
      = group (fun d => v0 (ix2 p d)) (fun k d => vt (ix2 k d)) (fun g k => uw (ix2 g k)) (fun g => ub (ix2 (0 : Fin 1) g)) g := by
  unfold k0_pay3 k0_pay2 group
  dsimp only
  rw [shapeCast_self, shapeCast_self, shapeCast_self, shapeCast_self]
  rw [addf_apply, Products.recon_384, broadcastTo_1b_ab_apply]
  congr 1
  refine Finset.sum_congr rfl fun k _ => ?_
  rw [truncf_apply, Products.latent_384]
  rfl

/-- Group of rank 320 on the raw hidden block. -/
theorem pay4_apply (v0 : Vec Ideal S128x4096 .f32) (vt : Vec Ideal S320x4096 .bf16) (uw : Vec Ideal S512x320 .bf16)
    (ub : Vec Ideal S1x512 .f32) (p : Fin 128) (g : Fin 512) :
    k0_pay4 v0 vt uw ub (ix2 p g)
      = group (fun d => v0 (ix2 p d)) (fun k d => vt (ix2 k d)) (fun g k => uw (ix2 g k)) (fun g => ub (ix2 (0 : Fin 1) g)) g := by
  unfold k0_pay4 k0_pay2 group
  dsimp only
  rw [shapeCast_self, shapeCast_self, shapeCast_self, shapeCast_self]
  rw [addf_apply, Products.recon_320, broadcastTo_1b_ab_apply]
  congr 1
  refine Finset.sum_congr rfl fun k _ => ?_
  rw [truncf_apply, Products.latent_320]
  rfl

/-- Group 2 (rank 256): the two products in one payload, the bias added by the next. -/
theorem pay6_apply (v0 : Vec Ideal S128x4096 .f32) (vt : Vec Ideal S256x4096 .bf16) (uw : Vec Ideal S512x256 .bf16)
    (ub : Vec Ideal S1x512 .f32) (p : Fin 128) (g : Fin 512) :
    k0_pay6 (k0_pay5 v0 vt uw) ub (ix2 p g)
      = group (fun d => v0 (ix2 p d)) (fun k d => vt (ix2 k d)) (fun g k => uw (ix2 g k)) (fun g => ub (ix2 (0 : Fin 1) g)) g := by
  unfold k0_pay6 k0_pay5 k0_pay2 group
  dsimp only
  rw [shapeCast_self, shapeCast_self, shapeCast_self, shapeCast_self]
  rw [addf_apply, Products.recon_256, broadcastTo_1b_ab_apply]
  congr 1
  refine Finset.sum_congr rfl fun k _ => ?_
  rw [truncf_apply, Products.latent_256]
  rfl

/-- Group of rank 256 on the hidden block already cast. -/
theorem pay7_apply (v2 : FVec Ideal S128x4096 .bf16) (vt : Vec Ideal S256x4096 .bf16) (uw : Vec Ideal S512x256 .bf16)
    (ub : Vec Ideal S1x512 .f32) (p : Fin 128) (g : Fin 512) :
    k0_pay7 v2 vt uw ub (ix2 p g)
      = group (fun d => v2 (ix2 p d)) (fun k d => vt (ix2 k d)) (fun g k => uw (ix2 g k)) (fun g => ub (ix2 (0 : Fin 1) g)) g := by
  unfold k0_pay7 group
  dsimp only
  rw [shapeCast_self, shapeCast_self, shapeCast_self]
  rw [addf_apply, Products.recon_256, broadcastTo_1b_ab_apply]
  congr 1
  refine Finset.sum_congr rfl fun k _ => ?_
  rw [truncf_apply, Products.latent_256]

/-- Group of rank 192 on the hidden block already cast. -/
theorem pay8_apply (v2 : FVec Ideal S128x4096 .bf16) (vt : Vec Ideal S192x4096 .bf16) (uw : Vec Ideal S512x192 .bf16)
    (ub : Vec Ideal S1x512 .f32) (p : Fin 128) (g : Fin 512) :
    k0_pay8 v2 vt uw ub (ix2 p g)
      = group (fun d => v2 (ix2 p d)) (fun k d => vt (ix2 k d)) (fun g k => uw (ix2 g k)) (fun g => ub (ix2 (0 : Fin 1) g)) g := by
  unfold k0_pay8 group
  dsimp only
  rw [shapeCast_self, shapeCast_self, shapeCast_self]
  rw [addf_apply, Products.recon_192, broadcastTo_1b_ab_apply]
  congr 1
  refine Finset.sum_congr rfl fun k _ => ?_
  rw [truncf_apply, Products.latent_192]

/-- Group of rank 192 on the hidden block already cast. -/
theorem pay9_apply (v2 : FVec Ideal S128x4096 .bf16) (vt : Vec Ideal S192x4096 .bf16) (uw : Vec Ideal S512x192 .bf16)
    (ub : Vec Ideal S1x512 .f32) (p : Fin 128) (g : Fin 512) :
    k0_pay9 v2 vt uw ub (ix2 p g)
      = group (fun d => v2 (ix2 p d)) (fun k d => vt (ix2 k d)) (fun g k => uw (ix2 g k)) (fun g => ub (ix2 (0 : Fin 1) g)) g := by
  unfold k0_pay9 group
  dsimp only
  rw [shapeCast_self, shapeCast_self, shapeCast_self]
  rw [addf_apply, Products.recon_192, broadcastTo_1b_ab_apply]
  congr 1
  refine Finset.sum_congr rfl fun k _ => ?_
  rw [truncf_apply, Products.latent_192]

/-- The expression of groups 6 and 7 (rank 128), as the concatenating payload writes it. -/
def inline128 (v2 : FVec Ideal S128x4096 .bf16) (vt : FVec Ideal S128x4096 .bf16) (uw : FVec Ideal S512x128 .bf16)
    (ub : FVec Ideal S1x512 .f32) : FVec Ideal S128x512 .f32 :=
  addf (matmul dot_S128x128_S512x128_S128x512_1_1_0_0_n_n none
      (truncf .bf16 (matmul dot_S128x4096_S128x4096_S128x128_1_1_0_0_n_n none v2 (shapeCast S128x4096 vt shapeCasts_S128x4096_S128x4096)
        (constant S128x128 .f32 0x00000000#32)) bitsLt_bf16_f32)
      (shapeCast S512x128 uw shapeCasts_S512x128_S512x128) (constant S128x512 .f32 0x00000000#32))
    (broadcastTo S128x512 (shapeCast S1x512 ub shapeCasts_S1x512_S1x512) broadcasts_S1x512_S128x512)

theorem inline128_apply (v2 : FVec Ideal S128x4096 .bf16) (vt : FVec Ideal S128x4096 .bf16) (uw : FVec Ideal S512x128 .bf16)
    (ub : FVec Ideal S1x512 .f32) (p : Fin 128) (g : Fin 512) :
    inline128 v2 vt uw ub (ix2 p g)
      = group (fun d => v2 (ix2 p d)) (fun k d => vt (ix2 k d)) (fun g k => uw (ix2 g k)) (fun g => ub (ix2 (0 : Fin 1) g)) g := by
  unfold inline128 group
  rw [shapeCast_self, shapeCast_self, shapeCast_self]
  rw [addf_apply, Products.recon_128, broadcastTo_1b_ab_apply]
  congr 1
  refine Finset.sum_congr rfl fun k _ => ?_
  rw [truncf_apply, Products.latent_128]

end Cert.KernelIdeal.Groups

end
-- ==== Proof.KLayout.lean ====
/-
  The layout half of the body: eight 128 × 512 blocks side by side, then the 32 heads reordered.

  The eight groups' outputs are concatenated along the columns into the natural 128 × 4096 block: its column c'
  is column c' % 512 of block c' / 512. Thirty-two 128 × 128 column blocks are then cut out of it, the n-th at
  head `srcHead n`, and concatenated along the columns again: column c of the result lies in piece c / 128 at
  position c % 128, which is column srcHead (c / 128) · 128 + c % 128 = `srcCol c` of the natural block. Both
  concatenations are of equal pieces, so each is read by division and remainder of the column.
-/
import proofs.«179934_j12378095747712_1_alg».proof.Proof.Gen.KernelIdeal.Skeleton
import proofs.«179934_j12378095747712_1_alg».proof.Proof.KGroups
import proofs.«179934_j12378095747712_1_alg».proof.Proof.Spec
import Idealize.ShloMosaic.Lib.ValueLayout
import Idealize.ShloMosaic.Lib.Pipeline.Value

noncomputable section

namespace Cert.KernelIdeal.Layout

open Idealize.ShloMosaic Idealize.ShloMosaic.ValueIdx Cert.KernelIdeal Cert.KernelIdeal.Gen Cert.HeadRows

/-- Eight blocks of 512 columns side by side, read at (p, c): block c / 512 at (p, c % 512). -/
theorem cat8_apply (x0 x1 x2 x3 x4 x5 x6 x7 : FVec Ideal S128x512 .f32) (p : Fin 128) (c : Fin 4096) :
    concatenate S128x4096 1 [⟨S128x512, x0⟩, ⟨S128x512, x1⟩, ⟨S128x512, x2⟩, ⟨S128x512, x3⟩, ⟨S128x512, x4⟩, ⟨S128x512, x5⟩, ⟨S128x512, x6⟩, ⟨S128x512, x7⟩]
        concatenates_S128x512_S128x512_S128x512_S128x512_S128x512_S128x512_S128x512_S128x512_S128x4096_d1 (ix2 p c)
      = natural (fun i g => (![x0, x1, x2, x3, x4, x5, x6, x7] : Fin 8 → FVec Ideal S128x512 .f32) i (ix2 p g)) c := by
  exact concatenate_ofFn_apply (t := S128x4096) (s₁ := S128x512) 1 (![x0, x1, x2, x3, x4, x5, x6, x7] : Fin 8 → FVec Ideal S128x512 .f32)
    concatenates_S128x512_S128x512_S128x512_S128x512_S128x512_S128x512_S128x512_S128x512_S128x4096_d1 rfl 512 rfl (ix2 p c)
    ⟨c.val / 512, by have := c.isLt; omega⟩ rfl (ix2 p ⟨c.val % 512, Nat.mod_lt _ (by norm_num)⟩) rfl
    (fun b hb => by
      match b with
      | ⟨0, _⟩ => rfl
      | ⟨1, _⟩ => exact absurd rfl hb)

/-- Columns `o … o + 128` of a 128 × 4096 block are a 128 × 128 block of it. -/
theorem colBlock (o : ℕ) (ho : o + 128 ≤ 4096) : S128x4096.Slices ![0, o] S128x128 :=
  ⟨rfl, fun a => by
    match a with
    | ⟨0, _⟩ => exact Nat.le_refl 128
    | ⟨1, _⟩ => exact ho⟩

/-- The 32 head blocks cut out of the natural block at the renamed heads and laid side by side: column `c` of
    the result is column `srcCol c` of the natural block. -/
theorem heads_apply (X : FVec Ideal S128x4096 .f32) (p : Fin 128) (c : Fin 4096) :
    concatenate S128x4096 1
      [⟨S128x128, extractStridedSlice S128x128 ![0, 3328] X slices_S128x4096_o0_3328_S128x128⟩,
      ⟨S128x128, extractStridedSlice S128x128 ![0, 128] X slices_S128x4096_o0_128_S128x128⟩,
      ⟨S128x128, extractStridedSlice S128x128 ![0, 2432] X slices_S128x4096_o0_2432_S128x128⟩,
      ⟨S128x128, extractStridedSlice S128x128 ![0, 0] X slices_S128x4096_o0_0_S128x128⟩,
      ⟨S128x128, extractStridedSlice S128x128 ![0, 1408] X slices_S128x4096_o0_1408_S128x128⟩,
      ⟨S128x128, extractStridedSlice S128x128 ![0, 3200] X slices_S128x4096_o0_3200_S128x128⟩,
      ⟨S128x128, extractStridedSlice S128x128 ![0, 2304] X slices_S128x4096_o0_2304_S128x128⟩,
      ⟨S128x128, extractStridedSlice S128x128 ![0, 256] X slices_S128x4096_o0_256_S128x128⟩,
      ⟨S128x128, extractStridedSlice S128x128 ![0, 1664] X slices_S128x4096_o0_1664_S128x128⟩,
      ⟨S128x128, extractStridedSlice S128x128 ![0, 384] X slices_S128x4096_o0_384_S128x128⟩,
      ⟨S128x128, extractStridedSlice S128x128 ![0, 3840] X slices_S128x4096_o0_3840_S128x128⟩,
      ⟨S128x128, extractStridedSlice S128x128 ![0, 512] X slices_S128x4096_o0_512_S128x128⟩,
      ⟨S128x128, extractStridedSlice S128x128 ![0, 640] X slices_S128x4096_o0_640_S128x128⟩,
      ⟨S128x128, extractStridedSlice S128x128 ![0, 3712] X slices_S128x4096_o0_3712_S128x128⟩,
      ⟨S128x128, extractStridedSlice S128x128 ![0, 1536] X slices_S128x4096_o0_1536_S128x128⟩,
      ⟨S128x128, extractStridedSlice S128x128 ![0, 768] X slices_S128x4096_o0_768_S128x128⟩,
      ⟨S128x128, extractStridedSlice S128x128 ![0, 2048] X slices_S128x4096_o0_2048_S128x128⟩,
      ⟨S128x128, extractStridedSlice S128x128 ![0, 896] X slices_S128x4096_o0_896_S128x128⟩,
      ⟨S128x128, extractStridedSlice S128x128 ![0, 2560] X slices_S128x4096_o0_2560_S128x128⟩,
      ⟨S128x128, extractStridedSlice S128x128 ![0, 1024] X slices_S128x4096_o0_1024_S128x128⟩,
      ⟨S128x128, extractStridedSlice S128x128 ![0, 3456] X slices_S128x4096_o0_3456_S128x128⟩,
      ⟨S128x128, extractStridedSlice S128x128 ![0, 1152] X slices_S128x4096_o0_1152_S128x128⟩,
      ⟨S128x128, extractStridedSlice S128x128 ![0, 1280] X slices_S128x4096_o0_1280_S128x128⟩,
      ⟨S128x128, extractStridedSlice S128x128 ![0, 1792] X slices_S128x4096_o0_1792_S128x128⟩,
      ⟨S128x128, extractStridedSlice S128x128 ![0, 3968] X slices_S128x4096_o0_3968_S128x128⟩,
      ⟨S128x128, extractStridedSlice S128x128 ![0, 1920] X slices_S128x4096_o0_1920_S128x128⟩,
      ⟨S128x128, extractStridedSlice S128x128 ![0, 2944] X slices_S128x4096_o0_2944_S128x128⟩,
      ⟨S128x128, extractStridedSlice S128x128 ![0, 2176] X slices_S128x4096_o0_2176_S128x128⟩,
      ⟨S128x128, extractStridedSlice S128x128 ![0, 2688] X slices_S128x4096_o0_2688_S128x128⟩,
      ⟨S128x128, extractStridedSlice S128x128 ![0, 2816] X slices_S128x4096_o0_2816_S128x128⟩,
      ⟨S128x128, extractStridedSlice S128x128 ![0, 3072] X slices_S128x4096_o0_3072_S128x128⟩,
      ⟨S128x128, extractStridedSlice S128x128 ![0, 3584] X slices_S128x4096_o0_3584_S128x128⟩]
        concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x4096_d1 (ix2 p c)
      = X (ix2 p (srcCol c)) := by
  refine (concatenate_ofFn_apply (t := S128x4096) (s₁ := S128x128) 1
    (fun n : Fin 32 => extractStridedSlice S128x128 ![0, (srcHead n).val * 128] X
      (colBlock _ (by have := (srcHead n).isLt; omega)))
    concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x4096_d1 rfl 128 rfl (ix2 p c)
    ⟨c.val / 128, by have := c.isLt; omega⟩ rfl (ix2 p ⟨c.val % 128, Nat.mod_lt _ (by norm_num)⟩) rfl
    (fun b hb => by
      match b with
      | ⟨0, _⟩ => rfl
      | ⟨1, _⟩ => exact absurd rfl hb)).trans ?_
  exact slice2_axis1_apply _ X _ p ⟨c.val % 128, Nat.mod_lt _ (by norm_num)⟩ (srcCol c) rfl

/-- The one value the body stores: the natural block of the eight groups, its heads reordered. Entry (p, c) is the
    natural row of row p at the renamed column. -/
theorem store_apply (v2 : FVec Ideal S128x4096 .bf16) (g0 g1 g2 g3 g4 g5 : FVec Ideal S128x512 .f32)
    (vt6 : Vec Ideal S128x4096 .bf16) (uw6 : Vec Ideal S512x128 .bf16) (ub6 : Vec Ideal S1x512 .f32)
    (vt7 : Vec Ideal S128x4096 .bf16) (uw7 : Vec Ideal S512x128 .bf16) (ub7 : Vec Ideal S1x512 .f32)
    (p : Fin 128) (c : Fin 4096) :
    k0_pay1 (k0_pay10 v2 g0 g1 g2 g3 g4 g5 vt6 uw6 ub6 vt7 uw7 ub7)
        (k0_pay11 v2 g0 g1 g2 g3 g4 g5 vt6 uw6 ub6 vt7 uw7 ub7)
        (k0_pay12 v2 g0 g1 g2 g3 g4 g5 vt6 uw6 ub6 vt7 uw7 ub7)
        (k0_pay13 v2 g0 g1 g2 g3 g4 g5 vt6 uw6 ub6 vt7 uw7 ub7)
        (k0_pay14 v2 g0 g1 g2 g3 g4 g5 vt6 uw6 ub6 vt7 uw7 ub7)
        (k0_pay15 v2 g0 g1 g2 g3 g4 g5 vt6 uw6 ub6 vt7 uw7 ub7)
        (k0_pay16 v2 g0 g1 g2 g3 g4 g5 vt6 uw6 ub6 vt7 uw7 ub7)
        (k0_pay17 v2 g0 g1 g2 g3 g4 g5 vt6 uw6 ub6 vt7 uw7 ub7)
        (k0_pay18 v2 g0 g1 g2 g3 g4 g5 vt6 uw6 ub6 vt7 uw7 ub7)
        (k0_pay19 v2 g0 g1 g2 g3 g4 g5 vt6 uw6 ub6 vt7 uw7 ub7)
        (k0_pay20 v2 g0 g1 g2 g3 g4 g5 vt6 uw6 ub6 vt7 uw7 ub7)
        (k0_pay21 v2 g0 g1 g2 g3 g4 g5 vt6 uw6 ub6 vt7 uw7 ub7)
        (k0_pay22 v2 g0 g1 g2 g3 g4 g5 vt6 uw6 ub6 vt7 uw7 ub7)
        (k0_pay23 v2 g0 g1 g2 g3 g4 g5 vt6 uw6 ub6 vt7 uw7 ub7)
        (k0_pay24 v2 g0 g1 g2 g3 g4 g5 vt6 uw6 ub6 vt7 uw7 ub7)
        (k0_pay25 v2 g0 g1 g2 g3 g4 g5 vt6 uw6 ub6 vt7 uw7 ub7)
        (k0_pay26 v2 g0 g1 g2 g3 g4 g5 vt6 uw6 ub6 vt7 uw7 ub7)
        (k0_pay27 v2 g0 g1 g2 g3 g4 g5 vt6 uw6 ub6 vt7 uw7 ub7)
        (k0_pay28 v2 g0 g1 g2 g3 g4 g5 vt6 uw6 ub6 vt7 uw7 ub7)
        (k0_pay29 v2 g0 g1 g2 g3 g4 g5 vt6 uw6 ub6 vt7 uw7 ub7)
        (k0_pay30 v2 g0 g1 g2 g3 g4 g5 vt6 uw6 ub6 vt7 uw7 ub7)
        (k0_pay31 v2 g0 g1 g2 g3 g4 g5 vt6 uw6 ub6 vt7 uw7 ub7) (ix2 p c)
      = natural (fun i g => (![g0, g1, g2, g3, g4, g5, Groups.inline128 v2 vt6 uw6 ub6, Groups.inline128 v2 vt7 uw7 ub7]
          : Fin 8 → FVec Ideal S128x512 .f32) i (ix2 p g)) (srcCol c) := by
  unfold k0_pay1 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31
  dsimp only
  refine (heads_apply _ p c).trans ?_
  unfold k0_pay10
  exact cat8_apply _ _ _ _ _ _ _ _ p (srcCol c)

end Cert.KernelIdeal.Layout

end
-- ==== Proof.KBlock.lean ====
/-
  The output block after the body, entry by entry, from the 25 input blocks.

  The body loads every input block whole, stores one value into the whole output block, and that value is the
  natural block of the eight groups with its heads reordered. So entry (p, c) of the output block is the natural
  row of the hidden block's row p — group i computed from input blocks 1 + i (projection rows), 9 + i
  (reconstruction matrix) and 17 + i (bias row) — read at the renamed column `srcCol c`.
-/
import proofs.«179934_j12378095747712_1_alg».proof.Proof.Gen.KernelIdeal.Frame
import proofs.«179934_j12378095747712_1_alg».proof.Proof.KLayout

noncomputable section

namespace Cert.KernelIdeal.Block

open Idealize.ShloMosaic Idealize.ShloMosaic.ValueIdx Cert.KernelIdeal Cert.KernelIdeal.Gen Cert.HeadRows

/-- The zero offsets of a whole-block access, in the spelling the access lemmas take. -/
theorem hz : (![0, 0] : Fin 2 → Nat) = fun _ => 0 := funext fun a => by fin_cases a <;> rfl

/-- The eight groups on row `p` of the hidden block, from the input blocks. -/
def blockGroups (x0 : Vec Ideal S128x4096 .f32) (x1 : Vec Ideal S384x4096 .bf16) (x2 : Vec Ideal S320x4096 .bf16) (x3 : Vec Ideal S256x4096 .bf16) (x4 : Vec Ideal S256x4096 .bf16) (x5 : Vec Ideal S192x4096 .bf16) (x6 : Vec Ideal S192x4096 .bf16) (x7 : Vec Ideal S128x4096 .bf16) (x8 : Vec Ideal S128x4096 .bf16) (x9 : Vec Ideal S512x384 .bf16) (x10 : Vec Ideal S512x320 .bf16) (x11 : Vec Ideal S512x256 .bf16) (x12 : Vec Ideal S512x256 .bf16) (x13 : Vec Ideal S512x192 .bf16) (x14 : Vec Ideal S512x192 .bf16) (x15 : Vec Ideal S512x128 .bf16) (x16 : Vec Ideal S512x128 .bf16) (x17 : Vec Ideal S1x512 .f32) (x18 : Vec Ideal S1x512 .f32) (x19 : Vec Ideal S1x512 .f32) (x20 : Vec Ideal S1x512 .f32) (x21 : Vec Ideal S1x512 .f32) (x22 : Vec Ideal S1x512 .f32) (x23 : Vec Ideal S1x512 .f32) (x24 : Vec Ideal S1x512 .f32) (p : Fin 128) : Fin 8 → Fin 512 → EReal :=
  ![group (fun d => x0 (ix2 p d)) (fun k d => x1 (ix2 k d)) (fun g k => x9 (ix2 g k)) (fun g => x17 (ix2 (0 : Fin 1) g)),
    group (fun d => x0 (ix2 p d)) (fun k d => x2 (ix2 k d)) (fun g k => x10 (ix2 g k)) (fun g => x18 (ix2 (0 : Fin 1) g)),
    group (fun d => x0 (ix2 p d)) (fun k d => x3 (ix2 k d)) (fun g k => x11 (ix2 g k)) (fun g => x19 (ix2 (0 : Fin 1) g)),
    group (fun d => x0 (ix2 p d)) (fun k d => x4 (ix2 k d)) (fun g k => x12 (ix2 g k)) (fun g => x20 (ix2 (0 : Fin 1) g)),
    group (fun d => x0 (ix2 p d)) (fun k d => x5 (ix2 k d)) (fun g k => x13 (ix2 g k)) (fun g => x21 (ix2 (0 : Fin 1) g)),
    group (fun d => x0 (ix2 p d)) (fun k d => x6 (ix2 k d)) (fun g k => x14 (ix2 g k)) (fun g => x22 (ix2 (0 : Fin 1) g)),
    group (fun d => x0 (ix2 p d)) (fun k d => x7 (ix2 k d)) (fun g k => x15 (ix2 g k)) (fun g => x23 (ix2 (0 : Fin 1) g)),
    group (fun d => x0 (ix2 p d)) (fun k d => x8 (ix2 k d)) (fun g k => x16 (ix2 g k)) (fun g => x24 (ix2 (0 : Fin 1) g))]

theorem block_apply (x0 : Vec Ideal S128x4096 .f32) (x1 : Vec Ideal S384x4096 .bf16) (x2 : Vec Ideal S320x4096 .bf16) (x3 : Vec Ideal S256x4096 .bf16) (x4 : Vec Ideal S256x4096 .bf16) (x5 : Vec Ideal S192x4096 .bf16) (x6 : Vec Ideal S192x4096 .bf16) (x7 : Vec Ideal S128x4096 .bf16) (x8 : Vec Ideal S128x4096 .bf16) (x9 : Vec Ideal S512x384 .bf16) (x10 : Vec Ideal S512x320 .bf16) (x11 : Vec Ideal S512x256 .bf16) (x12 : Vec Ideal S512x256 .bf16) (x13 : Vec Ideal S512x192 .bf16) (x14 : Vec Ideal S512x192 .bf16) (x15 : Vec Ideal S512x128 .bf16) (x16 : Vec Ideal S512x128 .bf16) (x17 : Vec Ideal S1x512 .f32) (x18 : Vec Ideal S1x512 .f32) (x19 : Vec Ideal S1x512 .f32) (x20 : Vec Ideal S1x512 .f32) (x21 : Vec Ideal S1x512 .f32) (x22 : Vec Ideal S1x512 .f32) (x23 : Vec Ideal S1x512 .f32) (x24 : Vec Ideal S1x512 .f32) (p : Fin 128) (c : Fin 4096) :
    out0_25 x0 x1 x2 x3 x4 x5 x6 x7 x8 x9 x10 x11 x12 x13 x14 x15 x16 x17 x18 x19 x20 x21 x22 x23 x24 (ix2 p c) = natural (blockGroups x0 x1 x2 x3 x4 x5 x6 x7 x8 x9 x10 x11 x12 x13 x14 x15 x16 x17 x18 x19 x20 x21 x22 x23 x24 p) (srcCol c) := by
  unfold out0_25
  rw [View.canon_unit_zero hz]
  simp only [View.ld_unit_zero (S := S128x4096) hz, View.ld_unit_zero (S := S384x4096) hz, View.ld_unit_zero (S := S512x384) hz, View.ld_unit_zero (S := S1x512) hz, View.ld_unit_zero (S := S320x4096) hz, View.ld_unit_zero (S := S512x320) hz, View.ld_unit_zero (S := S256x4096) hz, View.ld_unit_zero (S := S512x256) hz, View.ld_unit_zero (S := S192x4096) hz, View.ld_unit_zero (S := S512x192) hz, View.ld_unit_zero (S := S512x128) hz]
  refine (Layout.store_apply _ _ _ _ _ _ _ _ _ _ _ _ _ p c).trans ?_
  congr 1
  funext i g
  unfold blockGroups
  fin_cases i
  · exact Groups.pay3_apply x0 x1 x9 x17 p g
  · exact Groups.pay4_apply x0 x2 x10 x18 p g
  · exact Groups.pay6_apply x0 x3 x11 x19 p g
  · refine (Groups.pay7_apply (k0_pay2 x0) x4 x12 x20 p g).trans ?_
    simp only [Groups.pay2_apply]
    try rfl
  · refine (Groups.pay8_apply (k0_pay2 x0) x5 x13 x21 p g).trans ?_
    simp only [Groups.pay2_apply]
    try rfl
  · refine (Groups.pay9_apply (k0_pay2 x0) x6 x14 x22 p g).trans ?_
    simp only [Groups.pay2_apply]
    try rfl
  · refine (Groups.inline128_apply (k0_pay2 x0) x7 x15 x23 p g).trans ?_
    simp only [Groups.pay2_apply]
    try rfl
  · refine (Groups.inline128_apply (k0_pay2 x0) x8 x16 x24 p g).trans ?_
    simp only [Groups.pay2_apply]
    try rfl

end Cert.KernelIdeal.Block

end
-- ==== Proof.KRow.lean ====
/-
  The output block's entry as the specification's row function.

  If row p of the hidden block is the row `h`, each projection block is the group's rows of the shared projection,
  each reconstruction block the group's matrix and each bias block's row the group's bias, then entry (p, c) of the
  output block after the body is the result row of `h` at column c. This only substitutes the blocks' contents
  into the eight groups; it is stated over plain variables so that it can be applied to any blocks that meet the
  hypotheses.
-/
import proofs.«179934_j12378095747712_1_alg».proof.Proof.KBlock

noncomputable section

namespace Cert.KernelIdeal.Block

open Idealize.ShloMosaic Idealize.ShloMosaic.ValueIdx Cert.KernelIdeal Cert.KernelIdeal.Gen Cert.HeadRows

theorem block_row (x0 : Vec Ideal S128x4096 .f32) (x1 : Vec Ideal S384x4096 .bf16) (x2 : Vec Ideal S320x4096 .bf16) (x3 : Vec Ideal S256x4096 .bf16) (x4 : Vec Ideal S256x4096 .bf16) (x5 : Vec Ideal S192x4096 .bf16) (x6 : Vec Ideal S192x4096 .bf16) (x7 : Vec Ideal S128x4096 .bf16) (x8 : Vec Ideal S128x4096 .bf16) (x9 : Vec Ideal S512x384 .bf16) (x10 : Vec Ideal S512x320 .bf16) (x11 : Vec Ideal S512x256 .bf16) (x12 : Vec Ideal S512x256 .bf16) (x13 : Vec Ideal S512x192 .bf16) (x14 : Vec Ideal S512x192 .bf16) (x15 : Vec Ideal S512x128 .bf16) (x16 : Vec Ideal S512x128 .bf16) (x17 : Vec Ideal S1x512 .f32) (x18 : Vec Ideal S1x512 .f32) (x19 : Vec Ideal S1x512 .f32) (x20 : Vec Ideal S1x512 .f32) (x21 : Vec Ideal S1x512 .f32) (x22 : Vec Ideal S1x512 .f32) (x23 : Vec Ideal S1x512 .f32) (x24 : Vec Ideal S1x512 .f32) (p : Fin 128) (c : Fin 4096)
    (h : Fin 4096 → EReal) (vt : (⟨2, ![1856, 4096]⟩ : Shape).Idx → EReal)
    (u0 : (⟨2, ![512, 384]⟩ : Shape).Idx → EReal) (u1 : (⟨2, ![512, 320]⟩ : Shape).Idx → EReal)
    (u2 u3 : (⟨2, ![512, 256]⟩ : Shape).Idx → EReal) (u4 u5 : (⟨2, ![512, 192]⟩ : Shape).Idx → EReal)
    (u6 u7 : (⟨2, ![512, 128]⟩ : Shape).Idx → EReal)
    (b0 b1 b2 b3 b4 b5 b6 b7 : (⟨1, ![512]⟩ : Shape).Idx → EReal)
    (hH : ∀ d : Fin 4096, x0 (ix2 p d) = h d)
    (hV0 : ∀ (k : Fin 384) (d : Fin 4096), x1 (ix2 k d) = rows 0 384 (by norm_num) vt k d)
    (hV1 : ∀ (k : Fin 320) (d : Fin 4096), x2 (ix2 k d) = rows 384 320 (by norm_num) vt k d)
    (hV2 : ∀ (k : Fin 256) (d : Fin 4096), x3 (ix2 k d) = rows 704 256 (by norm_num) vt k d)
    (hV3 : ∀ (k : Fin 256) (d : Fin 4096), x4 (ix2 k d) = rows 960 256 (by norm_num) vt k d)
    (hV4 : ∀ (k : Fin 192) (d : Fin 4096), x5 (ix2 k d) = rows 1216 192 (by norm_num) vt k d)
    (hV5 : ∀ (k : Fin 192) (d : Fin 4096), x6 (ix2 k d) = rows 1408 192 (by norm_num) vt k d)
    (hV6 : ∀ (k : Fin 128) (d : Fin 4096), x7 (ix2 k d) = rows 1600 128 (by norm_num) vt k d)
    (hV7 : ∀ (k : Fin 128) (d : Fin 4096), x8 (ix2 k d) = rows 1728 128 (by norm_num) vt k d)
    (hU0 : ∀ (g : Fin 512) (k : Fin 384), x9 (ix2 g k) = mat u0 g k)
    (hU1 : ∀ (g : Fin 512) (k : Fin 320), x10 (ix2 g k) = mat u1 g k)
    (hU2 : ∀ (g : Fin 512) (k : Fin 256), x11 (ix2 g k) = mat u2 g k)
    (hU3 : ∀ (g : Fin 512) (k : Fin 256), x12 (ix2 g k) = mat u3 g k)
    (hU4 : ∀ (g : Fin 512) (k : Fin 192), x13 (ix2 g k) = mat u4 g k)
    (hU5 : ∀ (g : Fin 512) (k : Fin 192), x14 (ix2 g k) = mat u5 g k)
    (hU6 : ∀ (g : Fin 512) (k : Fin 128), x15 (ix2 g k) = mat u6 g k)
    (hU7 : ∀ (g : Fin 512) (k : Fin 128), x16 (ix2 g k) = mat u7 g k)
    (hB0 : ∀ g : Fin 512, x17 (ix2 (0 : Fin 1) g) = vec b0 g)
    (hB1 : ∀ g : Fin 512, x18 (ix2 (0 : Fin 1) g) = vec b1 g)
    (hB2 : ∀ g : Fin 512, x19 (ix2 (0 : Fin 1) g) = vec b2 g)
    (hB3 : ∀ g : Fin 512, x20 (ix2 (0 : Fin 1) g) = vec b3 g)
    (hB4 : ∀ g : Fin 512, x21 (ix2 (0 : Fin 1) g) = vec b4 g)
    (hB5 : ∀ g : Fin 512, x22 (ix2 (0 : Fin 1) g) = vec b5 g)
    (hB6 : ∀ g : Fin 512, x23 (ix2 (0 : Fin 1) g) = vec b6 g)
    (hB7 : ∀ g : Fin 512, x24 (ix2 (0 : Fin 1) g) = vec b7 g) :
    out0_25 x0 x1 x2 x3 x4 x5 x6 x7 x8 x9 x10 x11 x12 x13 x14 x15 x16 x17 x18 x19 x20 x21 x22 x23 x24 (ix2 p c) = rowOut h vt u0 u1 u2 u3 u4 u5 u6 u7 b0 b1 b2 b3 b4 b5 b6 b7 c := by
  rw [block_apply]
  unfold rowOut
  congr 1
  unfold blockGroups groups
  have eH : (fun d : Fin 4096 => x0 (ix2 p d)) = h := funext hH
  have eV0 : (fun (k : Fin 384) (d : Fin 4096) => x1 (ix2 k d)) = rows 0 384 (by norm_num) vt := funext fun k => funext fun d => hV0 k d
  have eV1 : (fun (k : Fin 320) (d : Fin 4096) => x2 (ix2 k d)) = rows 384 320 (by norm_num) vt := funext fun k => funext fun d => hV1 k d
  have eV2 : (fun (k : Fin 256) (d : Fin 4096) => x3 (ix2 k d)) = rows 704 256 (by norm_num) vt := funext fun k => funext fun d => hV2 k d
  have eV3 : (fun (k : Fin 256) (d : Fin 4096) => x4 (ix2 k d)) = rows 960 256 (by norm_num) vt := funext fun k => funext fun d => hV3 k d
  have eV4 : (fun (k : Fin 192) (d : Fin 4096) => x5 (ix2 k d)) = rows 1216 192 (by norm_num) vt := funext fun k => funext fun d => hV4 k d
  have eV5 : (fun (k : Fin 192) (d : Fin 4096) => x6 (ix2 k d)) = rows 1408 192 (by norm_num) vt := funext fun k => funext fun d => hV5 k d
  have eV6 : (fun (k : Fin 128) (d : Fin 4096) => x7 (ix2 k d)) = rows 1600 128 (by norm_num) vt := funext fun k => funext fun d => hV6 k d
  have eV7 : (fun (k : Fin 128) (d : Fin 4096) => x8 (ix2 k d)) = rows 1728 128 (by norm_num) vt := funext fun k => funext fun d => hV7 k d
  have eU0 : (fun (g : Fin 512) (k : Fin 384) => x9 (ix2 g k)) = mat u0 := funext fun g => funext fun k => hU0 g k
  have eU1 : (fun (g : Fin 512) (k : Fin 320) => x10 (ix2 g k)) = mat u1 := funext fun g => funext fun k => hU1 g k
  have eU2 : (fun (g : Fin 512) (k : Fin 256) => x11 (ix2 g k)) = mat u2 := funext fun g => funext fun k => hU2 g k
  have eU3 : (fun (g : Fin 512) (k : Fin 256) => x12 (ix2 g k)) = mat u3 := funext fun g => funext fun k => hU3 g k
  have eU4 : (fun (g : Fin 512) (k : Fin 192) => x13 (ix2 g k)) = mat u4 := funext fun g => funext fun k => hU4 g k
  have eU5 : (fun (g : Fin 512) (k : Fin 192) => x14 (ix2 g k)) = mat u5 := funext fun g => funext fun k => hU5 g k
  have eU6 : (fun (g : Fin 512) (k : Fin 128) => x15 (ix2 g k)) = mat u6 := funext fun g => funext fun k => hU6 g k
  have eU7 : (fun (g : Fin 512) (k : Fin 128) => x16 (ix2 g k)) = mat u7 := funext fun g => funext fun k => hU7 g k
  have eB0 : (fun g : Fin 512 => x17 (ix2 (0 : Fin 1) g)) = vec b0 := funext fun g => hB0 g
  have eB1 : (fun g : Fin 512 => x18 (ix2 (0 : Fin 1) g)) = vec b1 := funext fun g => hB1 g
  have eB2 : (fun g : Fin 512 => x19 (ix2 (0 : Fin 1) g)) = vec b2 := funext fun g => hB2 g
  have eB3 : (fun g : Fin 512 => x20 (ix2 (0 : Fin 1) g)) = vec b3 := funext fun g => hB3 g
  have eB4 : (fun g : Fin 512 => x21 (ix2 (0 : Fin 1) g)) = vec b4 := funext fun g => hB4 g
  have eB5 : (fun g : Fin 512 => x22 (ix2 (0 : Fin 1) g)) = vec b5 := funext fun g => hB5 g
  have eB6 : (fun g : Fin 512 => x23 (ix2 (0 : Fin 1) g)) = vec b6 := funext fun g => hB6 g
  have eB7 : (fun g : Fin 512 => x24 (ix2 (0 : Fin 1) g)) = vec b7 := funext fun g => hB7 g
  rw [eH, eV0, eU0, eB0, eV1, eU1, eB1, eV2, eU2, eB2, eV3, eU3, eB3, eV4, eU4, eB4, eV5, eU5, eB5, eV6, eU6, eB6, eV7, eU7, eB7]

end Cert.KernelIdeal.Block

end
-- ==== Proof.KHost.lean ====
/-
  What the region finds in each window's array: the host operations before the call, read back.

  Before the call the host flattens the hidden states' two leading axes ([4, 4096, 4096] → [16384, 4096]), cuts
  the shared projection into the eight groups' blocks of rows (rows off … off + rank), and views each bias
  vector as one row ([512] → [1, 512]); the conversions of the projection blocks and the reconstruction matrices to
  the matrix unit's input format change nothing at the ideal values. So each window's array is a reshape, a block
  of rows, or an argument array itself.
-/
import proofs.«179934_j12378095747712_1_alg».proof.Proof.Gen.KernelIdeal.Frame
import Idealize.ShloMosaic.Lib.StableHlo.Run
import Idealize.ShloMosaic.Lib.ValueIdx

noncomputable section

namespace Cert.KernelIdeal.HostSide

open Idealize.ShloMosaic Idealize.ShloMosaic.TcCoe Idealize.SL.Sem Idealize.ShloMosaic.ValueIdx
open Cert.KernelIdeal Cert.KernelIdeal.Gen Idealize.ShloMosaic.StableHlo

variable (m : (ℓ : Loc nD τ sig) → Buf (Elt Ideal) ℓ)

/-- The hidden states with their two leading axes merged. -/
theorem V_v0 (c : Dev nD) : @Eq (S16384x4096.Idx → EReal) (V m c main_v0)
    (shapeCast S16384x4096 (m ((c : Thread nD τ).loc main_arg0)) shapeCasts_S4x4096x4096_S16384x4096) := by
  show StableHlo.after hostOps0 (fun b => m (c, b)) (Proc.devRef .tc main_v0) = _
  after_results
  rfl

/-- Group 0's projection rows: rows 0 … 384 of the shared projection. -/
theorem V_v2 (c : Dev nD) : @Eq (S384x4096.Idx → EReal) (V m c main_v2)
    (extractStridedSlice S384x4096 ![0, 0] (m ((c : Thread nD τ).loc main_arg1)) slices_S1856x4096_S384x4096_0_0) := by
  show StableHlo.after hostOps0 (fun b => m (c, b)) (Proc.devRef .tc main_v2) = _
  after_results
  rfl

/-- Group 1's projection rows: rows 384 … 704 of the shared projection. -/
theorem V_v4 (c : Dev nD) : @Eq (S320x4096.Idx → EReal) (V m c main_v4)
    (extractStridedSlice S320x4096 ![384, 0] (m ((c : Thread nD τ).loc main_arg1)) slices_S1856x4096_S320x4096_384_0) := by
  show StableHlo.after hostOps0 (fun b => m (c, b)) (Proc.devRef .tc main_v4) = _
  after_results
  rfl

/-- Group 2's projection rows: rows 704 … 960 of the shared projection. -/
theorem V_v6 (c : Dev nD) : @Eq (S256x4096.Idx → EReal) (V m c main_v6)
    (extractStridedSlice S256x4096 ![704, 0] (m ((c : Thread nD τ).loc main_arg1)) slices_S1856x4096_S256x4096_704_0) := by
  show StableHlo.after hostOps0 (fun b => m (c, b)) (Proc.devRef .tc main_v6) = _
  after_results
  rfl

/-- Group 3's projection rows: rows 960 … 1216 of the shared projection. -/
theorem V_v8 (c : Dev nD) : @Eq (S256x4096.Idx → EReal) (V m c main_v8)
    (extractStridedSlice S256x4096 ![960, 0] (m ((c : Thread nD τ).loc main_arg1)) slices_S1856x4096_S256x4096_960_0) := by
  show StableHlo.after hostOps0 (fun b => m (c, b)) (Proc.devRef .tc main_v8) = _
  after_results
  rfl

/-- Group 4's projection rows: rows 1216 … 1408 of the shared projection. -/
theorem V_v10 (c : Dev nD) : @Eq (S192x4096.Idx → EReal) (V m c main_v10)
    (extractStridedSlice S192x4096 ![1216, 0] (m ((c : Thread nD τ).loc main_arg1)) slices_S1856x4096_S192x4096_1216_0) := by
  show StableHlo.after hostOps0 (fun b => m (c, b)) (Proc.devRef .tc main_v10) = _
  after_results
  rfl

/-- Group 5's projection rows: rows 1408 … 1600 of the shared projection. -/
theorem V_v12 (c : Dev nD) : @Eq (S192x4096.Idx → EReal) (V m c main_v12)
    (extractStridedSlice S192x4096 ![1408, 0] (m ((c : Thread nD τ).loc main_arg1)) slices_S1856x4096_S192x4096_1408_0) := by
  show StableHlo.after hostOps0 (fun b => m (c, b)) (Proc.devRef .tc main_v12) = _
  after_results
  rfl

/-- Group 6's projection rows: rows 1600 … 1728 of the shared projection. -/
theorem V_v14 (c : Dev nD) : @Eq (S128x4096.Idx → EReal) (V m c main_v14)
    (extractStridedSlice S128x4096 ![1600, 0] (m ((c : Thread nD τ).loc main_arg1)) slices_S1856x4096_S128x4096_1600_0) := by
  show StableHlo.after hostOps0 (fun b => m (c, b)) (Proc.devRef .tc main_v14) = _
  after_results
  rfl

/-- Group 7's projection rows: rows 1728 … 1856 of the shared projection. -/
theorem V_v16 (c : Dev nD) : @Eq (S128x4096.Idx → EReal) (V m c main_v16)
    (extractStridedSlice S128x4096 ![1728, 0] (m ((c : Thread nD τ).loc main_arg1)) slices_S1856x4096_S128x4096_1728_0) := by
  show StableHlo.after hostOps0 (fun b => m (c, b)) (Proc.devRef .tc main_v16) = _
  after_results
  rfl

/-- Group 0's reconstruction matrix, as launched. -/
theorem V_v17 (c : Dev nD) : @Eq (S512x384.Idx → EReal) (V m c main_v17) (m ((c : Thread nD τ).loc main_arg2)) := by
  show StableHlo.after hostOps0 (fun b => m (c, b)) (Proc.devRef .tc main_v17) = _
  after_results
  rfl

/-- Group 1's reconstruction matrix, as launched. -/
theorem V_v18 (c : Dev nD) : @Eq (S512x320.Idx → EReal) (V m c main_v18) (m ((c : Thread nD τ).loc main_arg3)) := by
  show StableHlo.after hostOps0 (fun b => m (c, b)) (Proc.devRef .tc main_v18) = _
  after_results
  rfl

/-- Group 2's reconstruction matrix, as launched. -/
theorem V_v19 (c : Dev nD) : @Eq (S512x256.Idx → EReal) (V m c main_v19) (m ((c : Thread nD τ).loc main_arg4)) := by
  show StableHlo.after hostOps0 (fun b => m (c, b)) (Proc.devRef .tc main_v19) = _
  after_results
  rfl

/-- Group 3's reconstruction matrix, as launched. -/
theorem V_v20 (c : Dev nD) : @Eq (S512x256.Idx → EReal) (V m c main_v20) (m ((c : Thread nD τ).loc main_arg5)) := by
  show StableHlo.after hostOps0 (fun b => m (c, b)) (Proc.devRef .tc main_v20) = _
  after_results
  rfl

/-- Group 4's reconstruction matrix, as launched. -/
theorem V_v21 (c : Dev nD) : @Eq (S512x192.Idx → EReal) (V m c main_v21) (m ((c : Thread nD τ).loc main_arg6)) := by
  show StableHlo.after hostOps0 (fun b => m (c, b)) (Proc.devRef .tc main_v21) = _
  after_results
  rfl

/-- Group 5's reconstruction matrix, as launched. -/
theorem V_v22 (c : Dev nD) : @Eq (S512x192.Idx → EReal) (V m c main_v22) (m ((c : Thread nD τ).loc main_arg7)) := by
  show StableHlo.after hostOps0 (fun b => m (c, b)) (Proc.devRef .tc main_v22) = _
  after_results
  rfl

/-- Group 6's reconstruction matrix, as launched. -/
theorem V_v23 (c : Dev nD) : @Eq (S512x128.Idx → EReal) (V m c main_v23) (m ((c : Thread nD τ).loc main_arg8)) := by
  show StableHlo.after hostOps0 (fun b => m (c, b)) (Proc.devRef .tc main_v23) = _
  after_results
  rfl

/-- Group 7's reconstruction matrix, as launched. -/
theorem V_v24 (c : Dev nD) : @Eq (S512x128.Idx → EReal) (V m c main_v24) (m ((c : Thread nD τ).loc main_arg9)) := by
  show StableHlo.after hostOps0 (fun b => m (c, b)) (Proc.devRef .tc main_v24) = _
  after_results
  rfl

/-- Group 0's bias as one row. -/
theorem V_v25 (c : Dev nD) : @Eq (S1x512.Idx → EReal) (V m c main_v25)
    (shapeCast S1x512 (m ((c : Thread nD τ).loc main_arg10)) shapeCasts_S512_S1x512) := by
  show StableHlo.after hostOps0 (fun b => m (c, b)) (Proc.devRef .tc main_v25) = _
  after_results
  rfl

/-- Group 1's bias as one row. -/
theorem V_v26 (c : Dev nD) : @Eq (S1x512.Idx → EReal) (V m c main_v26)
    (shapeCast S1x512 (m ((c : Thread nD τ).loc main_arg11)) shapeCasts_S512_S1x512) := by
  show StableHlo.after hostOps0 (fun b => m (c, b)) (Proc.devRef .tc main_v26) = _
  after_results
  rfl

/-- Group 2's bias as one row. -/
theorem V_v27 (c : Dev nD) : @Eq (S1x512.Idx → EReal) (V m c main_v27)
    (shapeCast S1x512 (m ((c : Thread nD τ).loc main_arg12)) shapeCasts_S512_S1x512) := by
  show StableHlo.after hostOps0 (fun b => m (c, b)) (Proc.devRef .tc main_v27) = _
  after_results
  rfl

/-- Group 3's bias as one row. -/
theorem V_v28 (c : Dev nD) : @Eq (S1x512.Idx → EReal) (V m c main_v28)
    (shapeCast S1x512 (m ((c : Thread nD τ).loc main_arg13)) shapeCasts_S512_S1x512) := by
  show StableHlo.after hostOps0 (fun b => m (c, b)) (Proc.devRef .tc main_v28) = _
  after_results
  rfl

/-- Group 4's bias as one row. -/
theorem V_v29 (c : Dev nD) : @Eq (S1x512.Idx → EReal) (V m c main_v29)
    (shapeCast S1x512 (m ((c : Thread nD τ).loc main_arg14)) shapeCasts_S512_S1x512) := by
  show StableHlo.after hostOps0 (fun b => m (c, b)) (Proc.devRef .tc main_v29) = _
  after_results
  rfl

/-- Group 5's bias as one row. -/
theorem V_v30 (c : Dev nD) : @Eq (S1x512.Idx → EReal) (V m c main_v30)
    (shapeCast S1x512 (m ((c : Thread nD τ).loc main_arg15)) shapeCasts_S512_S1x512) := by
  show StableHlo.after hostOps0 (fun b => m (c, b)) (Proc.devRef .tc main_v30) = _
  after_results
  rfl

/-- Group 6's bias as one row. -/
theorem V_v31 (c : Dev nD) : @Eq (S1x512.Idx → EReal) (V m c main_v31)
    (shapeCast S1x512 (m ((c : Thread nD τ).loc main_arg16)) shapeCasts_S512_S1x512) := by
  show StableHlo.after hostOps0 (fun b => m (c, b)) (Proc.devRef .tc main_v31) = _
  after_results
  rfl

/-- Group 7's bias as one row. -/
theorem V_v32 (c : Dev nD) : @Eq (S1x512.Idx → EReal) (V m c main_v32)
    (shapeCast S1x512 (m ((c : Thread nD τ).loc main_arg17)) shapeCasts_S512_S1x512) := by
  show StableHlo.after hostOps0 (fun b => m (c, b)) (Proc.devRef .tc main_v32) = _
  after_results
  rfl

end Cert.KernelIdeal.HostSide

end
-- ==== Proof.LibMergeAxes.lean ====
/-
  Reshapes that merge two adjacent axes of a rank-3 array, read at an index written by coordinates.
  In row-major order the pair (p, q) of an axis of extent b' following an axis of any extent sits at the
  merged coordinate p·b' + q, so:
    [a, b, c] → [a·b, c]  reads at (k, j), k = p·b + q, the operand at (p, q, j);
    [a, b, c] → [a, b·c]  reads at (i, k), k = p·c + q, the operand at (i, p, q).
  Generic in the extents and in the element type.
-/
import Idealize.ShloMosaic.Lib.Pipeline.Value
import Idealize.ShloMosaic.Lib.ValueIdx

namespace Cert.LibMergeAxes

open Idealize.ShloMosaic Idealize.ShloMosaic.ValueIdx

variable {α : Type}

/-- The two LEADING axes merged: `[a, b, c] → [n, c]` with `n = a·b`; the merged row `k = p·b + q` is the pair `(p, q)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (j : Fin c) (k : Fin n)
    (hk : k.val = p.val * b + q.val) :
    shapeCast ⟨2, ![n, c]⟩ x h (ix2 k j) = x (ix3 p q j) :=
  shapeCast_apply x h _ _ (by
    rw [Shape.rowMajor_val_three, Shape.rowMajor_val_two]
    show (p.val * b + q.val) * c + j.val = k.val * c + j.val
    rw [hk])

/-- The two TRAILING axes merged: `[a, b, c] → [a, n]` with `n = b·c`; the merged column `k = p·c + q` is the pair `(p, q)`. -/
theorem shapeCast_abc_an_apply {a b c n : ℕ} (x : (⟨3, ![a, b, c]⟩ : Shape).Idx → α)
    (h : (⟨3, ![a, b, c]⟩ : Shape).ShapeCasts ⟨2, ![a, n]⟩) (hn : n = b * c) (i : Fin a) (p : Fin b) (q : Fin c) (k : Fin n)
    (hk : k.val = p.val * c + q.val) :
    shapeCast ⟨2, ![a, n]⟩ x h (ix2 i k) = x (ix3 i p q) :=
  shapeCast_apply x h _ _ (by
    rw [Shape.rowMajor_val_three, Shape.rowMajor_val_two]
    show (i.val * b + p.val) * c + q.val = i.val * n + k.val
    rw [hk, hn]; ring)

end Cert.LibMergeAxes
-- ==== Proof.KReads.lean ====
/-
  Each input window's block at a grid point, read off the argument arrays.

  Only the hidden window moves with the grid (block t is rows 128·t … 128·t + 128 of the flattened hidden
  states); every other window holds its whole array at every point. Through the host operations before the call:
  the projection window of group i reads rows off i + k of the shared projection, the reconstruction window reads
  the group's matrix as launched, the bias window's one row reads the bias vector, and the hidden window's entry
  (p, d) at point t reads the hidden states at the row pair (b, l) with 128·t + p = 4096·b + l.
-/
import proofs.«179934_j12378095747712_1_alg».proof.Proof.Gen.KernelIdeal.Frame
import proofs.«179934_j12378095747712_1_alg».proof.Proof.KHost
import proofs.«179934_j12378095747712_1_alg».proof.Proof.LibMergeAxes
import Idealize.ShloMosaic.Lib.ValueLayout
import Idealize.ShloMosaic.Lib.Pipeline.Value

noncomputable section

namespace Cert.KernelIdeal.Reads

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- Group 0's projection window: row k of the block is row 0 + k of the shared projection. -/
theorem readV0 (c : Dev nD) (t : Fin cfg0.N) (k : Fin 384) (d : Fin 4096) :
    iblk m c 1 t (ix2 k d)
      = m ((c : Thread nD τ).loc main_arg1) (ix2 (⟨0 + k.val, by have := k.isLt; omega⟩ : Fin 1856) d) := by
  show V m c main_v2 (((cfg0.win 1).blk t).view.emb (ix2 k d)) = _
  have e : ((cfg0.win 1).blk t).view.emb (ix2 k d) = ix2 k d := by
    funext a; apply Fin.ext
    match a with
    | ⟨0, _⟩ => show 0 * 384 + 1 * k.val = k.val; omega
    | ⟨1, _⟩ => show 0 * 4096 + 1 * d.val = d.val; omega
  rw [e]
  refine (congrFun (HostSide.V_v2 m c) _).trans ?_
  exact slice2_axis0_apply 0 _ _ k d _ rfl

/-- Group 1's projection window: row k of the block is row 384 + k of the shared projection. -/
theorem readV1 (c : Dev nD) (t : Fin cfg0.N) (k : Fin 320) (d : Fin 4096) :
    iblk m c 2 t (ix2 k d)
      = m ((c : Thread nD τ).loc main_arg1) (ix2 (⟨384 + k.val, by have := k.isLt; omega⟩ : Fin 1856) d) := by
  show V m c main_v4 (((cfg0.win 2).blk t).view.emb (ix2 k d)) = _
  have e : ((cfg0.win 2).blk t).view.emb (ix2 k d) = ix2 k d := by
    funext a; apply Fin.ext
    match a with
    | ⟨0, _⟩ => show 0 * 320 + 1 * k.val = k.val; omega
    | ⟨1, _⟩ => show 0 * 4096 + 1 * d.val = d.val; omega
  rw [e]
  refine (congrFun (HostSide.V_v4 m c) _).trans ?_
  exact slice2_axis0_apply 384 _ _ k d _ rfl

/-- Group 2's projection window: row k of the block is row 704 + k of the shared projection. -/
theorem readV2 (c : Dev nD) (t : Fin cfg0.N) (k : Fin 256) (d : Fin 4096) :
    iblk m c 3 t (ix2 k d)
      = m ((c : Thread nD τ).loc main_arg1) (ix2 (⟨704 + k.val, by have := k.isLt; omega⟩ : Fin 1856) d) := by
  show V m c main_v6 (((cfg0.win 3).blk t).view.emb (ix2 k d)) = _
  have e : ((cfg0.win 3).blk t).view.emb (ix2 k d) = ix2 k d := by
    funext a; apply Fin.ext
    match a with
    | ⟨0, _⟩ => show 0 * 256 + 1 * k.val = k.val; omega
    | ⟨1, _⟩ => show 0 * 4096 + 1 * d.val = d.val; omega
  rw [e]
  refine (congrFun (HostSide.V_v6 m c) _).trans ?_
  exact slice2_axis0_apply 704 _ _ k d _ rfl

/-- Group 3's projection window: row k of the block is row 960 + k of the shared projection. -/
theorem readV3 (c : Dev nD) (t : Fin cfg0.N) (k : Fin 256) (d : Fin 4096) :
    iblk m c 4 t (ix2 k d)
      = m ((c : Thread nD τ).loc main_arg1) (ix2 (⟨960 + k.val, by have := k.isLt; omega⟩ : Fin 1856) d) := by
  show V m c main_v8 (((cfg0.win 4).blk t).view.emb (ix2 k d)) = _
  have e : ((cfg0.win 4).blk t).view.emb (ix2 k d) = ix2 k d := by
    funext a; apply Fin.ext
    match a with
    | ⟨0, _⟩ => show 0 * 256 + 1 * k.val = k.val; omega
    | ⟨1, _⟩ => show 0 * 4096 + 1 * d.val = d.val; omega
  rw [e]
  refine (congrFun (HostSide.V_v8 m c) _).trans ?_
  exact slice2_axis0_apply 960 _ _ k d _ rfl

/-- Group 4's projection window: row k of the block is row 1216 + k of the shared projection. -/
theorem readV4 (c : Dev nD) (t : Fin cfg0.N) (k : Fin 192) (d : Fin 4096) :
    iblk m c 5 t (ix2 k d)
      = m ((c : Thread nD τ).loc main_arg1) (ix2 (⟨1216 + k.val, by have := k.isLt; omega⟩ : Fin 1856) d) := by
  show V m c main_v10 (((cfg0.win 5).blk t).view.emb (ix2 k d)) = _
  have e : ((cfg0.win 5).blk t).view.emb (ix2 k d) = ix2 k d := by
    funext a; apply Fin.ext
    match a with
    | ⟨0, _⟩ => show 0 * 192 + 1 * k.val = k.val; omega
    | ⟨1, _⟩ => show 0 * 4096 + 1 * d.val = d.val; omega
  rw [e]
  refine (congrFun (HostSide.V_v10 m c) _).trans ?_
  exact slice2_axis0_apply 1216 _ _ k d _ rfl

/-- Group 5's projection window: row k of the block is row 1408 + k of the shared projection. -/
theorem readV5 (c : Dev nD) (t : Fin cfg0.N) (k : Fin 192) (d : Fin 4096) :
    iblk m c 6 t (ix2 k d)
      = m ((c : Thread nD τ).loc main_arg1) (ix2 (⟨1408 + k.val, by have := k.isLt; omega⟩ : Fin 1856) d) := by
  show V m c main_v12 (((cfg0.win 6).blk t).view.emb (ix2 k d)) = _
  have e : ((cfg0.win 6).blk t).view.emb (ix2 k d) = ix2 k d := by
    funext a; apply Fin.ext
    match a with
    | ⟨0, _⟩ => show 0 * 192 + 1 * k.val = k.val; omega
    | ⟨1, _⟩ => show 0 * 4096 + 1 * d.val = d.val; omega
  rw [e]
  refine (congrFun (HostSide.V_v12 m c) _).trans ?_
  exact slice2_axis0_apply 1408 _ _ k d _ rfl

/-- Group 6's projection window: row k of the block is row 1600 + k of the shared projection. -/
theorem readV6 (c : Dev nD) (t : Fin cfg0.N) (k : Fin 128) (d : Fin 4096) :
    iblk m c 7 t (ix2 k d)
      = m ((c : Thread nD τ).loc main_arg1) (ix2 (⟨1600 + k.val, by have := k.isLt; omega⟩ : Fin 1856) d) := by
  show V m c main_v14 (((cfg0.win 7).blk t).view.emb (ix2 k d)) = _
  have e : ((cfg0.win 7).blk t).view.emb (ix2 k d) = ix2 k d := by
    funext a; apply Fin.ext
    match a with
    | ⟨0, _⟩ => show 0 * 128 + 1 * k.val = k.val; omega
    | ⟨1, _⟩ => show 0 * 4096 + 1 * d.val = d.val; omega
  rw [e]
  refine (congrFun (HostSide.V_v14 m c) _).trans ?_
  exact slice2_axis0_apply 1600 _ _ k d _ rfl

/-- Group 7's projection window: row k of the block is row 1728 + k of the shared projection. -/
theorem readV7 (c : Dev nD) (t : Fin cfg0.N) (k : Fin 128) (d : Fin 4096) :
    iblk m c 8 t (ix2 k d)
      = m ((c : Thread nD τ).loc main_arg1) (ix2 (⟨1728 + k.val, by have := k.isLt; omega⟩ : Fin 1856) d) := by
  show V m c main_v16 (((cfg0.win 8).blk t).view.emb (ix2 k d)) = _
  have e : ((cfg0.win 8).blk t).view.emb (ix2 k d) = ix2 k d := by
    funext a; apply Fin.ext
    match a with
    | ⟨0, _⟩ => show 0 * 128 + 1 * k.val = k.val; omega
    | ⟨1, _⟩ => show 0 * 4096 + 1 * d.val = d.val; omega
  rw [e]
  refine (congrFun (HostSide.V_v16 m c) _).trans ?_
  exact slice2_axis0_apply 1728 _ _ k d _ rfl

/-- Group 0's reconstruction window: the matrix as launched. -/
theorem readU0 (c : Dev nD) (t : Fin cfg0.N) (g : Fin 512) (k : Fin 384) :
    iblk m c 9 t (ix2 g k) = m ((c : Thread nD τ).loc main_arg2) (ix2 g k) := by
  show V m c main_v17 (((cfg0.win 9).blk t).view.emb (ix2 g k)) = _
  have e : ((cfg0.win 9).blk t).view.emb (ix2 g k) = ix2 g k := by
    funext a; apply Fin.ext
    match a with
    | ⟨0, _⟩ => show 0 * 512 + 1 * g.val = g.val; omega
    | ⟨1, _⟩ => show 0 * 384 + 1 * k.val = k.val; omega
  rw [e]
  exact congrFun (HostSide.V_v17 m c) _

/-- Group 1's reconstruction window: the matrix as launched. -/
theorem readU1 (c : Dev nD) (t : Fin cfg0.N) (g : Fin 512) (k : Fin 320) :
    iblk m c 10 t (ix2 g k) = m ((c : Thread nD τ).loc main_arg3) (ix2 g k) := by
  show V m c main_v18 (((cfg0.win 10).blk t).view.emb (ix2 g k)) = _
  have e : ((cfg0.win 10).blk t).view.emb (ix2 g k) = ix2 g k := by
    funext a; apply Fin.ext
    match a with
    | ⟨0, _⟩ => show 0 * 512 + 1 * g.val = g.val; omega
    | ⟨1, _⟩ => show 0 * 320 + 1 * k.val = k.val; omega
  rw [e]
  exact congrFun (HostSide.V_v18 m c) _

/-- Group 2's reconstruction window: the matrix as launched. -/
theorem readU2 (c : Dev nD) (t : Fin cfg0.N) (g : Fin 512) (k : Fin 256) :
    iblk m c 11 t (ix2 g k) = m ((c : Thread nD τ).loc main_arg4) (ix2 g k) := by
  show V m c main_v19 (((cfg0.win 11).blk t).view.emb (ix2 g k)) = _
  have e : ((cfg0.win 11).blk t).view.emb (ix2 g k) = ix2 g k := by
    funext a; apply Fin.ext
    match a with
    | ⟨0, _⟩ => show 0 * 512 + 1 * g.val = g.val; omega
    | ⟨1, _⟩ => show 0 * 256 + 1 * k.val = k.val; omega
  rw [e]
  exact congrFun (HostSide.V_v19 m c) _

/-- Group 3's reconstruction window: the matrix as launched. -/
theorem readU3 (c : Dev nD) (t : Fin cfg0.N) (g : Fin 512) (k : Fin 256) :
    iblk m c 12 t (ix2 g k) = m ((c : Thread nD τ).loc main_arg5) (ix2 g k) := by
  show V m c main_v20 (((cfg0.win 12).blk t).view.emb (ix2 g k)) = _
  have e : ((cfg0.win 12).blk t).view.emb (ix2 g k) = ix2 g k := by
    funext a; apply Fin.ext
    match a with
    | ⟨0, _⟩ => show 0 * 512 + 1 * g.val = g.val; omega
    | ⟨1, _⟩ => show 0 * 256 + 1 * k.val = k.val; omega
  rw [e]
  exact congrFun (HostSide.V_v20 m c) _

/-- Group 4's reconstruction window: the matrix as launched. -/
theorem readU4 (c : Dev nD) (t : Fin cfg0.N) (g : Fin 512) (k : Fin 192) :
    iblk m c 13 t (ix2 g k) = m ((c : Thread nD τ).loc main_arg6) (ix2 g k) := by
  show V m c main_v21 (((cfg0.win 13).blk t).view.emb (ix2 g k)) = _
  have e : ((cfg0.win 13).blk t).view.emb (ix2 g k) = ix2 g k := by
    funext a; apply Fin.ext
    match a with
    | ⟨0, _⟩ => show 0 * 512 + 1 * g.val = g.val; omega
    | ⟨1, _⟩ => show 0 * 192 + 1 * k.val = k.val; omega
  rw [e]
  exact congrFun (HostSide.V_v21 m c) _

/-- Group 5's reconstruction window: the matrix as launched. -/
theorem readU5 (c : Dev nD) (t : Fin cfg0.N) (g : Fin 512) (k : Fin 192) :
    iblk m c 14 t (ix2 g k) = m ((c : Thread nD τ).loc main_arg7) (ix2 g k) := by
  show V m c main_v22 (((cfg0.win 14).blk t).view.emb (ix2 g k)) = _
  have e : ((cfg0.win 14).blk t).view.emb (ix2 g k) = ix2 g k := by
    funext a; apply Fin.ext
    match a with
    | ⟨0, _⟩ => show 0 * 512 + 1 * g.val = g.val; omega
    | ⟨1, _⟩ => show 0 * 192 + 1 * k.val = k.val; omega
  rw [e]
  exact congrFun (HostSide.V_v22 m c) _

/-- Group 6's reconstruction window: the matrix as launched. -/
theorem readU6 (c : Dev nD) (t : Fin cfg0.N) (g : Fin 512) (k : Fin 128) :
    iblk m c 15 t (ix2 g k) = m ((c : Thread nD τ).loc main_arg8) (ix2 g k) := by
  show V m c main_v23 (((cfg0.win 15).blk t).view.emb (ix2 g k)) = _
  have e : ((cfg0.win 15).blk t).view.emb (ix2 g k) = ix2 g k := by
    funext a; apply Fin.ext
    match a with
    | ⟨0, _⟩ => show 0 * 512 + 1 * g.val = g.val; omega
    | ⟨1, _⟩ => show 0 * 128 + 1 * k.val = k.val; omega
  rw [e]
  exact congrFun (HostSide.V_v23 m c) _

/-- Group 7's reconstruction window: the matrix as launched. -/
theorem readU7 (c : Dev nD) (t : Fin cfg0.N) (g : Fin 512) (k : Fin 128) :
    iblk m c 16 t (ix2 g k) = m ((c : Thread nD τ).loc main_arg9) (ix2 g k) := by
  show V m c main_v24 (((cfg0.win 16).blk t).view.emb (ix2 g k)) = _
  have e : ((cfg0.win 16).blk t).view.emb (ix2 g k) = ix2 g k := by
    funext a; apply Fin.ext
    match a with
    | ⟨0, _⟩ => show 0 * 512 + 1 * g.val = g.val; omega
    | ⟨1, _⟩ => show 0 * 128 + 1 * k.val = k.val; omega
  rw [e]
  exact congrFun (HostSide.V_v24 m c) _

/-- Group 0's bias window: its one row is the bias vector. -/
theorem readB0 (c : Dev nD) (t : Fin cfg0.N) (g : Fin 512) :
    iblk m c 17 t (ix2 (0 : Fin 1) g) = m ((c : Thread nD τ).loc main_arg10) (ix1 g) := by
  show V m c main_v25 (((cfg0.win 17).blk t).view.emb (ix2 (0 : Fin 1) g)) = _
  have e : ((cfg0.win 17).blk t).view.emb (ix2 (0 : Fin 1) g) = ix2 (0 : Fin 1) g := by
    funext a; apply Fin.ext
    match a with
    | ⟨0, _⟩ => show 0 * 1 + 1 * 0 = 0; omega
    | ⟨1, _⟩ => show 0 * 512 + 1 * g.val = g.val; omega
  rw [e]
  refine (congrFun (HostSide.V_v25 m c) _).trans ?_
  exact shapeCast_a_1a_apply _ _ (0 : Fin 1) g

/-- Group 1's bias window: its one row is the bias vector. -/
theorem readB1 (c : Dev nD) (t : Fin cfg0.N) (g : Fin 512) :
    iblk m c 18 t (ix2 (0 : Fin 1) g) = m ((c : Thread nD τ).loc main_arg11) (ix1 g) := by
  show V m c main_v26 (((cfg0.win 18).blk t).view.emb (ix2 (0 : Fin 1) g)) = _
  have e : ((cfg0.win 18).blk t).view.emb (ix2 (0 : Fin 1) g) = ix2 (0 : Fin 1) g := by
    funext a; apply Fin.ext
    match a with
    | ⟨0, _⟩ => show 0 * 1 + 1 * 0 = 0; omega
    | ⟨1, _⟩ => show 0 * 512 + 1 * g.val = g.val; omega
  rw [e]
  refine (congrFun (HostSide.V_v26 m c) _).trans ?_
  exact shapeCast_a_1a_apply _ _ (0 : Fin 1) g

/-- Group 2's bias window: its one row is the bias vector. -/
theorem readB2 (c : Dev nD) (t : Fin cfg0.N) (g : Fin 512) :
    iblk m c 19 t (ix2 (0 : Fin 1) g) = m ((c : Thread nD τ).loc main_arg12) (ix1 g) := by
  show V m c main_v27 (((cfg0.win 19).blk t).view.emb (ix2 (0 : Fin 1) g)) = _
  have e : ((cfg0.win 19).blk t).view.emb (ix2 (0 : Fin 1) g) = ix2 (0 : Fin 1) g := by
    funext a; apply Fin.ext
    match a with
    | ⟨0, _⟩ => show 0 * 1 + 1 * 0 = 0; omega
    | ⟨1, _⟩ => show 0 * 512 + 1 * g.val = g.val; omega
  rw [e]
  refine (congrFun (HostSide.V_v27 m c) _).trans ?_
  exact shapeCast_a_1a_apply _ _ (0 : Fin 1) g

/-- Group 3's bias window: its one row is the bias vector. -/
theorem readB3 (c : Dev nD) (t : Fin cfg0.N) (g : Fin 512) :
    iblk m c 20 t (ix2 (0 : Fin 1) g) = m ((c : Thread nD τ).loc main_arg13) (ix1 g) := by
  show V m c main_v28 (((cfg0.win 20).blk t).view.emb (ix2 (0 : Fin 1) g)) = _
  have e : ((cfg0.win 20).blk t).view.emb (ix2 (0 : Fin 1) g) = ix2 (0 : Fin 1) g := by
    funext a; apply Fin.ext
    match a with
    | ⟨0, _⟩ => show 0 * 1 + 1 * 0 = 0; omega
    | ⟨1, _⟩ => show 0 * 512 + 1 * g.val = g.val; omega
  rw [e]
  refine (congrFun (HostSide.V_v28 m c) _).trans ?_
  exact shapeCast_a_1a_apply _ _ (0 : Fin 1) g

/-- Group 4's bias window: its one row is the bias vector. -/
theorem readB4 (c : Dev nD) (t : Fin cfg0.N) (g : Fin 512) :
    iblk m c 21 t (ix2 (0 : Fin 1) g) = m ((c : Thread nD τ).loc main_arg14) (ix1 g) := by
  show V m c main_v29 (((cfg0.win 21).blk t).view.emb (ix2 (0 : Fin 1) g)) = _
  have e : ((cfg0.win 21).blk t).view.emb (ix2 (0 : Fin 1) g) = ix2 (0 : Fin 1) g := by
    funext a; apply Fin.ext
    match a with
    | ⟨0, _⟩ => show 0 * 1 + 1 * 0 = 0; omega
    | ⟨1, _⟩ => show 0 * 512 + 1 * g.val = g.val; omega
  rw [e]
  refine (congrFun (HostSide.V_v29 m c) _).trans ?_
  exact shapeCast_a_1a_apply _ _ (0 : Fin 1) g

/-- Group 5's bias window: its one row is the bias vector. -/
theorem readB5 (c : Dev nD) (t : Fin cfg0.N) (g : Fin 512) :
    iblk m c 22 t (ix2 (0 : Fin 1) g) = m ((c : Thread nD τ).loc main_arg15) (ix1 g) := by
  show V m c main_v30 (((cfg0.win 22).blk t).view.emb (ix2 (0 : Fin 1) g)) = _
  have e : ((cfg0.win 22).blk t).view.emb (ix2 (0 : Fin 1) g) = ix2 (0 : Fin 1) g := by
    funext a; apply Fin.ext
    match a with
    | ⟨0, _⟩ => show 0 * 1 + 1 * 0 = 0; omega
    | ⟨1, _⟩ => show 0 * 512 + 1 * g.val = g.val; omega
  rw [e]
  refine (congrFun (HostSide.V_v30 m c) _).trans ?_
  exact shapeCast_a_1a_apply _ _ (0 : Fin 1) g

/-- Group 6's bias window: its one row is the bias vector. -/
theorem readB6 (c : Dev nD) (t : Fin cfg0.N) (g : Fin 512) :
    iblk m c 23 t (ix2 (0 : Fin 1) g) = m ((c : Thread nD τ).loc main_arg16) (ix1 g) := by
  show V m c main_v31 (((cfg0.win 23).blk t).view.emb (ix2 (0 : Fin 1) g)) = _
  have e : ((cfg0.win 23).blk t).view.emb (ix2 (0 : Fin 1) g) = ix2 (0 : Fin 1) g := by
    funext a; apply Fin.ext
    match a with
    | ⟨0, _⟩ => show 0 * 1 + 1 * 0 = 0; omega
    | ⟨1, _⟩ => show 0 * 512 + 1 * g.val = g.val; omega
  rw [e]
  refine (congrFun (HostSide.V_v31 m c) _).trans ?_
  exact shapeCast_a_1a_apply _ _ (0 : Fin 1) g

/-- Group 7's bias window: its one row is the bias vector. -/
theorem readB7 (c : Dev nD) (t : Fin cfg0.N) (g : Fin 512) :
    iblk m c 24 t (ix2 (0 : Fin 1) g) = m ((c : Thread nD τ).loc main_arg17) (ix1 g) := by
  show V m c main_v32 (((cfg0.win 24).blk t).view.emb (ix2 (0 : Fin 1) g)) = _
  have e : ((cfg0.win 24).blk t).view.emb (ix2 (0 : Fin 1) g) = ix2 (0 : Fin 1) g := by
    funext a; apply Fin.ext
    match a with
    | ⟨0, _⟩ => show 0 * 1 + 1 * 0 = 0; omega
    | ⟨1, _⟩ => show 0 * 512 + 1 * g.val = g.val; omega
  rw [e]
  refine (congrFun (HostSide.V_v32 m c) _).trans ?_
  exact shapeCast_a_1a_apply _ _ (0 : Fin 1) g

/-- The hidden and output windows move one block of 128 rows per grid point and never move along the columns. -/
theorem idx_rows : ∀ t : Fin cfg0.N, win0_0.index t (0 : Fin 2) = t.val ∧ win0_0.index t (1 : Fin 2) = 0
    ∧ win0_25.index t (0 : Fin 2) = t.val ∧ win0_25.index t (1 : Fin 2) = 0 :=
  (by decide +kernel : ∀ t : Fin grid0.N, _)

/-- Entry (p, d) of the hidden window's block at point t is entry (128·t + p, d) of the flattened hidden states. -/
theorem emb_hidden (t : Fin cfg0.N) (p : Fin 128) (d : Fin 4096) (hN : t.val < 128) :
    ((cfg0.win 0).blk t).view.emb (ix2 p d) = ix2 (⟨t.val * 128 + p.val, by omega⟩ : Fin 16384) d := by
  funext a; apply Fin.ext
  match a with
  | ⟨0, _⟩ => show win0_0.index t (0 : Fin 2) * 128 + 1 * p.val = t.val * 128 + p.val; rw [(idx_rows t).1, Nat.one_mul]
  | ⟨1, _⟩ => show win0_0.index t (1 : Fin 2) * 4096 + 1 * d.val = d.val; rw [(idx_rows t).2.1, Nat.zero_mul, Nat.zero_add, Nat.one_mul]

/-- The hidden window: entry (p, d) of block t is the hidden states at the row pair (b, l) with 128·t + p = 4096·b + l. -/
theorem readH (c : Dev nD) (t : Fin cfg0.N) (p : Fin 128) (d : Fin 4096) (b : Fin 4) (l : Fin 4096)
    (hr : t.val * 128 + p.val = b.val * 4096 + l.val) :
    iblk m c 0 t (ix2 p d) = m ((c : Thread nD τ).loc main_arg0) (ix3 b l d) := by
  have hN : t.val < 128 := t.isLt
  show V m c main_v0 (((cfg0.win 0).blk t).view.emb (ix2 p d)) = _
  rw [emb_hidden t p d hN]
  refine (congrFun (HostSide.V_v0 m c) _).trans ?_
  exact Cert.LibMergeAxes.shapeCast_abc_nc_apply _ _ b l d _ hr

end Cert.KernelIdeal.Reads

end
-- ==== Proof.KCover.lean ====
/-
  Every entry of the kernel's result array lies in the block of exactly the grid point that owns its row band.

  The result array has 16384 rows and 4096 columns. The output window cuts it into 128 blocks of 128 whole rows: grid point t
  writes the block whose block index is (t, 0), that is rows 128 t … 128 t + 127 and all 4096 columns, and every point writes
  its block back. So the entry (r, c) belongs to the block of the point t = r / 128: 128 (r / 128) ≤ r < 128 (r / 128) + 128,
  and 0 ≤ c < 4096. Hence every entry of the array is written by some point.
-/
import proofs.«179934_j12378095747712_1_alg».proof.Proof.Gen.KernelIdeal.Frame
import Idealize.ShloMosaic.Lib.Pipeline.Value
import Idealize.ShloMosaic.Lib.ValueIdx

noncomputable section

namespace Cert.KernelIdeal.Cover

open Cert.KernelIdeal Cert.KernelIdeal.Gen Idealize.ShloMosaic Idealize.ShloMosaic.ValueIdx

/-- The block index of grid point t in the output window: t along the rows, 0 along the columns (checked at each of the
    128 points). -/
theorem block_index : ∀ t : Fin cfg0.N, win0_25.index t (0 : Fin 2) = t.val ∧ win0_25.index t (1 : Fin 2) = 0 :=
  (by decide +kernel : ∀ t : Fin grid0.N, _)

/-- An entry of the array is in point t's block iff on each axis its coordinate lies in the block's range: from the block
    index times the block's extent, for one extent. -/
theorem mem_block_iff (t : Fin cfg0.N) (i : S16384x4096.Idx) :
    i ∈ ((cfg0.win 25).blk t).view.set ↔ ∀ a : Fin 2, win0_25.index t a * S128x4096.size a ≤ (i a).val
      ∧ (i a).val < win0_25.index t a * S128x4096.size a + S128x4096.size a := by
  show i ∈ ((View.whole main_v33).slice (win0_25.rect t)).set ↔ _
  rw [View.set_slice_whole, Rect.mem_set_unit]
  exact Iff.rfl

/-- Every entry (r, c) of the result array is in the block of the point r / 128, which writes its block back. -/
theorem cover (i : S16384x4096.Idx) :
    ∃ t : Fin cfg0.N, (cfg0.win 25).flush t = true ∧ i ∈ ((cfg0.win 25).blk t).view.set := by
  have h0 : (i 0).val < 16384 := idx2_lt0 i
  have h1 : (i 1).val < 4096 := idx2_lt1 i
  have hN : cfg0.N = 128 := rfl
  obtain ⟨t, ht⟩ : ∃ t : Fin cfg0.N, t.val = (i 0).val / 128 := ⟨⟨(i 0).val / 128, by rw [hN]; omega⟩, rfl⟩
  obtain ⟨e0, e1⟩ := block_index t
  refine ⟨t, flush0_25 t, ?_⟩
  rw [mem_block_iff]
  intro a
  match a with
  | ⟨0, _⟩ =>
    show win0_25.index t (0 : Fin 2) * 128 ≤ (i 0).val ∧ (i 0).val < win0_25.index t (0 : Fin 2) * 128 + 128
    omega
  | ⟨1, _⟩ =>
    show win0_25.index t (1 : Fin 2) * 4096 ≤ (i 1).val ∧ (i 1).val < win0_25.index t (1 : Fin 2) * 4096 + 4096
    omega

end Cert.KernelIdeal.Cover

end
-- ==== Proof.KFinal.lean ====
/-
  The flat output array after the run.

  Output block t is rows 128·t … 128·t + 128 of the flat [16384, 4096] result, and after the body its entry (p, c) is the
  result row of hidden row 128·t + p — the row pair (b, l) = ((128·t + p) / 4096, (128·t + p) % 4096) of the hidden
  states — at column c. So every point writes back its block of one function of the argument arrays, `flat`; the
  128 blocks tile the array; hence the array ends holding `flat`.
-/
import proofs.«179934_j12378095747712_1_alg».proof.Proof.Gen.KernelIdeal.Frame
import proofs.«179934_j12378095747712_1_alg».proof.Proof.KRow
import proofs.«179934_j12378095747712_1_alg».proof.Proof.KReads
import proofs.«179934_j12378095747712_1_alg».proof.Proof.KCover
import proofs.«179934_j12378095747712_1_alg».proof.Proof.Spec

noncomputable section

namespace Cert.KernelIdeal.Final

open Idealize.ShloMosaic Idealize.ShloMosaic.TcCoe Idealize.SL.Sem Idealize.ShloMosaic.ValueIdx
open Cert.KernelIdeal Cert.KernelIdeal.Gen Cert.HeadRows

variable (m : (ℓ : Loc nD τ sig) → Buf (Elt Ideal) ℓ)

/-- The hidden row with flat number `r`: row pair (r / 4096, r % 4096) of the hidden states. -/
def hiddenRow (c : Dev nD) (r : ℕ) (hr : r < 16384) : Fin 4096 → EReal := fun d =>
  (m ((c : Thread nD τ).loc main_arg0)) (ix3 (⟨r / 4096, by omega⟩ : Fin 4) (⟨r % 4096, Nat.mod_lt _ (by norm_num)⟩ : Fin 4096) d)

/-- The flat result: row r, column c is the result row of hidden row r at column c. -/
def flat (c : Dev nD) : S16384x4096.Idx → EReal := fun i =>
  rowOut (hiddenRow m c (i 0).val (idx2_lt0 i)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (i 1)

/-- Entry (p, q) of the output window's block at point t is entry (128·t + p, q) of the flat array. -/
theorem emb_out (t : Fin cfg0.N) (p : Fin 128) (q : Fin 4096) (hN : t.val < 128) :
    ((cfg0.win 25).blk t).view.emb (ix2 p q) = ix2 (⟨t.val * 128 + p.val, by omega⟩ : Fin 16384) q := by
  funext a; apply Fin.ext
  match a with
  | ⟨0, _⟩ => show win0_25.index t (0 : Fin 2) * 128 + 1 * p.val = t.val * 128 + p.val; rw [(Reads.idx_rows t).2.2.1, Nat.one_mul]
  | ⟨1, _⟩ => show win0_25.index t (1 : Fin 2) * 4096 + 1 * q.val = q.val; rw [(Reads.idx_rows t).2.2.2, Nat.zero_mul, Nat.zero_add, Nat.one_mul]

/-- What the body leaves in the output block at point t, entry by entry, is `flat` at the block's place in the array. -/
theorem point_eq (c : Dev nD) (t : Fin cfg0.N) (p : Fin 128) (q : Fin 4096) :
    out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (ix2 p q)
      = flat m c (((cfg0.win 25).blk t).view.emb (ix2 p q)) := by
  have hN : t.val < 128 := t.isLt
  rw [emb_out t p q hN]
  exact Block.block_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) p q
    (hiddenRow m c (t.val * 128 + p.val) (by omega)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
    (fun d => Reads.readH m c t p d _ _ (Nat.div_add_mod' (t.val * 128 + p.val) 4096).symm)
    (fun k d => Reads.readV0 m c t k d) (fun k d => Reads.readV1 m c t k d) (fun k d => Reads.readV2 m c t k d) (fun k d => Reads.readV3 m c t k d) (fun k d => Reads.readV4 m c t k d) (fun k d => Reads.readV5 m c t k d) (fun k d => Reads.readV6 m c t k d) (fun k d => Reads.readV7 m c t k d)
    (fun g k => Reads.readU0 m c t g k) (fun g k => Reads.readU1 m c t g k) (fun g k => Reads.readU2 m c t g k) (fun g k => Reads.readU3 m c t g k) (fun g k => Reads.readU4 m c t g k) (fun g k => Reads.readU5 m c t g k) (fun g k => Reads.readU6 m c t g k) (fun g k => Reads.readU7 m c t g k)
    (fun g => Reads.readB0 m c t g) (fun g => Reads.readB1 m c t g) (fun g => Reads.readB2 m c t g) (fun g => Reads.readB3 m c t g) (fun g => Reads.readB4 m c t g) (fun g => Reads.readB5 m c t g) (fun g => Reads.readB6 m c t g) (fun g => Reads.readB7 m c t g)

/-- What point t writes back is block t of `flat`. -/
theorem flushed_eq (c : Dev nD) (t : Fin cfg0.N) :
    (dats m 0 c).flushed 25 t = ((cfg0.win 25).blk t).view.read (Elt Ideal) (flat m c) := by
  show (cfg0.win 25).cut (grid0.coords t) ((dats m 0 c).after 25 t) = _
  rw [after0_25]
  funext j
  obtain ⟨p, q, rfl⟩ : ∃ (p : Fin 128) (q : Fin 4096), j = ix2 p q := ⟨j 0, j 1, eq_ix2 j⟩
  exact point_eq m c t p q

/-- The output window's array after the run is `flat`. -/
theorem final (c : Dev nD) : (dats m 0 c).arrAt 25 cfg0.N = flat m c :=
  (dats m 0 c).arrAt_eq_of_cover 25 (flat m c) (fun t _ => flushed_eq m c t) Cover.cover

end Cert.KernelIdeal.Final

end
-- ==== Proof.LibSplitAxes.lean ====
/-
  A reshape that splits the leading axis of a matrix in two, read at an index written by coordinates.
  In row-major order the pair (p, q) of an axis of extent b following an axis of any extent sits at the merged
  coordinate p·b + q, so [n, c] → [a, b, c] with n = a·b reads, at (p, q, j), the operand at (p·b + q, j).
  Generic in the extents and in the element type.
-/
import Idealize.ShloMosaic.Lib.Pipeline.Value
import Idealize.ShloMosaic.Lib.ValueIdx

namespace Cert.LibSplitAxes

open Idealize.ShloMosaic Idealize.ShloMosaic.ValueIdx

variable {α : Type}

/-- The LEADING axis split: `[n, c] → [a, b, c]`; the entry at `(p, q, j)` is the operand's entry at row `p·b + q`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (j : Fin c) (k : Fin n)
    (hk : k.val = p.val * b + q.val) :
    shapeCast ⟨3, ![a, b, c]⟩ x h (ix3 p q j) = x (ix2 k j) :=
  shapeCast_apply x h _ _ (by
    rw [Shape.rowMajor_val_three, Shape.rowMajor_val_two]
    show k.val * c + j.val = (p.val * b + q.val) * c + j.val
    rw [hk])

end Cert.LibSplitAxes
-- ==== Proof.KRun.lean ====
/-
  The kernel's run, read: the result array and the unchanged arguments.

  After the region the host splits the flat result's leading axis back in two ([16384, 4096] → [4, 4096, 4096]):
  entry (b, l, q) of the result is entry (4096·b + l, q) of the flat array, the result row of hidden row
  4096·b + l, whose row pair is (b, l) again. So the result is the specification's function of the argument arrays.
  The run itself is the generated frame run; this module only reads its post.
-/
import proofs.«179934_j12378095747712_1_alg».proof.Proof.KFinal
import proofs.«179934_j12378095747712_1_alg».proof.Proof.LibSplitAxes
import Idealize.ShloMosaic.Lib.StableHlo.Run

noncomputable section

namespace Cert.KernelIdeal.Final

open Idealize.ShloMosaic Idealize.ShloMosaic.TcCoe Idealize.SL.Sem Idealize.ShloMosaic.ValueIdx
open Cert.KernelIdeal Cert.KernelIdeal.Gen Cert.HeadRows Idealize.ShloMosaic.StableHlo

variable (m : (ℓ : Loc nD τ sig) → Buf (Elt Ideal) ℓ) (ρ : Dev nD → PrngReg)

/-- The result buffer after the line that follows the region: the flat result with its leading axis split is the
    specification's function of the argument arrays. -/
theorem tail_eq (c : Dev nD) :
    Pipeline.afterTail₀ cfgs (dats m) 0 (V0 m) [hostOps1] c main_v34
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  unfold Pipeline.afterTail₀
  show StableHlo.after hostOps1 _ (Proc.devRef .tc main_v34) = _
  after_results
  have hW : @Eq (S16384x4096.Idx → EReal)
      (Pipeline.withArrays (cfgs 0).spec c (V0 m c) (fun w => (dats m 0 c).arrAt w (cfgs 0).N) (Proc.devRef .tc main_v33))
      (flat m c) :=
    (Pipeline.withArrays_arr spec0 launch0.win.arr_inj c _ _ 25).trans (final m c)
  funext j
  obtain ⟨b, l, q, rfl⟩ : ∃ (b : Fin 4) (l : Fin 4096) (q : Fin 4096), j = ix3 b l q := ⟨j 0, j 1, j 2, eq_ix3 j⟩
  show shapeCast S4x4096x4096 (Pipeline.withArrays (cfgs 0).spec c (V0 m c) (fun w => (dats m 0 c).arrAt w (cfgs 0).N)
      (Proc.devRef .tc main_v33)) shapeCasts_S16384x4096_S4x4096x4096 (ix3 b l q) = _
  rw [hW]
  have hk : b.val * 4096 + l.val < 16384 := by have := b.isLt; have := l.isLt; omega
  rw [Cert.LibSplitAxes.shapeCast_nc_abc_apply (flat m c) shapeCasts_S16384x4096_S4x4096x4096 b l q ⟨b.val * 4096 + l.val, hk⟩ rfl, G_apply]
  unfold flat
  congr 1
  funext d
  unfold hiddenRow
  have e1 : (⟨(b.val * 4096 + l.val) / 4096, by omega⟩ : Fin 4) = b := Fin.ext (by have := l.isLt; show (b.val * 4096 + l.val) / 4096 = b.val; omega)
  have e2 : (⟨(b.val * 4096 + l.val) % 4096, Nat.mod_lt _ (by norm_num)⟩ : Fin 4096) = l := Fin.ext (by have := l.isLt; show (b.val * 4096 + l.val) % 4096 = l.val; omega)
  show (m ((c : Thread nD τ).loc main_arg0)) (ix3 (⟨(b.val * 4096 + l.val) / 4096, _⟩ : Fin 4) (⟨(b.val * 4096 + l.val) % 4096, _⟩ : Fin 4096) d) = _
  rw [e1, e2]

/-- Every weakly fair execution of the idealized kernel terminates with the result at the specification's function of
    the argument arrays and the argument arrays unchanged. -/
theorem run : θ_run (defs (F := Ideal)) (onTc (τ := τ) (main (F := Ideal))) ⟨m, fun _ => 0, ρ⟩ fun r => ∀ c : Dev nD,
      r.2.mem ((c.tc : Thread nD τ).loc main_v34)
        = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun r h c =>
    ⟨((h c).2 main_v34 (Pipeline.mem_restRefs_of main_v34 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c)⟩)
    (run_main m ρ)

end Cert.KernelIdeal.Final

end
-- ==== Proof.RefStages.lean ====
/-
  The reference's value as a composition of named stages, in the order the program computes them.

  latent x vt      : every hidden row contracted against every row of the shared projection (1856 latent columns);
  bias b           : a 512-vector repeated on every row (first as a 1 x 1 x 512 array, then over the 4 x 4096 rows);
  grp_i L u b      : columns [off_i, off_i + r_i) of the latent, contracted against the group's r_i-column matrix, plus the bias;
  cat g0 .. g7     : the eight 512-column blocks side by side (4096 columns);
  headIdx          : the table of source heads as a 32 x 1 integer array, each word w replaced by w + 32 where w < 0;
  refVal           : the 4096 columns seen as 32 heads of 128, head n taken from head headIdx n, seen as 4096 columns again.
-/
import proofs.«179934_j12378095747712_1_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic

/-- An array of extended reals of shape `S`. -/
abbrev Arr (S : Shape) : Type := FVec Ideal S .f32

/-- The latent: entry (b, l, k) is the sum over d of x (b, l, d) * vt (k, d). -/
def latent (x : Arr S4x4096x4096) (vt : Arr S1856x4096) : Arr S4x4096x1856 :=
  Host.dotGeneral (F := Ideal) (φ₁ := .f32) (φ₂ := .f32) dot_S4x4096x4096_S1856x4096_S4x4096x1856_2_1_01_0_n_n none x vt

/-- A bias vector on every row: entry (b, l, g) is b g. -/
def bias (b : Arr S512) : Arr S4x4096x512 :=
  broadcastInDim S4x4096x512 ![0, 1, 2] bcast_S1x1x512_S4x4096x512_0_1_2 (broadcastInDim S1x1x512 ![2] bcast_S512_S1x1x512_2 b)

/-- Group 0: latent columns 0 … 384 against the group's 384-column matrix, plus its bias. -/
def grp0 (L : Arr S4x4096x1856) (u : Arr S512x384) (b : Arr S512) : Arr S4x4096x512 :=
  addf (F := Ideal) (Host.dotGeneral (F := Ideal) (φ₁ := .f32) (φ₂ := .f32) dot_S4x4096x384_S512x384_S4x4096x512_2_1_01_0_n_n none
    (extractStridedSlice S4x4096x384 ![0, 0, 0] L slices_S4x4096x1856_S4x4096x384_0_0_0) u) (bias b)

/-- Group 1: latent columns 384 … 704 against the group's 320-column matrix, plus its bias. -/
def grp1 (L : Arr S4x4096x1856) (u : Arr S512x320) (b : Arr S512) : Arr S4x4096x512 :=
  addf (F := Ideal) (Host.dotGeneral (F := Ideal) (φ₁ := .f32) (φ₂ := .f32) dot_S4x4096x320_S512x320_S4x4096x512_2_1_01_0_n_n none
    (extractStridedSlice S4x4096x320 ![0, 0, 384] L slices_S4x4096x1856_S4x4096x320_0_0_384) u) (bias b)

/-- Group 2: latent columns 704 … 960 against the group's 256-column matrix, plus its bias. -/
def grp2 (L : Arr S4x4096x1856) (u : Arr S512x256) (b : Arr S512) : Arr S4x4096x512 :=
  addf (F := Ideal) (Host.dotGeneral (F := Ideal) (φ₁ := .f32) (φ₂ := .f32) dot_S4x4096x256_S512x256_S4x4096x512_2_1_01_0_n_n none
    (extractStridedSlice S4x4096x256 ![0, 0, 704] L slices_S4x4096x1856_S4x4096x256_0_0_704) u) (bias b)

/-- Group 3: latent columns 960 … 1216 against the group's 256-column matrix, plus its bias. -/
def grp3 (L : Arr S4x4096x1856) (u : Arr S512x256) (b : Arr S512) : Arr S4x4096x512 :=
  addf (F := Ideal) (Host.dotGeneral (F := Ideal) (φ₁ := .f32) (φ₂ := .f32) dot_S4x4096x256_S512x256_S4x4096x512_2_1_01_0_n_n none
    (extractStridedSlice S4x4096x256 ![0, 0, 960] L slices_S4x4096x1856_S4x4096x256_0_0_960) u) (bias b)

/-- Group 4: latent columns 1216 … 1408 against the group's 192-column matrix, plus its bias. -/
def grp4 (L : Arr S4x4096x1856) (u : Arr S512x192) (b : Arr S512) : Arr S4x4096x512 :=
  addf (F := Ideal) (Host.dotGeneral (F := Ideal) (φ₁ := .f32) (φ₂ := .f32) dot_S4x4096x192_S512x192_S4x4096x512_2_1_01_0_n_n none
    (extractStridedSlice S4x4096x192 ![0, 0, 1216] L slices_S4x4096x1856_S4x4096x192_0_0_1216) u) (bias b)

/-- Group 5: latent columns 1408 … 1600 against the group's 192-column matrix, plus its bias. -/
def grp5 (L : Arr S4x4096x1856) (u : Arr S512x192) (b : Arr S512) : Arr S4x4096x512 :=
  addf (F := Ideal) (Host.dotGeneral (F := Ideal) (φ₁ := .f32) (φ₂ := .f32) dot_S4x4096x192_S512x192_S4x4096x512_2_1_01_0_n_n none
    (extractStridedSlice S4x4096x192 ![0, 0, 1408] L slices_S4x4096x1856_S4x4096x192_0_0_1408) u) (bias b)

/-- Group 6: latent columns 1600 … 1728 against the group's 128-column matrix, plus its bias. -/
def grp6 (L : Arr S4x4096x1856) (u : Arr S512x128) (b : Arr S512) : Arr S4x4096x512 :=
  addf (F := Ideal) (Host.dotGeneral (F := Ideal) (φ₁ := .f32) (φ₂ := .f32) dot_S4x4096x128_S512x128_S4x4096x512_2_1_01_0_n_n none
    (extractStridedSlice S4x4096x128 ![0, 0, 1600] L slices_S4x4096x1856_S4x4096x128_0_0_1600) u) (bias b)

/-- Group 7: latent columns 1728 … 1856 against the group's 128-column matrix, plus its bias. -/
def grp7 (L : Arr S4x4096x1856) (u : Arr S512x128) (b : Arr S512) : Arr S4x4096x512 :=
  addf (F := Ideal) (Host.dotGeneral (F := Ideal) (φ₁ := .f32) (φ₂ := .f32) dot_S4x4096x128_S512x128_S4x4096x512_2_1_01_0_n_n none
    (extractStridedSlice S4x4096x128 ![0, 0, 1728] L slices_S4x4096x1856_S4x4096x128_0_0_1728) u) (bias b)

/-- The eight groups' outputs side by side: column c is block c / 512 at position c % 512. -/
def cat (g0 g1 g2 g3 g4 g5 g6 g7 : Arr S4x4096x512) : Arr S4x4096x4096 :=
  concatenate S4x4096x4096 2 [⟨S4x4096x512, g0⟩, ⟨S4x4096x512, g1⟩, ⟨S4x4096x512, g2⟩, ⟨S4x4096x512, g3⟩, ⟨S4x4096x512, g4⟩, ⟨S4x4096x512, g5⟩, ⟨S4x4096x512, g6⟩, ⟨S4x4096x512, g7⟩] concatenates_S4x4096x512_S4x4096x512_S4x4096x512_S4x4096x512_S4x4096x512_S4x4096x512_S4x4096x512_S4x4096x512_S4x4096x4096_d2

/-- The table of source heads, as 32-bit words in the table's order. -/
def tab : (⟨S32, .i32⟩ : BufTy).Contents (Elt Ideal) := fun i => lit0 (S32.rowMajor i)

/-- The source heads as a 32 x 1 array: a word w below zero (as a signed integer) is replaced by w + 32, any other kept. -/
def headIdx : (⟨S32x1, .i32⟩ : BufTy).Contents (Elt Ideal) :=
  broadcastInDim S32x1 ![0] bcast_S32_S32x1_0
    (select (cmpi .slt tab (broadcastInDim S32 ![] bcast_S_S32 (constantI S_ 32 0#32)))
      (addi tab (broadcastInDim S32 ![] bcast_S_S32 (constantI S_ 32 32#32))) tab)

/-- The reference's result as a function of its eighteen argument arrays. -/
def refVal (x : Arr S4x4096x4096) (vt : Arr S1856x4096) (u0 : Arr S512x384) (u1 : Arr S512x320) (u2 u3 : Arr S512x256)
    (u4 u5 : Arr S512x192) (u6 u7 : Arr S512x128) (b0 b1 b2 b3 b4 b5 b6 b7 : Arr S512) : Arr S4x4096x4096 :=
  shapeCast S4x4096x4096
    (Host.gather gather_S4x4096x32x128_S32x1_S4x4096x32x128_013_2_n_n_2_1_440961128
      (shapeCast S4x4096x32x128
        (cat (grp0 (latent x vt) u0 b0) (grp1 (latent x vt) u1 b1) (grp2 (latent x vt) u2 b2) (grp3 (latent x vt) u3 b3)
          (grp4 (latent x vt) u4 b4) (grp5 (latent x vt) u5 b5) (grp6 (latent x vt) u6 b6) (grp7 (latent x vt) u7 b7))
        shapeCasts_S4x4096x4096_S4x4096x32x128)
      headIdx)
    shapeCasts_S4x4096x32x128_S4x4096x4096

end Cert.ReferenceIdeal.RefValue

end
-- ==== Proof.RefRun.lean ====
/-
  The reference program as the list of its 54 operations, and what its result buffer holds once they have run.

  The program is a straight line: every operation reads buffers written before it and writes one buffer of its own,
  no buffer is written twice, and no argument buffer is written at all. So after the line the result buffer holds the
  composition of the operations' functions applied to the argument arrays (the stages of RefStages, `refVal`), and
  every argument buffer holds what it held at the start.
-/
import proofs.«179934_j12378095747712_1_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's 54 operations, in order. -/
abbrev ops : List (HloOp τ sig (Elt F)) :=
  [
    nullary main_c (fun i => lit0 (S32.rowMajor i)),
    binary main_arg0 main_arg1 main_v0 ((fun l r => Host.dotGeneral dot_S4x4096x4096_S1856x4096_S4x4096x1856_2_1_01_0_n_n none l r) : (⟨S4x4096x4096, .f32⟩ : BufTy).Contents (Elt F) → (⟨S1856x4096, .f32⟩ : BufTy).Contents (Elt F) → (⟨S4x4096x1856, .f32⟩ : BufTy).Contents (Elt F)),
    unary main_v0 main_v1 ((extractStridedSlice S4x4096x384 ![0, 0, 0] · slices_S4x4096x1856_S4x4096x384_0_0_0) : (⟨S4x4096x1856, .f32⟩ : BufTy).Contents (Elt F) → (⟨S4x4096x384, .f32⟩ : BufTy).Contents (Elt F)),
    binary main_v1 main_arg2 main_v2 ((fun l r => Host.dotGeneral dot_S4x4096x384_S512x384_S4x4096x512_2_1_01_0_n_n none l r) : (⟨S4x4096x384, .f32⟩ : BufTy).Contents (Elt F) → (⟨S512x384, .f32⟩ : BufTy).Contents (Elt F) → (⟨S4x4096x512, .f32⟩ : BufTy).Contents (Elt F)),
    unary main_arg10 main_v3 (broadcastInDim S1x1x512 ![2] bcast_S512_S1x1x512_2 : (⟨S512, .f32⟩ : BufTy).Contents (Elt F) → (⟨S1x1x512, .f32⟩ : BufTy).Contents (Elt F)),
    unary main_v3 main_v4 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v2 main_v4 main_v5 (addf : (⟨S4x4096x512, .f32⟩ : BufTy).Contents (Elt F) → (⟨S4x4096x512, .f32⟩ : BufTy).Contents (Elt F) → (⟨S4x4096x512, .f32⟩ : BufTy).Contents (Elt F)),
    unary main_v0 main_v6 ((extractStridedSlice S4x4096x320 ![0, 0, 384] · slices_S4x4096x1856_S4x4096x320_0_0_384) : (⟨S4x4096x1856, .f32⟩ : BufTy).Contents (Elt F) → (⟨S4x4096x320, .f32⟩ : BufTy).Contents (Elt F)),
    binary main_v6 main_arg3 main_v7 ((fun l r => Host.dotGeneral dot_S4x4096x320_S512x320_S4x4096x512_2_1_01_0_n_n none l r) : (⟨S4x4096x320, .f32⟩ : BufTy).Contents (Elt F) → (⟨S512x320, .f32⟩ : BufTy).Contents (Elt F) → (⟨S4x4096x512, .f32⟩ : BufTy).Contents (Elt F)),
    unary main_arg11 main_v8 (broadcastInDim S1x1x512 ![2] bcast_S512_S1x1x512_2 : (⟨S512, .f32⟩ : BufTy).Contents (Elt F) → (⟨S1x1x512, .f32⟩ : BufTy).Contents (Elt F)),
    unary main_v8 main_v9 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v7 main_v9 main_v10 (addf : (⟨S4x4096x512, .f32⟩ : BufTy).Contents (Elt F) → (⟨S4x4096x512, .f32⟩ : BufTy).Contents (Elt F) → (⟨S4x4096x512, .f32⟩ : BufTy).Contents (Elt F)),
    unary main_v0 main_v11 ((extractStridedSlice S4x4096x256 ![0, 0, 704] · slices_S4x4096x1856_S4x4096x256_0_0_704) : (⟨S4x4096x1856, .f32⟩ : BufTy).Contents (Elt F) → (⟨S4x4096x256, .f32⟩ : BufTy).Contents (Elt F)),
    binary main_v11 main_arg4 main_v12 ((fun l r => Host.dotGeneral dot_S4x4096x256_S512x256_S4x4096x512_2_1_01_0_n_n none l r) : (⟨S4x4096x256, .f32⟩ : BufTy).Contents (Elt F) → (⟨S512x256, .f32⟩ : BufTy).Contents (Elt F) → (⟨S4x4096x512, .f32⟩ : BufTy).Contents (Elt F)),
    unary main_arg12 main_v13 (broadcastInDim S1x1x512 ![2] bcast_S512_S1x1x512_2 : (⟨S512, .f32⟩ : BufTy).Contents (Elt F) → (⟨S1x1x512, .f32⟩ : BufTy).Contents (Elt F)),
    unary main_v13 main_v14 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v12 main_v14 main_v15 (addf : (⟨S4x4096x512, .f32⟩ : BufTy).Contents (Elt F) → (⟨S4x4096x512, .f32⟩ : BufTy).Contents (Elt F) → (⟨S4x4096x512, .f32⟩ : BufTy).Contents (Elt F)),
    unary main_v0 main_v16 ((extractStridedSlice S4x4096x256 ![0, 0, 960] · slices_S4x4096x1856_S4x4096x256_0_0_960) : (⟨S4x4096x1856, .f32⟩ : BufTy).Contents (Elt F) → (⟨S4x4096x256, .f32⟩ : BufTy).Contents (Elt F)),
    binary main_v16 main_arg5 main_v17 ((fun l r => Host.dotGeneral dot_S4x4096x256_S512x256_S4x4096x512_2_1_01_0_n_n none l r) : (⟨S4x4096x256, .f32⟩ : BufTy).Contents (Elt F) → (⟨S512x256, .f32⟩ : BufTy).Contents (Elt F) → (⟨S4x4096x512, .f32⟩ : BufTy).Contents (Elt F)),
    unary main_arg13 main_v18 (broadcastInDim S1x1x512 ![2] bcast_S512_S1x1x512_2 : (⟨S512, .f32⟩ : BufTy).Contents (Elt F) → (⟨S1x1x512, .f32⟩ : BufTy).Contents (Elt F)),
    unary main_v18 main_v19 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v17 main_v19 main_v20 (addf : (⟨S4x4096x512, .f32⟩ : BufTy).Contents (Elt F) → (⟨S4x4096x512, .f32⟩ : BufTy).Contents (Elt F) → (⟨S4x4096x512, .f32⟩ : BufTy).Contents (Elt F)),
    unary main_v0 main_v21 ((extractStridedSlice S4x4096x192 ![0, 0, 1216] · slices_S4x4096x1856_S4x4096x192_0_0_1216) : (⟨S4x4096x1856, .f32⟩ : BufTy).Contents (Elt F) → (⟨S4x4096x192, .f32⟩ : BufTy).Contents (Elt F)),
    binary main_v21 main_arg6 main_v22 ((fun l r => Host.dotGeneral dot_S4x4096x192_S512x192_S4x4096x512_2_1_01_0_n_n none l r) : (⟨S4x4096x192, .f32⟩ : BufTy).Contents (Elt F) → (⟨S512x192, .f32⟩ : BufTy).Contents (Elt F) → (⟨S4x4096x512, .f32⟩ : BufTy).Contents (Elt F)),
    unary main_arg14 main_v23 (broadcastInDim S1x1x512 ![2] bcast_S512_S1x1x512_2 : (⟨S512, .f32⟩ : BufTy).Contents (Elt F) → (⟨S1x1x512, .f32⟩ : BufTy).Contents (Elt F)),
    unary main_v23 main_v24 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v22 main_v24 main_v25 (addf : (⟨S4x4096x512, .f32⟩ : BufTy).Contents (Elt F) → (⟨S4x4096x512, .f32⟩ : BufTy).Contents (Elt F) → (⟨S4x4096x512, .f32⟩ : BufTy).Contents (Elt F)),
    unary main_v0 main_v26 ((extractStridedSlice S4x4096x192 ![0, 0, 1408] · slices_S4x4096x1856_S4x4096x192_0_0_1408) : (⟨S4x4096x1856, .f32⟩ : BufTy).Contents (Elt F) → (⟨S4x4096x192, .f32⟩ : BufTy).Contents (Elt F)),
    binary main_v26 main_arg7 main_v27 ((fun l r => Host.dotGeneral dot_S4x4096x192_S512x192_S4x4096x512_2_1_01_0_n_n none l r) : (⟨S4x4096x192, .f32⟩ : BufTy).Contents (Elt F) → (⟨S512x192, .f32⟩ : BufTy).Contents (Elt F) → (⟨S4x4096x512, .f32⟩ : BufTy).Contents (Elt F)),
    unary main_arg15 main_v28 (broadcastInDim S1x1x512 ![2] bcast_S512_S1x1x512_2 : (⟨S512, .f32⟩ : BufTy).Contents (Elt F) → (⟨S1x1x512, .f32⟩ : BufTy).Contents (Elt F)),
    unary main_v28 main_v29 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v27 main_v29 main_v30 (addf : (⟨S4x4096x512, .f32⟩ : BufTy).Contents (Elt F) → (⟨S4x4096x512, .f32⟩ : BufTy).Contents (Elt F) → (⟨S4x4096x512, .f32⟩ : BufTy).Contents (Elt F)),
    unary main_v0 main_v31 ((extractStridedSlice S4x4096x128 ![0, 0, 1600] · slices_S4x4096x1856_S4x4096x128_0_0_1600) : (⟨S4x4096x1856, .f32⟩ : BufTy).Contents (Elt F) → (⟨S4x4096x128, .f32⟩ : BufTy).Contents (Elt F)),
    binary main_v31 main_arg8 main_v32 ((fun l r => Host.dotGeneral dot_S4x4096x128_S512x128_S4x4096x512_2_1_01_0_n_n none l r) : (⟨S4x4096x128, .f32⟩ : BufTy).Contents (Elt F) → (⟨S512x128, .f32⟩ : BufTy).Contents (Elt F) → (⟨S4x4096x512, .f32⟩ : BufTy).Contents (Elt F)),
    unary main_arg16 main_v33 (broadcastInDim S1x1x512 ![2] bcast_S512_S1x1x512_2 : (⟨S512, .f32⟩ : BufTy).Contents (Elt F) → (⟨S1x1x512, .f32⟩ : BufTy).Contents (Elt F)),
    unary main_v33 main_v34 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v32 main_v34 main_v35 (addf : (⟨S4x4096x512, .f32⟩ : BufTy).Contents (Elt F) → (⟨S4x4096x512, .f32⟩ : BufTy).Contents (Elt F) → (⟨S4x4096x512, .f32⟩ : BufTy).Contents (Elt F)),
    unary main_v0 main_v36 ((extractStridedSlice S4x4096x128 ![0, 0, 1728] · slices_S4x4096x1856_S4x4096x128_0_0_1728) : (⟨S4x4096x1856, .f32⟩ : BufTy).Contents (Elt F) → (⟨S4x4096x128, .f32⟩ : BufTy).Contents (Elt F)),
    binary main_v36 main_arg9 main_v37 ((fun l r => Host.dotGeneral dot_S4x4096x128_S512x128_S4x4096x512_2_1_01_0_n_n none l r) : (⟨S4x4096x128, .f32⟩ : BufTy).Contents (Elt F) → (⟨S512x128, .f32⟩ : BufTy).Contents (Elt F) → (⟨S4x4096x512, .f32⟩ : BufTy).Contents (Elt F)),
    unary main_arg17 main_v38 (broadcastInDim S1x1x512 ![2] bcast_S512_S1x1x512_2 : (⟨S512, .f32⟩ : BufTy).Contents (Elt F) → (⟨S1x1x512, .f32⟩ : BufTy).Contents (Elt F)),
    unary main_v38 main_v39 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v37 main_v39 main_v40 (addf : (⟨S4x4096x512, .f32⟩ : BufTy).Contents (Elt F) → (⟨S4x4096x512, .f32⟩ : BufTy).Contents (Elt F) → (⟨S4x4096x512, .f32⟩ : BufTy).Contents (Elt F)),
    nary ![main_v5, main_v10, main_v15, main_v20, main_v25, main_v30, main_v35, main_v40] main_v41 (fun u => concatenate S4x4096x4096 2 [⟨S4x4096x512, u 0⟩, ⟨S4x4096x512, u 1⟩, ⟨S4x4096x512, u 2⟩, ⟨S4x4096x512, u 3⟩, ⟨S4x4096x512, u 4⟩, ⟨S4x4096x512, u 5⟩, ⟨S4x4096x512, u 6⟩, ⟨S4x4096x512, u 7⟩] concatenates_S4x4096x512_S4x4096x512_S4x4096x512_S4x4096x512_S4x4096x512_S4x4096x512_S4x4096x512_S4x4096x512_S4x4096x4096_d2),
    reshape main_v41 main_v42 rfl shapeCasts_S4x4096x4096_S4x4096x32x128,
    nullary main_c_0 (constantI S_ 32 0#32),
    unary main_c_0 main_v43 (broadcastInDim S32 ![] bcast_S_S32 : (⟨S_, .i32⟩ : BufTy).Contents (Elt F) → (⟨S32, .i32⟩ : BufTy).Contents (Elt F)),
    binary main_c main_v43 main_v44 (cmpi .slt : (⟨S32, .i32⟩ : BufTy).Contents (Elt F) → (⟨S32, .i32⟩ : BufTy).Contents (Elt F) → (⟨S32, .i1⟩ : BufTy).Contents (Elt F)),
    nullary main_c_1 (constantI S_ 32 32#32),
    unary main_c_1 main_v45 (broadcastInDim S32 ![] bcast_S_S32 : (⟨S_, .i32⟩ : BufTy).Contents (Elt F) → (⟨S32, .i32⟩ : BufTy).Contents (Elt F)),
    binary main_c main_v45 main_v46 (addi : (⟨S32, .i32⟩ : BufTy).Contents (Elt F) → (⟨S32, .i32⟩ : BufTy).Contents (Elt F) → (⟨S32, .i32⟩ : BufTy).Contents (Elt F)),
    ternary main_v44 main_v46 main_c main_v47 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v47 main_v48 (broadcastInDim S32x1 ![0] bcast_S32_S32x1_0 : (⟨S32, .i32⟩ : BufTy).Contents (Elt F) → (⟨S32x1, .i32⟩ : BufTy).Contents (Elt F)),
    binary main_v42 main_v48 main_v49 ((fun x i => Host.gather gather_S4x4096x32x128_S32x1_S4x4096x32x128_013_2_n_n_2_1_440961128 x i) : (⟨S4x4096x32x128, .f32⟩ : BufTy).Contents (Elt F) → (⟨S32x1, .i32⟩ : BufTy).Contents (Elt F) → (⟨S4x4096x32x128, .f32⟩ : BufTy).Contents (Elt F)),
    reshape main_v49 main_v50 rfl shapeCasts_S4x4096x32x128_S4x4096x4096 ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., nary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub ..⟩

set_option maxHeartbeats 4000000 in
set_option maxRecDepth 8192 in
/-- The result buffer after the line: the stages composed, at the contents the argument buffers started with. Each
    operation's result is its function of the buffers it reads; a buffer an operation does not write keeps its contents. -/
theorem after_v50 (V : Valuation τ sig (Elt Ideal)) :
    after (ops (F := Ideal)) V (Proc.devRef .tc main_v50)
      = refVal (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  simp (disch := decide) only [after_cons, after_nil,
      nullary_result', unary_result', binary_result', ternary_result', reshape_result', nary_result',
      nullary_result_ne', unary_result_ne', binary_result_ne', ternary_result_ne', reshape_result_ne', nary_result_ne',
      Matrix.cons_val]
  rfl

set_option maxHeartbeats 4000000 in
set_option maxRecDepth 8192 in
theorem after_arg0 (V : Valuation τ sig (Elt Ideal)) :
    after (ops (F := Ideal)) V (Proc.devRef .tc main_arg0) = V (Proc.devRef .tc main_arg0) := by
  after_results_simp
set_option maxHeartbeats 4000000 in
set_option maxRecDepth 8192 in
theorem after_arg1 (V : Valuation τ sig (Elt Ideal)) :
    after (ops (F := Ideal)) V (Proc.devRef .tc main_arg1) = V (Proc.devRef .tc main_arg1) := by
  after_results_simp
set_option maxHeartbeats 4000000 in
set_option maxRecDepth 8192 in
theorem after_arg2 (V : Valuation τ sig (Elt Ideal)) :
    after (ops (F := Ideal)) V (Proc.devRef .tc main_arg2) = V (Proc.devRef .tc main_arg2) := by
  after_results_simp
set_option maxHeartbeats 4000000 in
set_option maxRecDepth 8192 in
theorem after_arg3 (V : Valuation τ sig (Elt Ideal)) :
    after (ops (F := Ideal)) V (Proc.devRef .tc main_arg3) = V (Proc.devRef .tc main_arg3) := by
  after_results_simp
set_option maxHeartbeats 4000000 in
set_option maxRecDepth 8192 in
theorem after_arg4 (V : Valuation τ sig (Elt Ideal)) :
    after (ops (F := Ideal)) V (Proc.devRef .tc main_arg4) = V (Proc.devRef .tc main_arg4) := by
  after_results_simp
set_option maxHeartbeats 4000000 in
set_option maxRecDepth 8192 in
theorem after_arg5 (V : Valuation τ sig (Elt Ideal)) :
    after (ops (F := Ideal)) V (Proc.devRef .tc main_arg5) = V (Proc.devRef .tc main_arg5) := by
  after_results_simp
set_option maxHeartbeats 4000000 in
set_option maxRecDepth 8192 in
theorem after_arg6 (V : Valuation τ sig (Elt Ideal)) :
    after (ops (F := Ideal)) V (Proc.devRef .tc main_arg6) = V (Proc.devRef .tc main_arg6) := by
  after_results_simp
set_option maxHeartbeats 4000000 in
set_option maxRecDepth 8192 in
theorem after_arg7 (V : Valuation τ sig (Elt Ideal)) :
    after (ops (F := Ideal)) V (Proc.devRef .tc main_arg7) = V (Proc.devRef .tc main_arg7) := by
  after_results_simp
set_option maxHeartbeats 4000000 in
set_option maxRecDepth 8192 in
theorem after_arg8 (V : Valuation τ sig (Elt Ideal)) :
    after (ops (F := Ideal)) V (Proc.devRef .tc main_arg8) = V (Proc.devRef .tc main_arg8) := by
  after_results_simp
set_option maxHeartbeats 4000000 in
set_option maxRecDepth 8192 in
theorem after_arg9 (V : Valuation τ sig (Elt Ideal)) :
    after (ops (F := Ideal)) V (Proc.devRef .tc main_arg9) = V (Proc.devRef .tc main_arg9) := by
  after_results_simp
set_option maxHeartbeats 4000000 in
set_option maxRecDepth 8192 in
theorem after_arg10 (V : Valuation τ sig (Elt Ideal)) :
    after (ops (F := Ideal)) V (Proc.devRef .tc main_arg10) = V (Proc.devRef .tc main_arg10) := by
  after_results_simp
set_option maxHeartbeats 4000000 in
set_option maxRecDepth 8192 in
theorem after_arg11 (V : Valuation τ sig (Elt Ideal)) :
    after (ops (F := Ideal)) V (Proc.devRef .tc main_arg11) = V (Proc.devRef .tc main_arg11) := by
  after_results_simp
set_option maxHeartbeats 4000000 in
set_option maxRecDepth 8192 in
theorem after_arg12 (V : Valuation τ sig (Elt Ideal)) :
    after (ops (F := Ideal)) V (Proc.devRef .tc main_arg12) = V (Proc.devRef .tc main_arg12) := by
  after_results_simp
set_option maxHeartbeats 4000000 in
set_option maxRecDepth 8192 in
theorem after_arg13 (V : Valuation τ sig (Elt Ideal)) :
    after (ops (F := Ideal)) V (Proc.devRef .tc main_arg13) = V (Proc.devRef .tc main_arg13) := by
  after_results_simp
set_option maxHeartbeats 4000000 in
set_option maxRecDepth 8192 in
theorem after_arg14 (V : Valuation τ sig (Elt Ideal)) :
    after (ops (F := Ideal)) V (Proc.devRef .tc main_arg14) = V (Proc.devRef .tc main_arg14) := by
  after_results_simp
set_option maxHeartbeats 4000000 in
set_option maxRecDepth 8192 in
theorem after_arg15 (V : Valuation τ sig (Elt Ideal)) :
    after (ops (F := Ideal)) V (Proc.devRef .tc main_arg15) = V (Proc.devRef .tc main_arg15) := by
  after_results_simp
set_option maxHeartbeats 4000000 in
set_option maxRecDepth 8192 in
theorem after_arg16 (V : Valuation τ sig (Elt Ideal)) :
    after (ops (F := Ideal)) V (Proc.devRef .tc main_arg16) = V (Proc.devRef .tc main_arg16) := by
  after_results_simp
set_option maxHeartbeats 4000000 in
set_option maxRecDepth 8192 in
theorem after_arg17 (V : Valuation τ sig (Elt Ideal)) :
    after (ops (F := Ideal)) V (Proc.devRef .tc main_arg17) = V (Proc.devRef .tc main_arg17) := by
  after_results_simp

end Cert.ReferenceIdeal.RefValue

end
-- ==== Proof.RefDot.lean ====
/-
  A contraction of a three-axis array with a two-axis matrix over their last axes, read at one entry.

  For X of shape B x L x K and W of shape N x K, contracting X's axis 2 with W's axis 1 (no batch axes; the result's axes
  are X's axes 0 and 1 followed by W's axis 0), the entry (b, l, n) of the result is the finite sum
      ∑ k : Fin K, X (b, l, k) * W (n, k).
  The contraction's own index set has one axis of extent K; the sum over it is re-indexed through the bijection with
  Fin K. On each operand the index read at result entry (b, l, n) and contraction position k is found coordinate by
  coordinate: a non-contracted axis reads the result index at that axis's position among the result's axes, the
  contracted axis reads k.
-/
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx

section Coordinates

variable {sl sr so : Shape} (d : DotDims sl sr so)

/-- A result index read at two positions that are the same number reads the same coordinate. -/
theorem idx_val_congr (j : so.Idx) (p q : ℕ) (hp : p < so.rank) (hq : q < so.rank) (h : p = q) :
    (j ⟨p, hp⟩).val = (j ⟨q, hq⟩).val := by subst h; rfl

/-- On a non-contracted, non-batch axis of the left operand the index is the result index at that axis's position:
    after the batch axes, in the order of the non-contracted axes. -/
theorem lhsIdx_val_non {a : Fin sl.rank} (hb : a ∉ d.lhsBatch) (hn : a ∈ d.lhsNonContracting) (j : so.Idx) (k : d.contr.Idx)
    (p : ℕ) (hp : p < so.rank) (hpe : d.lhsBatch.length + d.lhsNonContracting.idxOf a = p) :
    (d.lhsIdx j k a).val = (j ⟨p, hp⟩).val := by
  unfold DotDims.lhsIdx
  rw [dif_neg hb, dif_pos hn]
  simp only [Fin.val_cast]
  exact idx_val_congr j _ _ _ _ hpe

/-- On a non-contracted, non-batch axis of the right operand the index is the result index at that axis's position:
    after the batch axes and the left operand's non-contracted axes. -/
theorem rhsIdx_val_non {a : Fin sr.rank} (hb : a ∉ d.rhsBatch) (hn : a ∈ d.rhsNonContracting) (j : so.Idx) (k : d.contr.Idx)
    (p : ℕ) (hp : p < so.rank) (hpe : d.lhsBatch.length + d.lhsNonContracting.length + d.rhsNonContracting.idxOf a = p) :
    (d.rhsIdx j k a).val = (j ⟨p, hp⟩).val := by
  unfold DotDims.rhsIdx
  rw [dif_neg hb, dif_pos hn]
  simp only [Fin.val_cast]
  exact idx_val_congr j _ _ _ _ hpe

end Coordinates

/-- The contraction over the last axes read at entry (b, l, n): the sum over k of X (b, l, k) * W (n, k). -/
theorem dot_apply {B L K N : ℕ} (d : DotDims ⟨3, ![B, L, K]⟩ ⟨2, ![N, K]⟩ ⟨3, ![B, L, N]⟩)
    (hlc : d.lhsContracting = [2]) (hrc : d.rhsContracting = [1]) (hlb : d.lhsBatch = []) (hrb : d.rhsBatch = [])
    (hln : d.lhsNonContracting = [0, 1]) (hrn : d.rhsNonContracting = [0])
    (X : FVec Ideal ⟨3, ![B, L, K]⟩ .f32) (W : FVec Ideal ⟨2, ![N, K]⟩ .f32) (b : Fin B) (l : Fin L) (n : Fin N) :
    Host.dotGeneral (F := Ideal) d none X W (ix3 b l n) = ∑ k : Fin K, X (ix3 b l k) * W (ix2 n k) := by
  have hr : d.contr.rank = 1 := by rw [d.rank_contr, hlc]; rfl
  have hs : d.contr.size ⟨0, by omega⟩ = K := by
    rw [d.size_contr 0 (by rw [hlc]; exact Nat.one_pos)]
    simp only [hlc, List.getElem_cons_zero]
    rfl
  have hlb0 : ∀ a : Fin (3 : ℕ), a ∉ d.lhsBatch := fun a h => by rw [hlb] at h; exact List.not_mem_nil h
  have hrb0 : ∀ a : Fin (2 : ℕ), a ∉ d.rhsBatch := fun a h => by rw [hrb] at h; exact List.not_mem_nil h
  have hL : ∀ i : Fin K, d.lhsIdx (ix3 b l n) ((contrEquiv1 d K hr hs).symm i) = ix3 b l i := by
    intro i
    funext a
    refine Fin.ext ?_
    match a with
    | ⟨0, h0⟩ =>
      exact lhsIdx_val_non d (hlb0 _) (by rw [hln]; exact List.mem_cons_self) _ _ 0 (by show 0 < 3; omega) (by rw [hlb, hln]; rfl)
    | ⟨1, h1⟩ =>
      exact lhsIdx_val_non d (hlb0 _) (by rw [hln]; exact List.mem_cons_of_mem _ List.mem_cons_self) _ _ 1 (by show 1 < 3; omega) (by rw [hlb, hln]; rfl)
    | ⟨2, h2⟩ =>
      exact (d.lhsIdx_val_of_single hlc _ _).trans (contrEquiv1_symm_val d K hr hs i)
  have hR : ∀ i : Fin K, d.rhsIdx (ix3 b l n) ((contrEquiv1 d K hr hs).symm i) = ix2 n i := by
    intro i
    funext a
    refine Fin.ext ?_
    match a with
    | ⟨0, h0⟩ =>
      exact rhsIdx_val_non d (hrb0 _) (by rw [hrn]; exact List.mem_cons_self) _ _ 2 (by show 2 < 3; omega) (by rw [hlb, hln, hrn]; rfl)
    | ⟨1, h1⟩ =>
      exact (d.rhsIdx_val_of_single hrc _ _).trans (contrEquiv1_symm_val d K hr hs i)
  show FloatOps.dotGeneral d none .single X W (ix3 b l n) = _
  rw [Ideal.dotGeneral_apply, ← Equiv.sum_comp (contrEquiv1 d K hr hs).symm]
  exact Finset.sum_congr rfl fun i _ => by rw [hL i, hR i]

end Cert.ReferenceIdeal.RefValue

end
-- ==== Proof.RefGroup.lean ====
/-
  One group's block of 512 output columns, read at one entry, is the group function of the hidden row.

  Entry (b, l, g) of a group's block is a sum of two arrays at that entry. The first is a contraction: the sum over the
  group's K latent columns k of (latent at (b, l, off + k)) * u (g, k), because a slice of the latent along its last axis
  starting at off reads the latent at off + k; and the latent at (b, l, off + k) is itself the sum over the 4096 features d
  of x (b, l, d) * vt (off + k, d). The second is the bias vector repeated over every row, which reads b g whatever the
  row. Together: (∑ k, (∑ d, x (b, l, d) * vt (off + k, d)) * u (g, k)) + bias g, which is the group function on the
  row d ↦ x (b, l, d) with rows off … off + K of the projection.
-/
import proofs.«179934_j12378095747712_1_alg».proof.Proof.RefStages
import proofs.«179934_j12378095747712_1_alg».proof.Proof.RefDot
import proofs.«179934_j12378095747712_1_alg».proof.Proof.Spec
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

/-- The latent at (b, l, k): the hidden row (b, l) against row k of the projection. -/
theorem latent_apply (x : Arr S4x4096x4096) (vt : Arr S1856x4096) (b : Fin 4) (l : Fin 4096) (k : Fin 1856) :
    latent x vt (ix3 b l k) = ∑ dd : Fin 4096, x (ix3 b l dd) * vt (ix2 k dd) :=
  dot_apply dot_S4x4096x4096_S1856x4096_S4x4096x1856_2_1_01_0_n_n rfl rfl rfl rfl rfl rfl x vt b l k

/-- The repeated bias at (b, l, g) is the vector at g: the first repetition puts g on the last of three axes (the other two
    of extent one, read at 0), the second copies along the two unit axes. -/
theorem bias_apply (bb : Arr S512) (b : Fin 4) (l : Fin 4096) (g : Fin 512) : bias bb (ix3 b l g) = bb (ix1 g) := by
  unfold bias
  refine (broadcastInDim_apply _ _ _ (ix3 b l g) (ix3 (0 : Fin 1) (0 : Fin 1) g) fun a => ?_).trans
    (broadcastInDim_apply _ _ _ (ix3 (0 : Fin 1) (0 : Fin 1) g) (ix1 g) fun a => ?_)
  · match a with
    | ⟨0, _⟩ => rfl
    | ⟨1, _⟩ => rfl
    | ⟨2, _⟩ => rfl
  · match a with
    | ⟨0, _⟩ => rfl

/-- A group's block at (b, l, g), for any rank K and offset off of its latent columns. -/
theorem grp_apply {K : ℕ} (off : ℕ) (hle : off + K ≤ 1856)
    (d : DotDims ⟨3, ![4, 4096, K]⟩ ⟨2, ![512, K]⟩ ⟨3, ![4, 4096, 512]⟩)
    (hlc : d.lhsContracting = [2]) (hrc : d.rhsContracting = [1]) (hlb : d.lhsBatch = []) (hrb : d.rhsBatch = [])
    (hln : d.lhsNonContracting = [0, 1]) (hrn : d.rhsNonContracting = [0])
    (hs : S4x4096x1856.Slices ![0, 0, off] ⟨3, ![4, 4096, K]⟩)
    (x : Arr S4x4096x4096) (vt : Arr S1856x4096) (u : FVec Ideal ⟨2, ![512, K]⟩ .f32) (bb : Arr S512)
    (b : Fin 4) (l : Fin 4096) (g : Fin 512) :
    addf (F := Ideal) (Host.dotGeneral (F := Ideal) (φ₁ := .f32) (φ₂ := .f32) d none
        (extractStridedSlice ⟨3, ![4, 4096, K]⟩ ![0, 0, off] (latent x vt) hs) u) (bias bb) (ix3 b l g)
      = Cert.HeadRows.group (fun dd => x (ix3 b l dd)) (Cert.HeadRows.rows off K hle vt) (Cert.HeadRows.mat u)
          (Cert.HeadRows.vec bb) g := by
  rw [addf_apply, dot_apply d hlc hrc hlb hrb hln hrn, bias_apply]
  unfold Cert.HeadRows.group Cert.HeadRows.rows Cert.HeadRows.mat Cert.HeadRows.vec
  congr 1
  refine Finset.sum_congr rfl fun k _ => ?_
  congr 1
  have hk := k.isLt
  have hsl : extractStridedSlice ⟨3, ![4, 4096, K]⟩ ![0, 0, off] (latent x vt) hs (ix3 b l k)
      = latent x vt (ix3 b l (⟨off + k.val, by omega⟩ : Fin 1856)) :=
    extractStridedSlice_apply _ _ hs (ix3 b l k) (ix3 b l (⟨off + k.val, by omega⟩ : Fin 1856)) fun a => by
      match a with
      | ⟨0, _⟩ => exact (Nat.zero_add _).symm
      | ⟨1, _⟩ => exact (Nat.zero_add _).symm
      | ⟨2, _⟩ => rfl
  rw [hsl, latent_apply]

/-- Group 0 (rank 384, latent columns from 0). -/
theorem grp0_apply (x : Arr S4x4096x4096) (vt : Arr S1856x4096) (u : Arr S512x384) (bb : Arr S512)
    (b : Fin 4) (l : Fin 4096) (g : Fin 512) :
    grp0 (latent x vt) u bb (ix3 b l g)
      = Cert.HeadRows.group (fun dd => x (ix3 b l dd)) (Cert.HeadRows.rows 0 384 (by norm_num) vt) (Cert.HeadRows.mat u)
          (Cert.HeadRows.vec bb) g :=
  grp_apply 0 (by norm_num) dot_S4x4096x384_S512x384_S4x4096x512_2_1_01_0_n_n rfl rfl rfl rfl rfl rfl
    slices_S4x4096x1856_S4x4096x384_0_0_0 x vt u bb b l g

/-- Group 1 (rank 320, latent columns from 384). -/
theorem grp1_apply (x : Arr S4x4096x4096) (vt : Arr S1856x4096) (u : Arr S512x320) (bb : Arr S512)
    (b : Fin 4) (l : Fin 4096) (g : Fin 512) :
    grp1 (latent x vt) u bb (ix3 b l g)
      = Cert.HeadRows.group (fun dd => x (ix3 b l dd)) (Cert.HeadRows.rows 384 320 (by norm_num) vt) (Cert.HeadRows.mat u)
          (Cert.HeadRows.vec bb) g :=
  grp_apply 384 (by norm_num) dot_S4x4096x320_S512x320_S4x4096x512_2_1_01_0_n_n rfl rfl rfl rfl rfl rfl
    slices_S4x4096x1856_S4x4096x320_0_0_384 x vt u bb b l g

/-- Group 2 (rank 256, latent columns from 704). -/
theorem grp2_apply (x : Arr S4x4096x4096) (vt : Arr S1856x4096) (u : Arr S512x256) (bb : Arr S512)
    (b : Fin 4) (l : Fin 4096) (g : Fin 512) :
    grp2 (latent x vt) u bb (ix3 b l g)
      = Cert.HeadRows.group (fun dd => x (ix3 b l dd)) (Cert.HeadRows.rows 704 256 (by norm_num) vt) (Cert.HeadRows.mat u)
          (Cert.HeadRows.vec bb) g :=
  grp_apply 704 (by norm_num) dot_S4x4096x256_S512x256_S4x4096x512_2_1_01_0_n_n rfl rfl rfl rfl rfl rfl
    slices_S4x4096x1856_S4x4096x256_0_0_704 x vt u bb b l g

/-- Group 3 (rank 256, latent columns from 960). -/
theorem grp3_apply (x : Arr S4x4096x4096) (vt : Arr S1856x4096) (u : Arr S512x256) (bb : Arr S512)
    (b : Fin 4) (l : Fin 4096) (g : Fin 512) :
    grp3 (latent x vt) u bb (ix3 b l g)
      = Cert.HeadRows.group (fun dd => x (ix3 b l dd)) (Cert.HeadRows.rows 960 256 (by norm_num) vt) (Cert.HeadRows.mat u)
          (Cert.HeadRows.vec bb) g :=
  grp_apply 960 (by norm_num) dot_S4x4096x256_S512x256_S4x4096x512_2_1_01_0_n_n rfl rfl rfl rfl rfl rfl
    slices_S4x4096x1856_S4x4096x256_0_0_960 x vt u bb b l g

/-- Group 4 (rank 192, latent columns from 1216). -/
theorem grp4_apply (x : Arr S4x4096x4096) (vt : Arr S1856x4096) (u : Arr S512x192) (bb : Arr S512)
    (b : Fin 4) (l : Fin 4096) (g : Fin 512) :
    grp4 (latent x vt) u bb (ix3 b l g)
      = Cert.HeadRows.group (fun dd => x (ix3 b l dd)) (Cert.HeadRows.rows 1216 192 (by norm_num) vt) (Cert.HeadRows.mat u)
          (Cert.HeadRows.vec bb) g :=
  grp_apply 1216 (by norm_num) dot_S4x4096x192_S512x192_S4x4096x512_2_1_01_0_n_n rfl rfl rfl rfl rfl rfl
    slices_S4x4096x1856_S4x4096x192_0_0_1216 x vt u bb b l g

/-- Group 5 (rank 192, latent columns from 1408). -/
theorem grp5_apply (x : Arr S4x4096x4096) (vt : Arr S1856x4096) (u : Arr S512x192) (bb : Arr S512)
    (b : Fin 4) (l : Fin 4096) (g : Fin 512) :
    grp5 (latent x vt) u bb (ix3 b l g)
      = Cert.HeadRows.group (fun dd => x (ix3 b l dd)) (Cert.HeadRows.rows 1408 192 (by norm_num) vt) (Cert.HeadRows.mat u)
          (Cert.HeadRows.vec bb) g :=
  grp_apply 1408 (by norm_num) dot_S4x4096x192_S512x192_S4x4096x512_2_1_01_0_n_n rfl rfl rfl rfl rfl rfl
    slices_S4x4096x1856_S4x4096x192_0_0_1408 x vt u bb b l g

/-- Group 6 (rank 128, latent columns from 1600). -/
theorem grp6_apply (x : Arr S4x4096x4096) (vt : Arr S1856x4096) (u : Arr S512x128) (bb : Arr S512)
    (b : Fin 4) (l : Fin 4096) (g : Fin 512) :
    grp6 (latent x vt) u bb (ix3 b l g)
      = Cert.HeadRows.group (fun dd => x (ix3 b l dd)) (Cert.HeadRows.rows 1600 128 (by norm_num) vt) (Cert.HeadRows.mat u)
          (Cert.HeadRows.vec bb) g :=
  grp_apply 1600 (by norm_num) dot_S4x4096x128_S512x128_S4x4096x512_2_1_01_0_n_n rfl rfl rfl rfl rfl rfl
    slices_S4x4096x1856_S4x4096x128_0_0_1600 x vt u bb b l g

/-- Group 7 (rank 128, latent columns from 1728). -/
theorem grp7_apply (x : Arr S4x4096x4096) (vt : Arr S1856x4096) (u : Arr S512x128) (bb : Arr S512)
    (b : Fin 4) (l : Fin 4096) (g : Fin 512) :
    grp7 (latent x vt) u bb (ix3 b l g)
      = Cert.HeadRows.group (fun dd => x (ix3 b l dd)) (Cert.HeadRows.rows 1728 128 (by norm_num) vt) (Cert.HeadRows.mat u)
          (Cert.HeadRows.vec bb) g :=
  grp_apply 1728 (by norm_num) dot_S4x4096x128_S512x128_S4x4096x512_2_1_01_0_n_n rfl rfl rfl rfl rfl rfl
    slices_S4x4096x1856_S4x4096x128_0_0_1728 x vt u bb b l g

end Cert.ReferenceIdeal.RefValue

end
-- ==== Proof.RefTail.lean ====
/-
  The end of the reference: 4096 columns seen as 32 heads of 128, the heads reordered by a table, seen as 4096 columns again.

  Reading the final array at column c: the reshape to heads puts column c at head c / 128, position c % 128 (both arrays
  list their entries in row-major order, and (… * 32 + c / 128) * 128 + c % 128 = … * 4096 + c). The gather along the head
  axis takes head n from the head whose number is the table's word n, read as a signed integer and clamped to 0 … 31; every
  word of the table is already in that range and not negative, so the word is used as it is: head n comes from head
  srcHead n. The reshape back to columns is read the same way in the other direction. Altogether column c is a copy of
  column srcHead (c / 128) * 128 + c % 128 of the concatenated array.

  The concatenation of eight 512-column blocks at column c is block c / 512 at position c % 512.
-/
import proofs.«179934_j12378095747712_1_alg».proof.Proof.RefStages
import proofs.«179934_j12378095747712_1_alg».proof.Proof.Spec
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

/-- The gather's dimension numbers: operand axis 2 (the heads) is indexed by the start indices, the other three axes are
    copied whole. -/
abbrev gd := gather_S4x4096x32x128_S32x1_S4x4096x32x128_013_2_n_n_2_1_440961128

/-- The operand entry the gather reads for result entry (b, l, n, q): axes 0, 1, 3 keep b, l, q; axis 2 is the start index
    of row n, read signed and clamped to 0 … 31. -/
theorem operandIdx_eq {w : ℕ} (idx : IVec S32x1 w) (b : Fin 4) (l : Fin 4096) (n : Fin 32) (q : Fin 128) :
    gd.operandIdx (ix4 b l n q) idx
      = ix4 b l (⟨min (idx (ix2 n (0 : Fin 1))).toInt.toNat 31, by omega⟩ : Fin 32) q := by
  have hstart : ∀ (a : Fin 4) (_ : a ≠ 2), gd.start (ix4 b l n q) idx a = 0 := fun a ha => by
    unfold GatherDims.start
    exact dif_neg fun h => ha (List.mem_singleton.mp h)
  have hkept : ∀ (a : Fin 4) (_ : a ≠ 2), a ∈ gd.sKept := fun a ha =>
    (GatherDims.mem_sKept _ _).mpr ⟨fun h => ha (List.mem_singleton.mp h), List.not_mem_nil⟩
  have hoff : ∀ (a : Fin 4) (ha : a ≠ 2), gd.offCoord (ix4 b l n q) a
      = (ix4 b l n q (gd.offsetDims[gd.sKept.idxOf a]'(by
          rw [gd.offset_length]; exact List.idxOf_lt_length_iff.2 (hkept a ha)))).val :=
    fun a ha => by
      unfold GatherDims.offCoord
      exact dif_pos (hkept a ha)
  have hs2 : gd.start (ix4 b l n q) idx (2 : Fin 4) = min (idx (ix2 n (0 : Fin 1))).toInt.toNat 31 := by
    unfold GatherDims.start
    rw [dif_pos (show (2 : Fin 4) ∈ gd.startIndexMap from List.mem_singleton.mpr rfl)]
    have hsi : gd.siIdx (ix4 b l n q) ⟨List.idxOf (2 : Fin 4) gd.startIndexMap,
        List.idxOf_lt_length_iff.2 (List.mem_singleton.mpr rfl)⟩ = ix2 n (0 : Fin 1) := by
      funext c
      refine Fin.ext ?_
      match c with
      | ⟨0, _⟩ => rfl
      | ⟨1, _⟩ => rfl
    rw [hsi]
    rfl
  have hoff2 : gd.offCoord (ix4 b l n q) (2 : Fin 4) = 0 :=
    GatherDims.offCoord_eq_zero _ _ _ fun h => ((GatherDims.mem_sKept _ _).mp h).1 (List.mem_singleton.mpr rfl)
  have kout : ∀ (a : Fin 4) (ha : a ≠ 2),
      gd.start (ix4 b l n q) idx a + gd.batchCoord (ix4 b l n q) a + gd.offCoord (ix4 b l n q) a
        = (ix4 b l n q (gd.offsetDims[gd.sKept.idxOf a]'(by
            rw [gd.offset_length]; exact List.idxOf_lt_length_iff.2 (hkept a ha)))).val := fun a ha => by
    rw [GatherDims.batchCoord_eq_zero gd _ _ List.not_mem_nil, Nat.add_zero, hstart a ha, hoff a ha, Nat.zero_add]
  have k2 : gd.start (ix4 b l n q) idx (2 : Fin 4) + gd.batchCoord (ix4 b l n q) (2 : Fin 4)
      + gd.offCoord (ix4 b l n q) (2 : Fin 4) = min (idx (ix2 n (0 : Fin 1))).toInt.toNat 31 := by
    rw [GatherDims.batchCoord_eq_zero gd _ _ List.not_mem_nil, Nat.add_zero, hs2, hoff2, Nat.add_zero]
  funext a
  refine Fin.ext ?_
  match a with
  | ⟨0, _⟩ => exact kout 0 (by decide)
  | ⟨1, _⟩ => exact kout 1 (by decide)
  | ⟨2, _⟩ => exact k2
  | ⟨3, _⟩ => exact kout 3 (by decide)

/-- Every word of the table, passed through "add 32 if negative" and the clamp to 0 … 31, is the source head. -/
theorem head_word (n : Fin 32) :
    min (headIdx (ix2 n (0 : Fin 1))).toInt.toNat 31 = (Cert.HeadRows.srcHead n).val := by
  have hb : headIdx (ix2 n (0 : Fin 1))
      = Scalar.select (IntOp.cmpi .slt (lit0 n) 0#32) (IntOp.addi (lit0 n) 32#32) (lit0 n) := by
    unfold headIdx
    rw [broadcastInDim_apply _ _ _ (ix2 n (0 : Fin 1)) (ix1 n) (fun a => by match a with | ⟨0, _⟩ => rfl)]
    have ht : tab (ix1 n) = lit0 n := congrArg lit0 (Fin.ext (Shape.rowMajor_val_one _))
    show Scalar.select (IntOp.cmpi .slt (tab (ix1 n)) 0#32) (IntOp.addi (tab (ix1 n)) 32#32) (tab (ix1 n)) = _
    rw [ht]
  rw [hb]
  revert n
  decide

/-- The gather at (b, l, n, q): head n is head srcHead n of the operand. -/
theorem gather_head {α : Type} (x : S4x4096x32x128.Idx → α) (b : Fin 4) (l : Fin 4096) (n : Fin 32) (q : Fin 128) :
    Host.gather gd x headIdx (ix4 b l n q) = x (ix4 b l (Cert.HeadRows.srcHead n) q) := by
  unfold Host.gather
  rw [operandIdx_eq]
  exact congrArg (fun h => x (ix4 b l h q)) (Fin.ext (head_word n))

/-- The end of the reference at (b, l, c): column srcCol c of the array it is applied to. -/
theorem tail_apply (y : Arr S4x4096x4096) (b : Fin 4) (l : Fin 4096) (c : Fin 4096) :
    shapeCast S4x4096x4096 (Host.gather gd (shapeCast S4x4096x32x128 y shapeCasts_S4x4096x4096_S4x4096x32x128) headIdx)
      shapeCasts_S4x4096x32x128_S4x4096x4096 (ix3 b l c) = y (ix3 b l (Cert.HeadRows.srcCol c)) := by
  have hc := c.isLt
  refine (shapeCast_apply _ _ (ix3 b l c)
    (ix4 b l (⟨c.val / 128, by omega⟩ : Fin 32) (⟨c.val % 128, by omega⟩ : Fin 128)) ?_).trans ?_
  · rw [Shape.rowMajor_val_four, Shape.rowMajor_val_three]
    show ((b.val * 4096 + l.val) * 32 + c.val / 128) * 128 + c.val % 128 = (b.val * 4096 + l.val) * 4096 + c.val
    omega
  rw [gather_head]
  refine shapeCast_apply _ _ _ (ix3 b l (Cert.HeadRows.srcCol c)) ?_
  rw [Shape.rowMajor_val_three, Shape.rowMajor_val_four]
  have hsrc : (Cert.HeadRows.srcCol c).val
      = (Cert.HeadRows.srcHead (⟨c.val / 128, by omega⟩ : Fin 32)).val * 128 + c.val % 128 := rfl
  show (b.val * 4096 + l.val) * 4096 + (Cert.HeadRows.srcCol c).val
    = ((b.val * 4096 + l.val) * 32 + (Cert.HeadRows.srcHead (⟨c.val / 128, by omega⟩ : Fin 32)).val) * 128 + c.val % 128
  omega

/-- The eight blocks side by side at column c: block c / 512 at position c % 512. -/
theorem cat_apply (g0 g1 g2 g3 g4 g5 g6 g7 : Arr S4x4096x512) (b : Fin 4) (l : Fin 4096) (c : Fin 4096) :
    cat g0 g1 g2 g3 g4 g5 g6 g7 (ix3 b l c)
      = (![g0, g1, g2, g3, g4, g5, g6, g7] : Fin 8 → Arr S4x4096x512) ⟨c.val / 512, by have := c.isLt; omega⟩
          (ix3 b l (⟨c.val % 512, Nat.mod_lt _ (by norm_num)⟩ : Fin 512)) :=
  concatenate_ofFn_apply (t := S4x4096x4096) (s₁ := S4x4096x512) (2 : Fin 3)
    (![g0, g1, g2, g3, g4, g5, g6, g7] : Fin 8 → Arr S4x4096x512)
    concatenates_S4x4096x512_S4x4096x512_S4x4096x512_S4x4096x512_S4x4096x512_S4x4096x512_S4x4096x512_S4x4096x512_S4x4096x4096_d2
    rfl 512 rfl (ix3 b l c) ⟨c.val / 512, by have := c.isLt; omega⟩ rfl
    (ix3 b l (⟨c.val % 512, Nat.mod_lt _ (by norm_num)⟩ : Fin 512)) rfl
    (fun a ha => by
      match a with
      | ⟨0, _⟩ => rfl
      | ⟨1, _⟩ => rfl
      | ⟨2, _⟩ => exact absurd rfl ha)

end Cert.ReferenceIdeal.RefValue

end
-- ==== Proof.RefValue.lean ====
/-
  The reference computes the head-reordered row function, and its run says so.

  At entry (b, l, c) the reference's value is: column srcCol c of the eight blocks side by side (the end of the program,
  RefTail), which is block srcCol c / 512 at position srcCol c % 512 (the concatenation), which is that group's function
  of the hidden row (b, l) at that position (RefGroup). This is the specification's row function entry by entry. The run of
  the program ends with the result buffer at this value of the argument buffers' initial contents and the argument buffers
  unchanged (RefRun).
-/
import proofs.«179934_j12378095747712_1_alg».proof.Proof.RefRun
import proofs.«179934_j12378095747712_1_alg».proof.Proof.RefGroup
import proofs.«179934_j12378095747712_1_alg».proof.Proof.RefTail

noncomputable section

open scoped BigOperators

namespace Cert.ReferenceIdeal.RefValue

open Cert.ReferenceIdeal Cert.ReferenceIdeal.Gen Idealize.ShloMosaic Idealize.ShloMosaic.ValueIdx Idealize.ShloMosaic.TcCoe
  Idealize.SL.Sem Idealize.ShloMosaic.StableHlo

/-- Block i of the reference at (b, l, g) is group i of the specification on the hidden row (b, l), at g. -/
theorem blocks_eq (x : Arr S4x4096x4096) (vt : Arr S1856x4096) (u0 : Arr S512x384) (u1 : Arr S512x320) (u2 u3 : Arr S512x256)
    (u4 u5 : Arr S512x192) (u6 u7 : Arr S512x128) (b0 b1 b2 b3 b4 b5 b6 b7 : Arr S512)
    (b : Fin 4) (l : Fin 4096) (i : Fin 8) (g : Fin 512) :
    (![grp0 (latent x vt) u0 b0, grp1 (latent x vt) u1 b1, grp2 (latent x vt) u2 b2, grp3 (latent x vt) u3 b3,
        grp4 (latent x vt) u4 b4, grp5 (latent x vt) u5 b5, grp6 (latent x vt) u6 b6, grp7 (latent x vt) u7 b7]
        : Fin 8 → Arr S4x4096x512) i (ix3 b l g)
      = Cert.HeadRows.groups (fun dd => x (ix3 b l dd)) vt u0 u1 u2 u3 u4 u5 u6 u7 b0 b1 b2 b3 b4 b5 b6 b7 i g := by
  unfold Cert.HeadRows.groups
  fin_cases i
  · exact grp0_apply x vt u0 b0 b l g
  · exact grp1_apply x vt u1 b1 b l g
  · exact grp2_apply x vt u2 b2 b l g
  · exact grp3_apply x vt u3 b3 b l g
  · exact grp4_apply x vt u4 b4 b l g
  · exact grp5_apply x vt u5 b5 b l g
  · exact grp6_apply x vt u6 b6 b l g
  · exact grp7_apply x vt u7 b7 b l g

/-- The reference's value is the specification's function of the argument arrays. -/
theorem refVal_eq (x : Arr S4x4096x4096) (vt : Arr S1856x4096) (u0 : Arr S512x384) (u1 : Arr S512x320) (u2 u3 : Arr S512x256)
    (u4 u5 : Arr S512x192) (u6 u7 : Arr S512x128) (b0 b1 b2 b3 b4 b5 b6 b7 : Arr S512) :
    refVal x vt u0 u1 u2 u3 u4 u5 u6 u7 b0 b1 b2 b3 b4 b5 b6 b7 = Cert.HeadRows.G x vt u0 u1 u2 u3 u4 u5 u6 u7 b0 b1 b2 b3 b4 b5 b6 b7 := by
  funext j
  obtain ⟨b, l, c, rfl⟩ : ∃ b l c, j = ix3 b l c := ⟨j 0, j 1, j 2, eq_ix3 j⟩
  rw [Cert.HeadRows.G_apply]
  unfold refVal
  exact (tail_apply _ b l c).trans ((cat_apply _ _ _ _ _ _ _ _ b l (Cert.HeadRows.srcCol c)).trans
    (blocks_eq x vt u0 u1 u2 u3 u4 u5 u6 u7 b0 b1 b2 b3 b4 b5 b6 b7 b l _ _))

/-- From any memory with zero counters every weakly fair execution of the reference terminates; the result buffer then holds
    the specification's function of the argument buffers' initial contents, and the argument buffers hold those contents. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v50)
        = Cert.HeadRows.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v50).trans ((after_v50 _).trans (refVal_eq ..)),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _),
      (h c main_arg10).trans (after_arg10 _),
      (h c main_arg11).trans (after_arg11 _),
      (h c main_arg12).trans (after_arg12 _),
      (h c main_arg13).trans (after_arg13 _),
      (h c main_arg14).trans (after_arg14 _),
      (h c main_arg15).trans (after_arg15 _),
      (h c main_arg16).trans (after_arg16 _),
      (h c main_arg17).trans (after_arg17 _)⟩)
    (run_seq scopedRefs_eq scopedSems_eq defs main (fun _ => ops) main_eq (fun _ => ops_sub) m ρ)

end Cert.ReferenceIdeal.RefValue

end
-- ==== Proof.lean ====
/-
  A head-wise low-rank projection with a head reordering: the fused kernel against the plain reference.

  Both programs take each row h of the hidden states (4096 features) through eight groups. Group i has a rank r_i
  (384, 320, 256, 256, 192, 192, 128, 128); its latent is h against r_i consecutive rows of the shared projection
  (1856 rows, the groups' rows one after the other), and its 512 outputs are the latent against the group's
  reconstruction matrix, plus the group's bias:
      out_i g = (∑ k < r_i, (∑ d, h d · VT (off_i + k, d)) · U_i (g, k)) + b_i g.
  The eight outputs side by side are a row of 32 heads of 128 columns, and the result is that row with its heads
  reordered by a fixed table: output column c is natural column table(c / 128) · 128 + c % 128.

  The two programs differ only in where they slice and reorder. The reference contracts the whole projection once
  and slices the latent's columns; the kernel slices the projection's rows first and contracts each block. The
  reference concatenates, views the row as 32 × 128 and gathers heads by the table; the kernel concatenates, cuts 32
  column blocks at the table's heads and concatenates again. The kernel works on 128 rows of the flattened hidden
  states per grid point, with every weight array resident; the reference on the whole [4, 4096, 4096] array. The
  kernel's conversions to the matrix unit's input format are identities at the ideal values. None of this is
  arithmetic: entry by entry both sides are the same two nested sums plus the same bias term, so no law of the
  extended reals beyond reading a sum at its own index set is used, and finiteness of the inputs is never needed.

  Proof/Spec.lean states that function (`Cert.HeadRows.G`). On the kernel's side: the products at an entry (KDots),
  each group's payload (KGroups), the two concatenations (KLayout), the stored block (KBlock, KRow), what the host
  operations before the call leave in each window's array (KHost) and each block read off the arguments (KReads),
  the cover of the flat output by the 128 blocks (KCover), the flat array after the run (KFinal), and the reshape
  after the region with the run (KRun). On the reference's side: its straight-line run and its value at an index
  (the Ref modules). The three frames are the generated frame runs (the reference's is its run with the result
  dropped); the idealization rewrote nothing, so it is preserved trivially.
-/
import proofs.«179934_j12378095747712_1_alg».proof.Defs
import proofs.«179934_j12378095747712_1_alg».proof.Proof.Gen.Kernel
import proofs.«179934_j12378095747712_1_alg».proof.Proof.Gen.Kernel.Frame
import proofs.«179934_j12378095747712_1_alg».proof.Proof.Gen.KernelIdeal
import proofs.«179934_j12378095747712_1_alg».proof.Proof.Gen.KernelIdeal.Frame
import proofs.«179934_j12378095747712_1_alg».proof.Proof.Gen.ReferenceIdeal
import proofs.«179934_j12378095747712_1_alg».proof.Proof.Gen.Pre_finite_inputs
import proofs.«179934_j12378095747712_1_alg».proof.Proof.KRun
import proofs.«179934_j12378095747712_1_alg».proof.Proof.RefValue

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories that agree on the arguments both programs end with the specification's function of those
    arguments in their result buffers. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9, e10, e11, e12, e13, e14, e15, e16, e17⟩ := hagree c
  rw [e0, e1, e2, e3, e4, e5, e6, e7, e8, e9, e10, e11, e12, e13, e14, e15, e16, e17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
